-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v155)) (v1 : (c : Dev Cert.KernelIdeal.nD) → Buf (Elt Ideal) ((c.tc : Thread Cert.KernelIdeal.nD Cert.KernelIdeal.τ).loc Cert.KernelIdeal.main_v136)) (v2 : (c : Dev Cert.KernelIdeal.nD) → Buf (Elt Ideal) ((c.tc : Thread Cert.KernelIdeal.nD Cert.KernelIdeal.τ).loc Cert.KernelIdeal.main_arg16)) (v3 : (c : Dev Cert.KernelIdeal.nD) → Buf (Elt Ideal) ((c.tc : Thread Cert.KernelIdeal.nD Cert.KernelIdeal.τ).loc Cert.KernelIdeal.main_arg17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_v136) = v1 c
          ∧ r.2.mem ((c.tc : Thread Cert.KernelIdeal.nD Cert.KernelIdeal.τ).loc Cert.KernelIdeal.main_arg16) = v2 c
          ∧ r.2.mem ((c.tc : Thread Cert.KernelIdeal.nD Cert.KernelIdeal.τ).loc Cert.KernelIdeal.main_arg17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg16) = v2 c
          ∧ r.2.mem ((c.tc : Thread Cert.ReferenceIdeal.nD Cert.ReferenceIdeal.τ).loc Cert.ReferenceIdeal.main_arg17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x58 : Shape := ⟨2, ![100000, 58]⟩
abbrev S2x262144 : Shape := ⟨2, ![2, 262144]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S58x100 : Shape := ⟨2, ![58, 100]⟩
abbrev S_ : Shape := ⟨0, ![]⟩

class Facts : Prop where
  bcast_S_S100000x58 : S_.BroadcastsInDim S100000x58 (![] : Fin 0 → Fin S100000x58.rank)
  reducesTo_S100000x58_S_d0_1 : S100000x58.ReducesTo [0, 1] S_
  h_S_ : 0 < S_.numel
  bcast_S_S58x300 : S_.BroadcastsInDim S58x300 (![] : Fin 0 → Fin S58x300.rank)
  reducesTo_S58x300_S_d0_1 : S58x300.ReducesTo [0, 1] S_
  bcast_S_S300 : S_.BroadcastsInDim S300 (![] : Fin 0 → Fin S300.rank)
  reducesTo_S300_S_d0 : S300.ReducesTo [0] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_
  bcast_S_S58x100 : S_.BroadcastsInDim S58x100 (![] : Fin 0 → Fin S58x100.rank)
  reducesTo_S58x100_S_d0_1 : S58x100.ReducesTo [0, 1] S_

variable [Facts]

def fn_part4 {F : FTy → Type} [FloatOps F] (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S100 .f32) (main_arg14 : FVec F S58x100 .f32) (main_arg15 : FVec F S100 .f32) (main_arg16 : FVec F S1 .f32) (main_arg17 : FVec F S1 .f32) (main_v48 : IVec S_ 1) (main_v49 : FVec F S58x100 .f32) (main_v50 : FVec F S58x100 .f32) : IVec S_ 1 :=
  let main_v51 : IVec S58x100 1 := cmpf .olt main_v49 main_v50
  let main_c_19 : IVec S_ 1 := constantI S_ 1 1#1
  let main_v52 : IVec S_ 1 := (fun x v => Host.reduce IntOp.andi x v reducesTo_S58x100_S_d0_1 h_S_) main_v51 main_c_19
  let main_v53 : IVec S_ 1 := andi main_v48 main_v52
  let main_v54 : FVec F S100 .f32 := Host.absf main_arg13
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S58x100 .f32 := Host.absf main_arg14
  let main_cst_22 : FVec F S_ .f32 := constant S_ .f32 0x7F800000#32
  let main_v60 : FVec F S58x100 .f32 := broadcastInDim S58x100 ![] bcast_S_S58x100 main_cst_22
  let main_v61 : IVec S58x100 1 := cmpf .olt main_v59 main_v60
  let main_c_23 : IVec S_ 1 := constantI S_ 1 1#1
  let main_v62 : IVec S_ 1 := (fun x v => Host.reduce IntOp.andi x v reducesTo_S58x100_S_d0_1 h_S_) main_v61 main_c_23
  let main_v63 : IVec S_ 1 := andi main_v58 main_v62
  let main_v64 : FVec F S100 .f32 := Host.absf main_arg15
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg16 main_arg17 main_v63 main_v67

def fn_part2 {F : FTy → Type} [FloatOps F] (main_arg9 : FVec F S100x1 .f32) (main_arg10 : FVec F S100x1 .f32) (main_arg11 : FVec F S1 .f32) (main_arg12 : FVec F S58x100 .f32) (main_arg13 : FVec F S100 .f32) (main_arg14 : FVec F S58x100 .f32) (main_arg15 : FVec F S100 .f32) (main_arg16 : FVec F S1 .f32) (main_arg17 : FVec F S1 .f32) (main_v33 : IVec S_ 1) : IVec S_ 1 :=
  let main_v34 : FVec F S100x1 .f32 := Host.absf main_arg9
  let main_cst_12 : FVec F S_ .f32 := constant S_ .f32 0x7F800000#32
  let main_v35 : FVec F S100x1 .f32 := broadcastInDim S100x1 ![] bcast_S_S100x1 main_cst_12
  let main_v36 : IVec S100x1 1 := cmpf .olt main_v34 main_v35
  let main_c_13 : IVec S_ 1 := constantI S_ 1 1#1
  let main_v37 : IVec S_ 1 := (fun x v => Host.reduce IntOp.andi x v reducesTo_S100x1_S_d0_1 h_S_) main_v36 main_c_13
  let main_v38 : IVec S_ 1 := andi main_v33 main_v37
  let main_v39 : FVec F S100x1 .f32 := Host.absf main_arg10
  let main_cst_14 : FVec F S_ .f32 := constant S_ .f32 0x7F800000#32
  let main_v40 : FVec F S100x1 .f32 := broadcastInDim S100x1 ![] bcast_S_S100x1 main_cst_14
  let main_v41 : IVec S100x1 1 := cmpf .olt main_v39 main_v40
  let main_c_15 : IVec S_ 1 := constantI S_ 1 1#1
  let main_v42 : IVec S_ 1 := (fun x v => Host.reduce IntOp.andi x v reducesTo_S100x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S58x100 .f32 := Host.absf main_arg12
  let main_cst_18 : FVec F S_ .f32 := constant S_ .f32 0x7F800000#32
  let main_v50 : FVec F S58x100 .f32 := broadcastInDim S58x100 ![] bcast_S_S58x100 main_cst_18
  fn_part3 (F := F) main_arg13 main_arg14 main_arg15 main_arg16 main_arg17 main_v48 main_v49 main_v50

def fn_part1 {F : FTy → Type} [FloatOps F] (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S58x100 .f32) (main_arg13 : FVec F S100 .f32) (main_arg14 : FVec F S58x100 .f32) (main_arg15 : FVec F S100 .f32) (main_arg16 : FVec F S1 .f32) (main_arg17 : FVec F S1 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x100 .f32 := Host.absf main_arg6
  let main_cst_6 : FVec F S_ .f32 := constant S_ .f32 0x7F800000#32
  let main_v20 : FVec F S300x100 .f32 := broadcastInDim S300x100 ![] bcast_S_S300x100 main_cst_6
  let main_v21 : IVec S300x100 1 := cmpf .olt main_v19 main_v20
  let main_c_7 : IVec S_ 1 := constantI S_ 1 1#1
  let main_v22 : IVec S_ 1 := (fun x v => Host.reduce IntOp.andi x v reducesTo_S300x100_S_d0_1 h_S_) main_v21 main_c_7
  let main_v23 : IVec S_ 1 := andi main_v18 main_v22
  let main_v24 : FVec F S300x100 .f32 := Host.absf main_arg7
  let main_cst_8 : FVec F S_ .f32 := constant S_ .f32 0x7F800000#32
  let main_v25 : FVec F S300x100 .f32 := broadcastInDim S300x100 ![] bcast_S_S300x100 main_cst_8
  let main_v26 : IVec S300x100 1 := cmpf .olt main_v24 main_v25
  let main_c_9 : IVec S_ 1 := constantI S_ 1 1#1
  let main_v27 : IVec S_ 1 := (fun x v => Host.reduce IntOp.andi x v reducesTo_S300x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x58 .f32) (main_arg1 : IVec S2x262144 32) (main_arg2 : IVec S2x262144 32) (main_arg3 : FVec F S58x300 .f32) (main_arg4 : FVec F S58x300 .f32) (main_arg5 : FVec F S300 .f32) (main_arg6 : FVec F S300x100 .f32) (main_arg7 : FVec F S300x100 .f32) (main_arg8 : FVec F S100 .f32) (main_arg9 : FVec F S100x1 .f32) (main_arg10 : FVec F S100x1 .f32) (main_arg11 : FVec F S1 .f32) (main_arg12 : FVec F S58x100 .f32) (main_arg13 : FVec F S100 .f32) (main_arg14 : FVec F S58x100 .f32) (main_arg15 : FVec F S100 .f32) (main_arg16 : FVec F S1 .f32) (main_arg17 : FVec F S1 .f32) : IVec S_ 1 :=
  let main_v0 : FVec F S100000x58 .f32 := Host.absf main_arg0
  let main_cst : FVec F S_ .f32 := constant S_ .f32 0x7F800000#32
  let main_v1 : FVec F S100000x58 .f32 := broadcastInDim S100000x58 ![] bcast_S_S100000x58 main_cst
  let main_v2 : IVec S100000x58 1 := cmpf .olt main_v0 main_v1
  let main_c : IVec S_ 1 := constantI S_ 1 1#1
  let main_v3 : IVec S_ 1 := (fun x v => Host.reduce IntOp.andi x v reducesTo_S100000x58_S_d0_1 h_S_) main_v2 main_c
  let main_v4 : FVec F S58x300 .f32 := Host.absf main_arg3
  let main_cst_0 : FVec F S_ .f32 := constant S_ .f32 0x7F800000#32
  let main_v5 : FVec F S58x300 .f32 := broadcastInDim S58x300 ![] bcast_S_S58x300 main_cst_0
  let main_v6 : IVec S58x300 1 := cmpf .olt main_v4 main_v5
  let main_c_1 : IVec S_ 1 := constantI S_ 1 1#1
  let main_v7 : IVec S_ 1 := (fun x v => Host.reduce IntOp.andi x v reducesTo_S58x300_S_d0_1 h_S_) main_v6 main_c_1
  let main_v8 : IVec S_ 1 := andi main_v3 main_v7
  let main_v9 : FVec F S58x300 .f32 := Host.absf main_arg4
  let main_cst_2 : FVec F S_ .f32 := constant S_ .f32 0x7F800000#32
  let main_v10 : FVec F S58x300 .f32 := broadcastInDim S58x300 ![] bcast_S_S58x300 main_cst_2
  let main_v11 : IVec S58x300 1 := cmpf .olt main_v9 main_v10
  let main_c_3 : IVec S_ 1 := constantI S_ 1 1#1
  let main_v12 : IVec S_ 1 := (fun x v => Host.reduce IntOp.andi x v reducesTo_S58x300_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x58 : Shape := ⟨2, ![100000, 58]⟩
abbrev S2x262144 : Shape := ⟨2, ![2, 262144]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S58x100 : Shape := ⟨2, ![58, 100]⟩
abbrev S1x262144 : Shape := ⟨2, ![1, 262144]⟩
abbrev S262144 : Shape := ⟨1, ![262144]⟩
abbrev S_ : Shape := ⟨0, ![]⟩
abbrev S100000 : Shape := ⟨1, ![100000]⟩
abbrev S262144x1 : Shape := ⟨2, ![262144, 1]⟩
abbrev S262144x58 : Shape := ⟨2, ![262144, 58]⟩
abbrev S1x300 : Shape := ⟨2, ![1, 300]⟩
abbrev S100000x300 : Shape := ⟨2, ![100000, 300]⟩
abbrev S100000x100 : Shape := ⟨2, ![100000, 100]⟩
abbrev S2000x58 : Shape := ⟨2, ![2000, 58]⟩
abbrev S2000x300 : Shape := ⟨2, ![2000, 300]⟩
abbrev S2000x100 : Shape := ⟨2, ![2000, 100]⟩
abbrev S262144x100 : Shape := ⟨2, ![262144, 100]⟩
abbrev S1x100 : Shape := ⟨2, ![1, 100]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 218
  | .vmem => 39
  | .smem => 0
  | _ => 0

abbrev hbmTy0_0 (i : Nat) : BufTy := match i % 128 with
  | 0 => ⟨S100000x58, .f32⟩
  | 1 => ⟨S2x262144, .i32⟩
  | 2 => ⟨S2x262144, .i32⟩
  | 3 => ⟨S58x300, .f32⟩
  | 4 => ⟨S58x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S58x100, .f32⟩
  | 13 => ⟨S100, .f32⟩
  | 14 => ⟨S58x100, .f32⟩
  | 15 => ⟨S100, .f32⟩
  | 16 => ⟨S1, .f32⟩
  | 17 => ⟨S1, .f32⟩
  | 18 => ⟨S1x262144, .i32⟩
  | 19 => ⟨S262144, .i32⟩
  | 20 => ⟨S1x262144, .i32⟩
  | 21 => ⟨S262144, .i32⟩
  | 22 => ⟨S_, .f32⟩
  | 23 => ⟨S262144, .f32⟩
  | 24 => ⟨S_, .f32⟩
  | 25 => ⟨S100000, .f32⟩
  | 26 => ⟨S262144x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S262144, .i32⟩
  | 41 => ⟨S262144, .i1⟩
  | 42 => ⟨S_, .i32⟩
  | 43 => ⟨S262144, .i32⟩
  | 44 => ⟨S262144, .i32⟩
  | 45 => ⟨S262144, .i32⟩
  | 46 => ⟨S262144x1, .i32⟩
  | 47 => ⟨S262144, .f32⟩
  | 48 => ⟨S262144, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144, .f32⟩
  | 58 => ⟨S262144, .f32⟩
  | 59 => ⟨S1x262144, .i32⟩
  | 60 => ⟨S262144, .i32⟩
  | 61 => ⟨S1x262144, .i32⟩
  | 62 => ⟨S262144, .i32⟩
  | 63 => ⟨S262144x1, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S262144x58, .f32⟩
  | 73 => ⟨S262144x58, .f32⟩
  | 74 => ⟨S262144x58, .f32⟩
  | 75 => ⟨S_, .f32⟩
  | 76 => ⟨S100000x58, .f32⟩
  | 77 => ⟨S262144x1, .i32⟩
  | 78 => ⟨S100000x58, .f32⟩
  | 79 => ⟨S1x300, .f32⟩
  | 80 => ⟨S100000x300, .f32⟩
  | 81 => ⟨S100000x100, .f32⟩
  | 82 => ⟨S1x262144, .i32⟩
  | 83 => ⟨S262144, .i32⟩
  | 84 => ⟨S1x262144, .i32⟩
  | 85 => ⟨S262144, .i32⟩
  | 86 => ⟨S262144x1, .f32⟩
  | 87 => ⟨S_, .i32⟩
  | 88 => ⟨S262144, .i32⟩
  | 89 => ⟨S262144, .i1⟩
  | 90 => ⟨S_, .i32⟩
  | 91 => ⟨S262144, .i32⟩
  | 92 => ⟨S262144, .i32⟩
  | 93 => ⟨S262144, .i32⟩
  | 94 => ⟨S262144x1, .i32⟩
  | 95 => ⟨S262144x100, .f32⟩
  | 96 => ⟨S262144x100, .f32⟩
  | 97 => ⟨S262144x100, .f32⟩
  | 98 => ⟨S_, .f32⟩
  | 99 => ⟨S100000x100, .f32⟩
  | 100 => ⟨S262144x1, .i32⟩
  | 101 => ⟨S100000x100, .f32⟩
  | 102 => ⟨S1x100, .f32⟩
  | 103 => ⟨S1x100, .f32⟩
  | 104 => ⟨S1x100, .f32⟩
  | 105 => ⟨S100000x100, .f32⟩
  | 106 => ⟨S100000x100, .f32⟩
  | 107 => ⟨S100000x1, .f32⟩
  | 108 => ⟨S1x262144, .i32⟩
  | 109 => ⟨S262144, .i32⟩
  | 110 => ⟨S_, .i32⟩
  | 111 => ⟨S262144, .i32⟩
  | 112 => ⟨S262144, .i1⟩
  | 113 => ⟨S_, .i32⟩
  | 114 => ⟨S262144, .i32⟩
  | 115 => ⟨S262144, .i32⟩
  | 116 => ⟨S262144, .i32⟩
  | 117 => ⟨S262144x1, .i32⟩
  | 118 => ⟨S262144x100, .f32⟩
  | 119 => ⟨S1x262144, .i32⟩
  | 120 => ⟨S262144, .i32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S100000x58, .f32⟩

abbrev hbmTy0_1 (i : Nat) : BufTy := match i % 128 with
  | 0 => ⟨S262144x1, .i32⟩
  | 1 => ⟨S262144x100, .f32⟩
  | 2 => ⟨S262144x100, .f32⟩
  | 3 => ⟨S_, .f32⟩
  | 4 => ⟨S262144, .f32⟩
  | 5 => ⟨S1x262144, .i32⟩
  | 6 => ⟨S262144, .i32⟩
  | 7 => ⟨S_, .i32⟩
  | 8 => ⟨S262144, .i32⟩
  | 9 => ⟨S262144, .i1⟩
  | 10 => ⟨S_, .i32⟩
  | 11 => ⟨S262144, .i32⟩
  | 12 => ⟨S262144, .i32⟩
  | 13 => ⟨S262144, .i32⟩
  | 14 => ⟨S262144x1, .i32⟩
  | 15 => ⟨S262144x100, .f32⟩
  | 16 => ⟨S1x262144, .i32⟩
  | 17 => ⟨S262144, .i32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x100, .f32⟩
  | 27 => ⟨S262144x100, .f32⟩
  | 28 => ⟨S_, .f32⟩
  | 29 => ⟨S262144, .f32⟩
  | 30 => ⟨S262144, .f32⟩
  | 31 => ⟨S262144, .f32⟩
  | 32 => ⟨S_, .f32⟩
  | 33 => ⟨S262144, .f32⟩
  | 34 => ⟨S262144, .f32⟩
  | 35 => ⟨S_, .f32⟩
  | 36 => ⟨S262144, .f32⟩
  | 37 => ⟨S262144, .f32⟩
  | 38 => ⟨S_, .f32⟩
  | 39 => ⟨S262144, .f32⟩
  | 40 => ⟨S262144, .f32⟩
  | 41 => ⟨S262144, .f32⟩
  | 42 => ⟨S_, .f32⟩
  | 43 => ⟨S_, .f32⟩
  | 44 => ⟨S_, .f32⟩
  | 45 => ⟨S_, .f32⟩
  | 46 => ⟨S_, .f32⟩
  | 47 => ⟨S262144, .f32⟩
  | 48 => ⟨S262144, .f32⟩
  | 49 => ⟨S_, .f32⟩
  | 50 => ⟨S262144, .f32⟩
  | 51 => ⟨S262144, .f32⟩
  | 52 => ⟨S_, .f32⟩
  | 53 => ⟨S262144, .f32⟩
  | 54 => ⟨S262144, .f32⟩
  | 55 => ⟨S_, .f32⟩
  | 56 => ⟨S262144, .f32⟩
  | 57 => ⟨S262144, .f32⟩
  | 58 => ⟨S_, .f32⟩
  | 59 => ⟨S262144, .f32⟩
  | 60 => ⟨S262144, .f32⟩
  | 61 => ⟨S262144, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1x262144, .i32⟩
  | 69 => ⟨S262144, .i32⟩
  | 70 => ⟨S1x262144, .i32⟩
  | 71 => ⟨S262144, .i32⟩
  | 72 => ⟨S262144x1, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x1, .f32⟩
  | 82 => ⟨S262144x1, .f32⟩
  | 83 => ⟨S_, .f32⟩
  | 84 => ⟨S100000x1, .f32⟩
  | 85 => ⟨S262144x1, .i32⟩
  | 86 => ⟨S100000x1, .f32⟩
  | 87 => ⟨S1x1, .f32⟩
  | 88 => ⟨S100000x1, .f32⟩
  | 89 => ⟨S100000, .f32⟩
  | _ => ⟨S100000x58, .f32⟩

abbrev hbmTy (i : Nat) : BufTy := match i / 128 with
  | 0 => hbmTy0_0 i
  | 1 => hbmTy0_1 i
  | _ => ⟨S100000x58, .f32⟩

abbrev bufTy : (tb : Table) → Fin (tcTables nBuf tb) → BufTy
  | .hbm, ⟨i, _⟩ => hbmTy i
  | .local _ .vmem, ⟨0, _⟩ => ⟨S2000x58, .f32⟩
  | .local _ .vmem, ⟨1, _⟩ => ⟨S2000x58, .f32⟩
  | .local _ .vmem, ⟨2, _⟩ => ⟨S2000x58, .f32⟩
  | .local _ .vmem, ⟨3, _⟩ => ⟨S2000x58, .f32⟩
  | .local _ .vmem, ⟨4, _⟩ => ⟨S58x300, .f32⟩
  | .local _ .vmem, ⟨5, _⟩ => ⟨S58x300, .f32⟩
  | .local _ .vmem, ⟨6, _⟩ => ⟨S1x300, .f32⟩
  | .local _ .vmem, ⟨7, _⟩ => ⟨S300x100, .f32⟩
  | .local _ .vmem, ⟨8, _⟩ => ⟨S2000x300, .f32⟩
  | .local _ .vmem, ⟨9, _⟩ => ⟨S2000x300, .f32⟩
  | .local _ .vmem, ⟨10, _⟩ => ⟨S2000x100, .f32⟩
  | .local _ .vmem, ⟨11, _⟩ => ⟨S2000x100, .f32⟩
  | .local _ .vmem, ⟨12, _⟩ => ⟨S2000x300, .f32⟩
  | .local _ .vmem, ⟨13, _⟩ => ⟨S2000x300, .f32⟩
  | .local _ .vmem, ⟨14, _⟩ => ⟨S2000x100, .f32⟩
  | .local _ .vmem, ⟨15, _⟩ => ⟨S2000x100, .f32⟩
  | .local _ .vmem, ⟨16, _⟩ => ⟨S2000x58, .f32⟩
  | .local _ .vmem, ⟨17, _⟩ => ⟨S2000x58, .f32⟩
  | .local _ .vmem, ⟨18, _⟩ => ⟨S300x100, .f32⟩
  | .local _ .vmem, ⟨19, _⟩ => ⟨S1x100, .f32⟩
  | .local _ .vmem, ⟨20, _⟩ => ⟨S58x100, .f32⟩
  | .local _ .vmem, ⟨21, _⟩ => ⟨S1x100, .f32⟩
  | .local _ .vmem, ⟨22, _⟩ => ⟨S58x100, .f32⟩
  | .local _ .vmem, ⟨23, _⟩ => ⟨S1x100, .f32⟩
  | .local _ .vmem, ⟨24, _⟩ => ⟨S100x1, .f32⟩
  | .local _ .vmem, ⟨25, _⟩ => ⟨S2000x100, .f32⟩
  | .local _ .vmem, ⟨26, _⟩ => ⟨S2000x100, .f32⟩
  | .local _ .vmem, ⟨27, _⟩ => ⟨S2000x100, .f32⟩
  | .local _ .vmem, ⟨28, _⟩ => ⟨S2000x100, .f32⟩
  | .local _ .vmem, ⟨29, _⟩ => ⟨S2000x1, .f32⟩
  | .local _ .vmem, ⟨30, _⟩ => ⟨S2000x1, .f32⟩
  | .local _ .vmem, ⟨31, _⟩ => ⟨S2000x100, .f32⟩
  | .local _ .vmem, ⟨32, _⟩ => ⟨S2000x100, .f32⟩
  | .local _ .vmem, ⟨33, _⟩ => ⟨S2000x1, .f32⟩
  | .local _ .vmem, ⟨34, _⟩ => ⟨S2000x1, .f32⟩
  | .local _ .vmem, ⟨35, _⟩ => ⟨S100x1, .f32⟩
  | .local _ .vmem, ⟨36, _⟩ => ⟨S1x1, .f32⟩
  | .local _ .vmem, ⟨37, _⟩ => ⟨S2000x1, .f32⟩
  | .local _ .vmem, ⟨38, _⟩ => ⟨S2000x1, .f32⟩
  | _, _ => ⟨S100000x58, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48_0 : Ref sig .tc := ⟨.hbm, 80, rfl⟩
abbrev main_v48_1 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_10 : Ref sig .tc := ⟨.hbm, 87, rfl⟩
abbrev main_v54 : Ref sig .tc := ⟨.hbm, 88, rfl⟩
abbrev main_v55 : Ref sig .tc := ⟨.hbm, 89, rfl⟩
abbrev main_c_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69_0 : Ref sig .tc := ⟨.hbm, 105, rfl⟩
abbrev main_v69_1 : Ref sig .tc := ⟨.hbm, 106, rfl⟩
abbrev main_v69_2 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_v72 : Ref sig .tc := ⟨.hbm, 111, rfl⟩
abbrev main_v73 : Ref sig .tc := ⟨.hbm, 112, rfl⟩
abbrev main_c_14 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_15 : Ref sig .tc := ⟨.hbm, 121, rfl⟩
abbrev main_v81 : Ref sig .tc := ⟨.hbm, 122, rfl⟩
abbrev main_v82 : Ref sig .tc := ⟨.hbm, 123, rfl⟩
abbrev main_c_16 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_17 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_18 : Ref sig .tc := ⟨.hbm, 135, rfl⟩
abbrev main_v92 : Ref sig .tc := ⟨.hbm, 136, rfl⟩
abbrev main_v93 : Ref sig .tc := ⟨.hbm, 137, rfl⟩
abbrev main_c_19 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_20 : Ref sig .tc := ⟨.hbm, 146, rfl⟩
abbrev main_v101 : Ref sig .tc := ⟨.hbm, 147, rfl⟩
abbrev main_v102 : Ref sig .tc := ⟨.hbm, 148, rfl⟩
abbrev main_c_21 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_22 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_23 : Ref sig .tc := ⟨.hbm, 160, rfl⟩
abbrev main_v112 : Ref sig .tc := ⟨.hbm, 161, rfl⟩
abbrev main_v113 : Ref sig .tc := ⟨.hbm, 162, rfl⟩
abbrev main_cst_24 : Ref sig .tc := ⟨.hbm, 163, rfl⟩
abbrev main_v114 : Ref sig .tc := ⟨.hbm, 164, rfl⟩
abbrev main_v115 : Ref sig .tc := ⟨.hbm, 165, rfl⟩
abbrev main_cst_25 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_26 : Ref sig .tc := ⟨.hbm, 170, rfl⟩
abbrev main_v119 : Ref sig .tc := ⟨.hbm, 171, rfl⟩
abbrev main_cst_27 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_28 : Ref sig .tc := ⟨.hbm, 177, rfl⟩
abbrev main_v124 : Ref sig .tc := ⟨.hbm, 178, rfl⟩
abbrev main_v125 : Ref sig .tc := ⟨.hbm, 179, rfl⟩
abbrev main_cst_29 : Ref sig .tc := ⟨.hbm, 180, rfl⟩
abbrev main_v126 : Ref sig .tc := ⟨.hbm, 181, rfl⟩
abbrev main_v127 : Ref sig .tc := ⟨.hbm, 182, rfl⟩
abbrev main_cst_30 : Ref sig .tc := ⟨.hbm, 183, rfl⟩
abbrev main_v128 : Ref sig .tc := ⟨.hbm, 184, rfl⟩
abbrev main_v129 : Ref sig .tc := ⟨.hbm, 185, rfl⟩
abbrev main_cst_31 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_32 : Ref sig .tc := ⟨.hbm, 190, rfl⟩
abbrev main_v133 : Ref sig .tc := ⟨.hbm, 191, rfl⟩
abbrev main_cst_33 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_c_34 : Ref sig .tc := ⟨.hbm, 201, rfl⟩
abbrev main_v142 : Ref sig .tc := ⟨.hbm, 202, rfl⟩
abbrev main_v143 : Ref sig .tc := ⟨.hbm, 203, rfl⟩
abbrev main_c_35 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_36 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc1_stg12_0 : Ref sig .tc := ⟨.vmem, 29, rfl⟩
abbrev cc1_stg12_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26
abbrev cc1_sem11_0 : DmaSem sig := 27
abbrev cc1_sem11_1 : DmaSem sig := 28
abbrev cc1_sem12_0 : DmaSem sig := 29
abbrev cc1_sem12_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem3_0 : DmaSem sig := 36
abbrev cc2_sem4_0 : DmaSem sig := 37
abbrev cc2_sem4_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x58 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S58x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S58x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x58 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S300x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S58x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S58x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S100x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x100 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x100 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S100000 : S_.BroadcastsInDim S100000 (![] : Fin 0 → Fin S100000.rank)
  bcast_S262144_S262144x1_0 : S262144.BroadcastsInDim S262144x1 (![0] : Fin 1 → Fin S262144x1.rank)
  bcast_S262144x1_S262144x58_0_1 : S262144x1.BroadcastsInDim S262144x58 (![0, 1] : Fin 2 → Fin S262144x58.rank)
  bcast_S_S100000x58 : S_.BroadcastsInDim S100000x58 (![] : Fin 0 → Fin S100000x58.rank)
  shapeCasts_S300_S1x300 : S300.ShapeCasts S1x300
  inb_S2000x58_S2000x58_0_0 : ∀ a, (![0, 0] : Fin 2 → Nat) a + S2000x58.size a ≤ S2000x58.size a
  h_S2000x58 : 0 < S2000x58.numel
  bitsLt_bf16_f32 : FTy.bits .bf16 < FTy.bits .f32
  shapeCasts_S2000x58_S2000x58 : S2000x58.ShapeCasts S2000x58
  inb_S58x300_S58x300_0_0 : ∀ a, (![0, 0] : Fin 2 → Nat) a + S58x300.size a ≤ S58x300.size a
  h_S58x300 : 0 < S58x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  inb_S300x100_S300x100_0_0 : ∀ a, (![0, 0] : Fin 2 → Nat) a + S300x100.size a ≤ S300x100.size a
  h_S300x100 : 0 < S300x100.numel
  inb_S2000x100_S2000x100_0_0 : ∀ a, (![0, 0] : Fin 2 → Nat) a + S2000x100.size a ≤ S2000x100.size a
  h_S2000x100 : 0 < S2000x100.numel
  bcast_S262144x1_S262144x100_0_1 : S262144x1.BroadcastsInDim S262144x100 (![0, 1] : Fin 2 → Fin S262144x100.rank)
  bcast_S_S100000x100 : S_.BroadcastsInDim S100000x100 (![] : Fin 0 → Fin S100000x100.rank)
  shapeCasts_S100_S1x100 : S100.ShapeCasts S1x100
  shapeCasts_S2000x300_S2000x300 : S2000x300.ShapeCasts S2000x300
  shapeCasts_S2000x100_S2000x100 : S2000x100.ShapeCasts S2000x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S58x100_S58x100_0_0 : ∀ a, (![0, 0] : Fin 2 → Nat) a + S58x100.size a ≤ S58x100.size a
  h_S58x100 : 0 < S58x100.numel
  inb_S100x1_S100x1_0_0 : ∀ a, (![0, 0] : Fin 2 → Nat) a + S100x1.size a ≤ S100x1.size a
  h_S100x1 : 0 < S100x1.numel
  inb_S2000x1_S2000x1_0_0 : ∀ a, (![0, 0] : Fin 2 → Nat) a + S2000x1.size a ≤ S2000x1.size a
  h_S2000x1 : 0 < S2000x1.numel
  reducesTo_S262144x100_S262144_d1 : S262144x100.ReducesTo [1] S262144
  h_S_ : 0 < S_.numel
  reducesTo_S262144_S_d0 : S262144.ReducesTo [0] S_
  bcast_S_S100000x1 : S_.BroadcastsInDim S100000x1 (![] : Fin 0 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S100000x1_S100000 : S100000x1.ShapeCasts S100000
  scatter_S100000_S262144x1_S262144_n_0_0_1_wf : ScatterDims.WF S100000 S262144x1 S262144 [] [0] [0] 1
  gather_S100000_S262144x1_S262144_n_0_n_n_0_1_1_wf : GatherDims.WF S100000 S262144x1 S262144 [] [0] [] [0] [] 1 ![1]
  gather_S100000x58_S262144x1_S262144x58_1_0_n_n_0_1_158_wf : GatherDims.WF S100000x58 S262144x1 S262144x58 [1] [0] [] [0] [] 1 ![1, 58]
  scatter_S100000x58_S262144x1_S262144x58_1_0_0_1_wf : ScatterDims.WF S100000x58 S262144x1 S262144x58 [1] [0] [0] 1
  dot_S2000x58_S58x300_S2000x300_1_0_0_1_n_n_wf : DotDims.WF S2000x58 S58x300 S2000x300 [1] [0] [0] [1] [] []
  dot_S2000x300_S300x100_S2000x100_1_0_0_1_n_n_wf : DotDims.WF S2000x300 S300x100 S2000x100 [1] [0] [0] [1] [] []
  gather_S100000x100_S262144x1_S262144x100_1_0_n_n_0_1_1100_wf : GatherDims.WF S100000x100 S262144x1 S262144x100 [1] [0] [] [0] [] 1 ![1, 100]
  scatter_S100000x100_S262144x1_S262144x100_1_0_0_1_wf : ScatterDims.WF S100000x100 S262144x1 S262144x100 [1] [0] [0] 1
  dot_S2000x58_S58x100_S2000x100_1_0_0_1_n_n_wf : DotDims.WF S2000x58 S58x100 S2000x100 [1] [0] [0] [1] [] []
  dot_S2000x100_S100x1_S2000x1_1_0_0_1_n_n_wf : DotDims.WF S2000x100 S100x1 S2000x1 [1] [0] [0] [1] [] []
  gather_S100000x1_S262144x1_S262144x1_1_0_n_n_0_1_11_wf : GatherDims.WF S100000x1 S262144x1 S262144x1 [1] [0] [] [0] [] 1 ![1, 1]
  scatter_S100000x1_S262144x1_S262144x1_1_0_0_1_wf : ScatterDims.WF S100000x1 S262144x1 S262144x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x58.size a ≤ S100000x58.size a
  hwx0_0 : ∀ i : grid0.Coords, EltTy.bits .f32 = 32 ∨ (Rect.block (s := S100000x58) S2000x58.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x58.size a ≤ S100000x58.size a
  hwx0_1 : ∀ i : grid0.Coords, EltTy.bits .f32 = 32 ∨ (Rect.block (s := S100000x58) S2000x58.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S58x300.size a ≤ S58x300.size a
  hwx0_2 : ∀ i : grid0.Coords, EltTy.bits .f32 = 32 ∨ (Rect.block (s := S58x300) S58x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S58x300.size a ≤ S58x300.size a
  hwx0_3 : ∀ i : grid0.Coords, EltTy.bits .f32 = 32 ∨ (Rect.block (s := S58x300) S58x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x100.size a ≤ S300x100.size a
  hwx0_5 : ∀ i : grid0.Coords, EltTy.bits .f32 = 32 ∨ (Rect.block (s := S300x100) S300x100.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x300.size a ≤ S100000x300.size a
  hwx0_6 : ∀ i : grid0.Coords, EltTy.bits .f32 = 32 ∨ (Rect.block (s := S100000x300) S2000x300.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x100.size a ≤ S100000x100.size a
  hwx0_7 : ∀ i : grid0.Coords, EltTy.bits .f32 = 32 ∨ (Rect.block (s := S100000x100) S2000x100.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S100000x300.size a
  hwx1_0 : ∀ i : grid1.Coords, EltTy.bits .f32 = 32 ∨ (Rect.block (s := S100000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x100.size a ≤ S100000x100.size a
  hwx1_1 : ∀ i : grid1.Coords, EltTy.bits .f32 = 32 ∨ (Rect.block (s := S100000x100) S2000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x58.size a ≤ S100000x58.size a
  hwx1_2 : ∀ i : grid1.Coords, EltTy.bits .f32 = 32 ∨ (Rect.block (s := S100000x58) S2000x58.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x100.size a ≤ S300x100.size a
  hwx1_3 : ∀ i : grid1.Coords, EltTy.bits .f32 = 32 ∨ (Rect.block (s := S300x100) S300x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S58x100.size a ≤ S58x100.size a
  hwx1_5 : ∀ i : grid1.Coords, EltTy.bits .f32 = 32 ∨ (Rect.block (s := S58x100) S58x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x100.size a ≤ S1x100.size a
  hwx1_6 : ∀ i : grid1.Coords, EltTy.bits .f32 = 32 ∨ (Rect.block (s := S1x100) S1x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S58x100.size a ≤ S58x100.size a
  hwx1_7 : ∀ i : grid1.Coords, EltTy.bits .f32 = 32 ∨ (Rect.block (s := S58x100) S58x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x100.size a ≤ S1x100.size a
  hwx1_8 : ∀ i : grid1.Coords, EltTy.bits .f32 = 32 ∨ (Rect.block (s := S1x100) S1x100.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S100x1.size a ≤ S100x1.size a
  hwx1_9 : ∀ i : grid1.Coords, EltTy.bits .f32 = 32 ∨ (Rect.block (s := S100x1) S100x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x100.size a ≤ S100000x100.size a
  hwx1_10 : ∀ i : grid1.Coords, EltTy.bits .f32 = 32 ∨ (Rect.block (s := S100000x100) S2000x100.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x100.size a ≤ S100000x100.size a
  hwx1_11 : ∀ i : grid1.Coords, EltTy.bits .f32 = 32 ∨ (Rect.block (s := S100000x100) S2000x100.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x1.size a ≤ S100000x1.size a
  hwx1_12 : ∀ i : grid1.Coords, EltTy.bits .f32 = 32 ∨ (Rect.block (s := S100000x1) S2000x1.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x100.size a ≤ S100000x100.size a
  hwx2_0 : ∀ i : grid2.Coords, EltTy.bits .f32 = 32 ∨ (Rect.block (s := S100000x100) S2000x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S100x1.size a ≤ S100x1.size a
  hwx2_2 : ∀ i : grid2.Coords, EltTy.bits .f32 = 32 ∨ (Rect.block (s := S100x1) S100x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)

variable [Facts₀]

def scatter_S100000_S262144x1_S262144_n_0_0_1 : ScatterDims S100000 S262144x1 S262144 where
  updateWindowDims := []
  insertedWindowDims := [0]
  scatterDimsToOperandDims := [0]
  indexVectorDim := 1
  wf := scatter_S100000_S262144x1_S262144_n_0_0_1_wf
def gather_S100000_S262144x1_S262144_n_0_n_n_0_1_1 : GatherDims S100000 S262144x1 S262144 where
  offsetDims := []
  collapsedSliceDims := [0]
  operandBatchingDims := []
  startIndicesBatchingDims := []
  startIndexMap := [0]
  indexVectorDim := 1
  sliceSizes := ![1]
  wf := gather_S100000_S262144x1_S262144_n_0_n_n_0_1_1_wf
def gather_S100000x58_S262144x1_S262144x58_1_0_n_n_0_1_158 : GatherDims S100000x58 S262144x1 S262144x58 where
  offsetDims := [1]
  collapsedSliceDims := [0]
  operandBatchingDims := []
  startIndicesBatchingDims := []
  startIndexMap := [0]
  indexVectorDim := 1
  sliceSizes := ![1, 58]
  wf := gather_S100000x58_S262144x1_S262144x58_1_0_n_n_0_1_158_wf
def scatter_S100000x58_S262144x1_S262144x58_1_0_0_1 : ScatterDims S100000x58 S262144x1 S262144x58 where
  updateWindowDims := [1]
  insertedWindowDims := [0]
  scatterDimsToOperandDims := [0]
  indexVectorDim := 1
  wf := scatter_S100000x58_S262144x1_S262144x58_1_0_0_1_wf
def dot_S2000x58_S58x300_S2000x300_1_0_0_1_n_n : DotDims S2000x58 S58x300 S2000x300 where
  lhsContracting := [1]
  rhsContracting := [0]
  lhsNonContracting := [0]
  rhsNonContracting := [1]
  lhsBatch := []
  rhsBatch := []
  wf := dot_S2000x58_S58x300_S2000x300_1_0_0_1_n_n_wf
def dot_S2000x300_S300x100_S2000x100_1_0_0_1_n_n : DotDims S2000x300 S300x100 S2000x100 where
  lhsContracting := [1]
  rhsContracting := [0]
  lhsNonContracting := [0]
  rhsNonContracting := [1]
  lhsBatch := []
  rhsBatch := []
  wf := dot_S2000x300_S300x100_S2000x100_1_0_0_1_n_n_wf
def gather_S100000x100_S262144x1_S262144x100_1_0_n_n_0_1_1100 : GatherDims S100000x100 S262144x1 S262144x100 where
  offsetDims := [1]
  collapsedSliceDims := [0]
  operandBatchingDims := []
  startIndicesBatchingDims := []
  startIndexMap := [0]
  indexVectorDim := 1
  sliceSizes := ![1, 100]
  wf := gather_S100000x100_S262144x1_S262144x100_1_0_n_n_0_1_1100_wf
def scatter_S100000x100_S262144x1_S262144x100_1_0_0_1 : ScatterDims S100000x100 S262144x1 S262144x100 where
  updateWindowDims := [1]
  insertedWindowDims := [0]
  scatterDimsToOperandDims := [0]
  indexVectorDim := 1
  wf := scatter_S100000x100_S262144x1_S262144x100_1_0_0_1_wf
def dot_S2000x58_S58x100_S2000x100_1_0_0_1_n_n : DotDims S2000x58 S58x100 S2000x100 where
  lhsContracting := [1]
  rhsContracting := [0]
  lhsNonContracting := [0]
  rhsNonContracting := [1]
  lhsBatch := []
  rhsBatch := []
  wf := dot_S2000x58_S58x100_S2000x100_1_0_0_1_n_n_wf
def dot_S2000x100_S100x1_S2000x1_1_0_0_1_n_n : DotDims S2000x100 S100x1 S2000x1 where
  lhsContracting := [1]
  rhsContracting := [0]
  lhsNonContracting := [0]
  rhsNonContracting := [1]
  lhsBatch := []
  rhsBatch := []
  wf := dot_S2000x100_S100x1_S2000x1_1_0_0_1_n_n_wf
def gather_S100000x1_S262144x1_S262144x1_1_0_n_n_0_1_11 : GatherDims S100000x1 S262144x1 S262144x1 where
  offsetDims := [1]
  collapsedSliceDims := [0]
  operandBatchingDims := []
  startIndicesBatchingDims := []
  startIndexMap := [0]
  indexVectorDim := 1
  sliceSizes := ![1, 1]
  wf := gather_S100000x1_S262144x1_S262144x1_1_0_n_n_0_1_11_wf
def scatter_S100000x1_S262144x1_S262144x1_1_0_0_1 : ScatterDims S100000x1 S262144x1 S262144x1 where
  updateWindowDims := [1]
  insertedWindowDims := [0]
  scatterDimsToOperandDims := [0]
  indexVectorDim := 1
  wf := scatter_S100000x1_S262144x1_S262144x1_1_0_0_1_wf

abbrev win0_0 : Pipeline.Window sig grid0 :=
  Pipeline.Window.ofSpec (Memref.whole main_arg0) S2000x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2000x58.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S58x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S58x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S300x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48_0) S2000x300.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v48_1) S2000x100.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v48_0) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S2000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x58.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S300x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S58x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S58x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v68) S1x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S100x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v69_0) S2000x100.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v69_1) S2000x100.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v69_2) S2000x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v69_0) S2000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v152) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S100x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v153) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v154) S2000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x58 : Shape := ⟨2, ![100000, 58]⟩
abbrev S2x262144 : Shape := ⟨2, ![2, 262144]⟩
abbrev S58x300 : Shape := ⟨2, ![58, 300]⟩
abbrev S300 : Shape := ⟨1, ![300]⟩
abbrev S300x100 : Shape := ⟨2, ![300, 100]⟩
abbrev S100 : Shape := ⟨1, ![100]⟩
abbrev S100x1 : Shape := ⟨2, ![100, 1]⟩
abbrev S1 : Shape := ⟨1, ![1]⟩
abbrev S58x100 : Shape := ⟨2, ![58, 100]⟩
abbrev S1x262144 : Shape := ⟨2, ![1, 262144]⟩
abbrev S262144 : Shape := ⟨1, ![262144]⟩
abbrev S_ : Shape := ⟨0, ![]⟩
abbrev S100000 : Shape := ⟨1, ![100000]⟩
abbrev S262144x1 : Shape := ⟨2, ![262144, 1]⟩
abbrev S262144x58 : Shape := ⟨2, ![262144, 58]⟩
abbrev S100000x300 : Shape := ⟨2, ![100000, 300]⟩
abbrev S1x300 : Shape := ⟨2, ![1, 300]⟩
abbrev S262144x300 : Shape := ⟨2, ![262144, 300]⟩
abbrev S100000x100 : Shape := ⟨2, ![100000, 100]⟩
abbrev S1x100 : Shape := ⟨2, ![1, 100]⟩
abbrev S262144x100 : Shape := ⟨2, ![262144, 100]⟩
abbrev S100000x1 : Shape := ⟨2, ![100000, 1]⟩
abbrev S1x1 : Shape := ⟨2, ![1, 1]⟩

abbrev nBuf : Space → Nat
  | .hbm => 248
  | .vmem => 0
  | .smem => 0
  | _ => 0

abbrev hbmTy0_0 (i : Nat) : BufTy := match i % 128 with
  | 0 => ⟨S100000x58, .f32⟩
  | 1 => ⟨S2x262144, .i32⟩
  | 2 => ⟨S2x262144, .i32⟩
  | 3 => ⟨S58x300, .f32⟩
  | 4 => ⟨S58x300, .f32⟩
  | 5 => ⟨S300, .f32⟩
  | 6 => ⟨S300x100, .f32⟩
  | 7 => ⟨S300x100, .f32⟩
  | 8 => ⟨S100, .f32⟩
  | 9 => ⟨S100x1, .f32⟩
  | 10 => ⟨S100x1, .f32⟩
  | 11 => ⟨S1, .f32⟩
  | 12 => ⟨S58x100, .f32⟩
  | 13 => ⟨S100, .f32⟩
  | 14 => ⟨S58x100, .f32⟩
  | 15 => ⟨S100, .f32⟩
  | 16 => ⟨S1, .f32⟩
  | 17 => ⟨S1, .f32⟩
  | 18 => ⟨S1x262144, .i32⟩
  | 19 => ⟨S262144, .i32⟩
  | 20 => ⟨S1x262144, .i32⟩
  | 21 => ⟨S262144, .i32⟩
  | 22 => ⟨S_, .f32⟩
  | 23 => ⟨S262144, .f32⟩
  | 24 => ⟨S_, .f32⟩
  | 25 => ⟨S100000, .f32⟩
  | 26 => ⟨S262144x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S262144, .i32⟩
  | 41 => ⟨S262144, .i1⟩
  | 42 => ⟨S_, .i32⟩
  | 43 => ⟨S262144, .i32⟩
  | 44 => ⟨S262144, .i32⟩
  | 45 => ⟨S262144, .i32⟩
  | 46 => ⟨S262144x1, .i32⟩
  | 47 => ⟨S262144, .f32⟩
  | 48 => ⟨S262144, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144, .f32⟩
  | 58 => ⟨S262144, .f32⟩
  | 59 => ⟨S1x262144, .i32⟩
  | 60 => ⟨S262144, .i32⟩
  | 61 => ⟨S1x262144, .i32⟩
  | 62 => ⟨S262144, .i32⟩
  | 63 => ⟨S262144x1, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S262144x58, .f32⟩
  | 73 => ⟨S262144x58, .f32⟩
  | 74 => ⟨S262144x58, .f32⟩
  | 75 => ⟨S_, .f32⟩
  | 76 => ⟨S100000x58, .f32⟩
  | 77 => ⟨S262144x1, .i32⟩
  | 78 => ⟨S100000x58, .f32⟩
  | 79 => ⟨S100000x300, .f32⟩
  | 80 => ⟨S100000x300, .f32⟩
  | 81 => ⟨S100000x300, .f32⟩
  | 82 => ⟨S1x300, .f32⟩
  | 83 => ⟨S100000x300, .f32⟩
  | 84 => ⟨S100000x300, .f32⟩
  | 85 => ⟨S_, .f32⟩
  | 86 => ⟨S100000x300, .f32⟩
  | 87 => ⟨S100000x300, .f32⟩
  | 88 => ⟨S1x262144, .i32⟩
  | 89 => ⟨S262144, .i32⟩
  | 90 => ⟨S1x262144, .i32⟩
  | 91 => ⟨S262144, .i32⟩
  | 92 => ⟨S262144x1, .f32⟩
  | 93 => ⟨S_, .i32⟩
  | 94 => ⟨S262144, .i32⟩
  | 95 => ⟨S262144, .i1⟩
  | 96 => ⟨S_, .i32⟩
  | 97 => ⟨S262144, .i32⟩
  | 98 => ⟨S262144, .i32⟩
  | 99 => ⟨S262144, .i32⟩
  | 100 => ⟨S262144x1, .i32⟩
  | 101 => ⟨S262144x300, .f32⟩
  | 102 => ⟨S262144x300, .f32⟩
  | 103 => ⟨S262144x300, .f32⟩
  | 104 => ⟨S_, .f32⟩
  | 105 => ⟨S100000x300, .f32⟩
  | 106 => ⟨S262144x1, .i32⟩
  | 107 => ⟨S100000x300, .f32⟩
  | 108 => ⟨S100000x100, .f32⟩
  | 109 => ⟨S100000x100, .f32⟩
  | 110 => ⟨S100000x100, .f32⟩
  | 111 => ⟨S1x100, .f32⟩
  | 112 => ⟨S100000x100, .f32⟩
  | 113 => ⟨S100000x100, .f32⟩
  | 114 => ⟨S_, .f32⟩
  | 115 => ⟨S100000x100, .f32⟩
  | 116 => ⟨S100000x100, .f32⟩
  | 117 => ⟨S100000x100, .f32⟩
  | 118 => ⟨S1x100, .f32⟩
  | 119 => ⟨S100000x100, .f32⟩
  | 120 => ⟨S100000x100, .f32⟩
  | 121 => ⟨S_, .f32⟩
  | 122 => ⟨S100000x100, .f32⟩
  | 123 => ⟨S100000x100, .f32⟩
  | 124 => ⟨S100000x100, .f32⟩
  | 125 => ⟨S100000x100, .f32⟩
  | 126 => ⟨S1x100, .f32⟩
  | 127 => ⟨S100000x100, .f32⟩
  | _ => ⟨S100000x58, .f32⟩

abbrev hbmTy0_1 (i : Nat) : BufTy := match i % 128 with
  | 0 => ⟨S100000x100, .f32⟩
  | 1 => ⟨S_, .f32⟩
  | 2 => ⟨S100000x100, .f32⟩
  | 3 => ⟨S100000x100, .f32⟩
  | 4 => ⟨S100000x100, .f32⟩
  | 5 => ⟨S1x262144, .i32⟩
  | 6 => ⟨S262144, .i32⟩
  | 7 => ⟨S_, .i32⟩
  | 8 => ⟨S262144, .i32⟩
  | 9 => ⟨S262144, .i1⟩
  | 10 => ⟨S_, .i32⟩
  | 11 => ⟨S262144, .i32⟩
  | 12 => ⟨S262144, .i32⟩
  | 13 => ⟨S262144, .i32⟩
  | 14 => ⟨S262144x1, .i32⟩
  | 15 => ⟨S262144x100, .f32⟩
  | 16 => ⟨S1x262144, .i32⟩
  | 17 => ⟨S262144, .i32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S262144x1, .i32⟩
  | 26 => ⟨S262144x100, .f32⟩
  | 27 => ⟨S262144x100, .f32⟩
  | 28 => ⟨S_, .f32⟩
  | 29 => ⟨S262144, .f32⟩
  | 30 => ⟨S262144, .f32⟩
  | 31 => ⟨S262144, .f32⟩
  | 32 => ⟨S_, .f32⟩
  | 33 => ⟨S262144, .f32⟩
  | 34 => ⟨S262144, .f32⟩
  | 35 => ⟨S_, .f32⟩
  | 36 => ⟨S262144, .f32⟩
  | 37 => ⟨S262144, .f32⟩
  | 38 => ⟨S_, .f32⟩
  | 39 => ⟨S262144, .f32⟩
  | 40 => ⟨S262144, .f32⟩
  | 41 => ⟨S262144, .f32⟩
  | 42 => ⟨S_, .f32⟩
  | 43 => ⟨S_, .f32⟩
  | 44 => ⟨S_, .f32⟩
  | 45 => ⟨S_, .f32⟩
  | 46 => ⟨S_, .f32⟩
  | 47 => ⟨S1x262144, .i32⟩
  | 48 => ⟨S262144, .i32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x100, .f32⟩
  | 58 => ⟨S1x262144, .i32⟩
  | 59 => ⟨S262144, .i32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S262144x100, .f32⟩
  | 69 => ⟨S262144x100, .f32⟩
  | 70 => ⟨S_, .f32⟩
  | 71 => ⟨S262144, .f32⟩
  | 72 => ⟨S262144, .f32⟩
  | 73 => ⟨S262144, .f32⟩
  | 74 => ⟨S_, .f32⟩
  | 75 => ⟨S262144, .f32⟩
  | 76 => ⟨S262144, .f32⟩
  | 77 => ⟨S_, .f32⟩
  | 78 => ⟨S262144, .f32⟩
  | 79 => ⟨S262144, .f32⟩
  | 80 => ⟨S_, .f32⟩
  | 81 => ⟨S262144, .f32⟩
  | 82 => ⟨S262144, .f32⟩
  | 83 => ⟨S_, .f32⟩
  | 84 => ⟨S262144, .f32⟩
  | 85 => ⟨S262144, .f32⟩
  | 86 => ⟨S262144, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1x262144, .i32⟩
  | 94 => ⟨S262144, .i32⟩
  | 95 => ⟨S1x262144, .i32⟩
  | 96 => ⟨S262144, .i32⟩
  | 97 => ⟨S262144x1, .f32⟩
  | 98 => ⟨S_, .i32⟩
  | 99 => ⟨S262144, .i32⟩
  | 100 => ⟨S262144, .i1⟩
  | 101 => ⟨S_, .i32⟩
  | 102 => ⟨S262144, .i32⟩
  | 103 => ⟨S262144, .i32⟩
  | 104 => ⟨S262144, .i32⟩
  | 105 => ⟨S262144x1, .i32⟩
  | 106 => ⟨S262144x100, .f32⟩
  | 107 => ⟨S262144x100, .f32⟩
  | 108 => ⟨S262144x100, .f32⟩
  | 109 => ⟨S_, .f32⟩
  | 110 => ⟨S100000x100, .f32⟩
  | 111 => ⟨S262144x1, .i32⟩
  | 112 => ⟨S100000x100, .f32⟩
  | 113 => ⟨S100000x1, .f32⟩
  | 114 => ⟨S100000x1, .f32⟩
  | 115 => ⟨S100000x1, .f32⟩
  | 116 => ⟨S1x1, .f32⟩
  | 117 => ⟨S100000x1, .f32⟩
  | 118 => ⟨S100000x1, .f32⟩
  | 119 => ⟨S100000, .f32⟩
  | _ => ⟨S100000x58, .f32⟩

abbrev hbmTy (i : Nat) : BufTy := match i / 128 with
  | 0 => hbmTy0_0 i
  | 1 => hbmTy0_1 i
  | _ => ⟨S100000x58, .f32⟩

abbrev bufTy : (tb : Table) → Fin (tcTables nBuf tb) → BufTy
  | .hbm, ⟨i, _⟩ => hbmTy i
  | _, _ => ⟨S100000x58, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call1_cst : Ref sig .tc := ⟨.hbm, 85, rfl⟩
abbrev main_call1_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_10 : Ref sig .tc := ⟨.hbm, 93, rfl⟩
abbrev main_v59 : Ref sig .tc := ⟨.hbm, 94, rfl⟩
abbrev main_v60 : Ref sig .tc := ⟨.hbm, 95, rfl⟩
abbrev main_c_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call2_cst : Ref sig .tc := ⟨.hbm, 114, rfl⟩
abbrev main_call2_v0 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call3_cst : Ref sig .tc := ⟨.hbm, 121, rfl⟩
abbrev main_call3_v0 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call4_cst : Ref sig .tc := ⟨.hbm, 129, rfl⟩
abbrev main_call4_v0 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_13 : Ref sig .tc := ⟨.hbm, 135, rfl⟩
abbrev main_v92 : Ref sig .tc := ⟨.hbm, 136, rfl⟩
abbrev main_v93 : Ref sig .tc := ⟨.hbm, 137, rfl⟩
abbrev main_c_14 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_15 : Ref sig .tc := ⟨.hbm, 146, rfl⟩
abbrev main_v101 : Ref sig .tc := ⟨.hbm, 147, rfl⟩
abbrev main_v102 : Ref sig .tc := ⟨.hbm, 148, rfl⟩
abbrev main_c_16 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_17 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_18 : Ref sig .tc := ⟨.hbm, 160, rfl⟩
abbrev main_v112 : Ref sig .tc := ⟨.hbm, 161, rfl⟩
abbrev main_v113 : Ref sig .tc := ⟨.hbm, 162, rfl⟩
abbrev main_cst_19 : Ref sig .tc := ⟨.hbm, 163, rfl⟩
abbrev main_v114 : Ref sig .tc := ⟨.hbm, 164, rfl⟩
abbrev main_v115 : Ref sig .tc := ⟨.hbm, 165, rfl⟩
abbrev main_cst_20 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_21 : Ref sig .tc := ⟨.hbm, 170, rfl⟩
abbrev main_v119 : Ref sig .tc := ⟨.hbm, 171, rfl⟩
abbrev main_cst_22 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_c_23 : Ref sig .tc := ⟨.hbm, 177, rfl⟩
abbrev main_v124 : Ref sig .tc := ⟨.hbm, 178, rfl⟩
abbrev main_v125 : Ref sig .tc := ⟨.hbm, 179, rfl⟩
abbrev main_c_24 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_c_25 : Ref sig .tc := ⟨.hbm, 188, rfl⟩
abbrev main_v133 : Ref sig .tc := ⟨.hbm, 189, rfl⟩
abbrev main_v134 : Ref sig .tc := ⟨.hbm, 190, rfl⟩
abbrev main_c_26 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_27 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_28 : Ref sig .tc := ⟨.hbm, 202, rfl⟩
abbrev main_v144 : Ref sig .tc := ⟨.hbm, 203, rfl⟩
abbrev main_v145 : Ref sig .tc := ⟨.hbm, 204, rfl⟩
abbrev main_cst_29 : Ref sig .tc := ⟨.hbm, 205, rfl⟩
abbrev main_v146 : Ref sig .tc := ⟨.hbm, 206, rfl⟩
abbrev main_v147 : Ref sig .tc := ⟨.hbm, 207, rfl⟩
abbrev main_cst_30 : Ref sig .tc := ⟨.hbm, 208, rfl⟩
abbrev main_v148 : Ref sig .tc := ⟨.hbm, 209, rfl⟩
abbrev main_v149 : Ref sig .tc := ⟨.hbm, 210, rfl⟩
abbrev main_cst_31 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_32 : Ref sig .tc := ⟨.hbm, 215, rfl⟩
abbrev main_v153 : Ref sig .tc := ⟨.hbm, 216, rfl⟩
abbrev main_cst_33 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_c_34 : Ref sig .tc := ⟨.hbm, 226, rfl⟩
abbrev main_v162 : Ref sig .tc := ⟨.hbm, 227, rfl⟩
abbrev main_v163 : Ref sig .tc := ⟨.hbm, 228, rfl⟩
abbrev main_c_35 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_cst_36 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S100000 : S_.BroadcastsInDim S100000 (![] : Fin 0 → Fin S100000.rank)
  bcast_S262144_S262144x1_0 : S262144.BroadcastsInDim S262144x1 (![0] : Fin 1 → Fin S262144x1.rank)
  bcast_S262144x1_S262144x58_0_1 : S262144x1.BroadcastsInDim S262144x58 (![0, 1] : Fin 2 → Fin S262144x58.rank)
  bcast_S_S100000x58 : S_.BroadcastsInDim S100000x58 (![] : Fin 0 → Fin S100000x58.rank)
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S262144x1_S262144x300_0_1 : S262144x1.BroadcastsInDim S262144x300 (![0, 1] : Fin 2 → Fin S262144x300.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  bcast_S_S100000x100 : S_.BroadcastsInDim S100000x100 (![] : Fin 0 → Fin S100000x100.rank)
  reducesTo_S262144x100_S262144_d1 : S262144x100.ReducesTo [1] S262144
  h_S_ : 0 < S_.numel
  reducesTo_S262144_S_d0 : S262144.ReducesTo [0] S_
  bcast_S262144x1_S262144x100_0_1 : S262144x1.BroadcastsInDim S262144x100 (![0, 1] : Fin 2 → Fin S262144x100.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S262144x1_S262144_n_0_0_1_wf : ScatterDims.WF S100000 S262144x1 S262144 [] [0] [0] 1
  gather_S100000_S262144x1_S262144_n_0_n_n_0_1_1_wf : GatherDims.WF S100000 S262144x1 S262144 [] [0] [] [0] [] 1 ![1]
  gather_S100000x58_S262144x1_S262144x58_1_0_n_n_0_1_158_wf : GatherDims.WF S100000x58 S262144x1 S262144x58 [1] [0] [] [0] [] 1 ![1, 58]
  scatter_S100000x58_S262144x1_S262144x58_1_0_0_1_wf : ScatterDims.WF S100000x58 S262144x1 S262144x58 [1] [0] [0] 1
  dot_S100000x58_S58x300_S100000x300_1_0_0_1_n_n_wf : DotDims.WF S100000x58 S58x300 S100000x300 [1] [0] [0] [1] [] []
  gather_S100000x300_S262144x1_S262144x300_1_0_n_n_0_1_1300_wf : GatherDims.WF S100000x300 S262144x1 S262144x300 [1] [0] [] [0] [] 1 ![1, 300]
  scatter_S100000x300_S262144x1_S262144x300_1_0_0_1_wf : ScatterDims.WF S100000x300 S262144x1 S262144x300 [1] [0] [0] 1
  dot_S100000x300_S300x100_S100000x100_1_0_0_1_n_n_wf : DotDims.WF S100000x300 S300x100 S100000x100 [1] [0] [0] [1] [] []
  dot_S100000x58_S58x100_S100000x100_1_0_0_1_n_n_wf : DotDims.WF S100000x58 S58x100 S100000x100 [1] [0] [0] [1] [] []
  gather_S100000x100_S262144x1_S262144x100_1_0_n_n_0_1_1100_wf : GatherDims.WF S100000x100 S262144x1 S262144x100 [1] [0] [] [0] [] 1 ![1, 100]
  scatter_S100000x100_S262144x1_S262144x100_1_0_0_1_wf : ScatterDims.WF S100000x100 S262144x1 S262144x100 [1] [0] [0] 1
  dot_S100000x100_S100x1_S100000x1_1_0_0_1_n_n_wf : DotDims.WF S100000x100 S100x1 S100000x1 [1] [0] [0] [1] [] []

variable [Facts₀]

def scatter_S100000_S262144x1_S262144_n_0_0_1 : ScatterDims S100000 S262144x1 S262144 where
  updateWindowDims := []
  insertedWindowDims := [0]
  scatterDimsToOperandDims := [0]
  indexVectorDim := 1
  wf := scatter_S100000_S262144x1_S262144_n_0_0_1_wf
def gather_S100000_S262144x1_S262144_n_0_n_n_0_1_1 : GatherDims S100000 S262144x1 S262144 where
  offsetDims := []
  collapsedSliceDims := [0]
  operandBatchingDims := []
  startIndicesBatchingDims := []
  startIndexMap := [0]
  indexVectorDim := 1
  sliceSizes := ![1]
  wf := gather_S100000_S262144x1_S262144_n_0_n_n_0_1_1_wf
def gather_S100000x58_S262144x1_S262144x58_1_0_n_n_0_1_158 : GatherDims S100000x58 S262144x1 S262144x58 where
  offsetDims := [1]
  collapsedSliceDims := [0]
  operandBatchingDims := []
  startIndicesBatchingDims := []
  startIndexMap := [0]
  indexVectorDim := 1
  sliceSizes := ![1, 58]
  wf := gather_S100000x58_S262144x1_S262144x58_1_0_n_n_0_1_158_wf
def scatter_S100000x58_S262144x1_S262144x58_1_0_0_1 : ScatterDims S100000x58 S262144x1 S262144x58 where
  updateWindowDims := [1]
  insertedWindowDims := [0]
  scatterDimsToOperandDims := [0]
  indexVectorDim := 1
  wf := scatter_S100000x58_S262144x1_S262144x58_1_0_0_1_wf
def dot_S100000x58_S58x300_S100000x300_1_0_0_1_n_n : DotDims S100000x58 S58x300 S100000x300 where
  lhsContracting := [1]
  rhsContracting := [0]
  lhsNonContracting := [0]
  rhsNonContracting := [1]
  lhsBatch := []
  rhsBatch := []
  wf := dot_S100000x58_S58x300_S100000x300_1_0_0_1_n_n_wf
def gather_S100000x300_S262144x1_S262144x300_1_0_n_n_0_1_1300 : GatherDims S100000x300 S262144x1 S262144x300 where
  offsetDims := [1]
  collapsedSliceDims := [0]
  operandBatchingDims := []
  startIndicesBatchingDims := []
  startIndexMap := [0]
  indexVectorDim := 1
  sliceSizes := ![1, 300]
  wf := gather_S100000x300_S262144x1_S262144x300_1_0_n_n_0_1_1300_wf
def scatter_S100000x300_S262144x1_S262144x300_1_0_0_1 : ScatterDims S100000x300 S262144x1 S262144x300 where
  updateWindowDims := [1]
  insertedWindowDims := [0]
  scatterDimsToOperandDims := [0]
  indexVectorDim := 1
  wf := scatter_S100000x300_S262144x1_S262144x300_1_0_0_1_wf
def dot_S100000x300_S300x100_S100000x100_1_0_0_1_n_n : DotDims S100000x300 S300x100 S100000x100 where
  lhsContracting := [1]
  rhsContracting := [0]
  lhsNonContracting := [0]
  rhsNonContracting := [1]
  lhsBatch := []
  rhsBatch := []
  wf := dot_S100000x300_S300x100_S100000x100_1_0_0_1_n_n_wf
def dot_S100000x58_S58x100_S100000x100_1_0_0_1_n_n : DotDims S100000x58 S58x100 S100000x100 where
  lhsContracting := [1]
  rhsContracting := [0]
  lhsNonContracting := [0]
  rhsNonContracting := [1]
  lhsBatch := []
  rhsBatch := []
  wf := dot_S100000x58_S58x100_S100000x100_1_0_0_1_n_n_wf
def gather_S100000x100_S262144x1_S262144x100_1_0_n_n_0_1_1100 : GatherDims S100000x100 S262144x1 S262144x100 where
  offsetDims := [1]
  collapsedSliceDims := [0]
  operandBatchingDims := []
  startIndicesBatchingDims := []
  startIndexMap := [0]
  indexVectorDim := 1
  sliceSizes := ![1, 100]
  wf := gather_S100000x100_S262144x1_S262144x100_1_0_n_n_0_1_1100_wf
def scatter_S100000x100_S262144x1_S262144x100_1_0_0_1 : ScatterDims S100000x100 S262144x1 S262144x100 where
  updateWindowDims := [1]
  insertedWindowDims := [0]
  scatterDimsToOperandDims := [0]
  indexVectorDim := 1
  wf := scatter_S100000x100_S262144x1_S262144x100_1_0_0_1_wf
def dot_S100000x100_S100x1_S100000x1_1_0_0_1_n_n : DotDims S100000x100 S100x1 S100000x1 where
  lhsContracting := [1]
  rhsContracting := [0]
  lhsNonContracting := [0]
  rhsNonContracting := [1]
  lhsBatch := []
  rhsBatch := []
  wf := dot_S100000x100_S100x1_S100000x1_1_0_0_1_n_n_wf

class Facts : Prop extends Facts₀ where

variable [Facts]
-- ==== Proof.HostFns.lean ====
/-
  The host-side stages of the network as functions of whole arrays over the extended reals.

  Both programs compute, with the same array operations: the two rows of the edge array as index columns (a negative
  index wrapped by the number of nodes); each node's degree by an accumulating scatter of ones; the normalising factor
  d^(-1/2), zero at an isolated node; the edge weight -(d^(-1/2))[row] · (d^(-1/2))[col]; the aggregation of a node array
  along the edges, a scatter into zeros of the weight times the gathered source rows; and the link loss, the mean over
  the edges of -log(sigmoid(⟨z_row, z_col⟩) + ε) plus the same over the negative edges with 1 - sigmoid.  The reference
  also computes its dense layers on the host.  Each stage is named here once, so that what either program holds in a
  buffer can be stated as a stage of the argument arrays.
-/
import proofs.«145370_j17231408792162_2_alg».proof.Proof.Gen.ReferenceIdeal
import proofs.«145370_j17231408792162_2_alg».proof.Proof.Gen.KernelIdeal
import Idealize.ShloMosaic.PureOps.Ideal

noncomputable section

namespace Cert.HostFns

open Idealize.ShloMosaic Cert.ReferenceIdeal Cert.ReferenceIdeal.Facts₀

/-- A float array, an index array. -/
abbrev Arr (S : Shape) := FVec Ideal S .f32
abbrev IArr (S : Shape) := IVec S 32

/-! ## Index columns of an edge array -/

/-- Row 0 (sources) and row 1 (destinations) of a [2, E] edge array, as [E] arrays. -/
def row0 (ei : IArr S2x262144) : IArr S262144 :=
  shapeCast S262144 (extractStridedSlice S1x262144 ![0, 0] ei slices_S2x262144_S1x262144_0_0) shapeCasts_S1x262144_S262144
def row1 (ei : IArr S2x262144) : IArr S262144 :=
  shapeCast S262144 (extractStridedSlice S1x262144 ![1, 0] ei slices_S2x262144_S1x262144_1_0) shapeCasts_S1x262144_S262144

/-- A negative index counts from the end: add the number of nodes. -/
def wrap (r : IArr S262144) : IArr S262144 :=
  select (cmpi .slt r (broadcastInDim S262144 ![] bcast_S_S262144 (constantI S_ 32 0#32)))
    (addi r (broadcastInDim S262144 ![] bcast_S_S262144 (constantI S_ 32 100000#32))) r

/-- An [E] index array as an [E, 1] column. -/
def col (r : IArr S262144) : IArr S262144x1 := broadcastInDim S262144x1 ![0] bcast_S262144_S262144x1_0 r

/-! ## Scalars -/

def zeroS : Arr S_ := constant (F := Ideal) S_ .f32 0x00000000#32
def oneS : Arr S_ := constant (F := Ideal) S_ .f32 0x3F800000#32
def epsS : Arr S_ := constant (F := Ideal) S_ .f32 0x26901D7D#32
def cntS : Arr S_ := constant (F := Ideal) S_ .f32 0x48800000#32

/-! ## Degrees and edge weights -/

/-- The number of edges leaving each node. -/
def deg (ei : IArr S2x262144) : Arr S100000 :=
  Host.scatterAdd scatter_S100000_S262144x1_S262144_n_0_0_1 (broadcastInDim S100000 ![] bcast_S_S100000 zeroS)
    (col (row0 ei)) (broadcastInDim S262144 ![] bcast_S_S262144 oneS)

/-- d^(-1/2) where the degree is positive, zero elsewhere. -/
def dinv (ei : IArr S2x262144) : Arr S100000 :=
  select (cmpf .ogt (deg ei) (broadcastInDim S100000 ![] bcast_S_S100000 zeroS))
    (Host.rsqrt (maximumf (deg ei) (broadcastInDim S100000 ![] bcast_S_S100000 oneS)))
    (broadcastInDim S100000 ![] bcast_S_S100000 (id zeroS))

/-- The edge weight -(d^(-1/2))[row] · (d^(-1/2))[col]. -/
def w (ei : IArr S2x262144) : Arr S262144 :=
  mulf (Host.negf (Host.gather gather_S100000_S262144x1_S262144_n_0_n_n_0_1_1 (dinv ei) (col (wrap (row0 ei)))))
    (Host.gather gather_S100000_S262144x1_S262144_n_0_n_n_0_1_1 (dinv ei) (col (wrap (row1 ei))))

/-- The weights as an [E, 1] column. -/
def wcol (ei : IArr S2x262144) : Arr S262144x1 := broadcastInDim S262144x1 ![0] bcast_S262144_S262144x1_0 (w ei)

/-! ## Aggregation along the edges -/

/-- The aggregated message of a 58-wide node array: into row dst the sum over the edges of weight × source row. -/
def msg58 (X : Arr S100000x58) (ei : IArr S2x262144) : Arr S100000x58 :=
  Host.scatterAdd scatter_S100000x58_S262144x1_S262144x58_1_0_0_1 (broadcastInDim S100000x58 ![] bcast_S_S100000x58 zeroS)
    (col (row1 ei))
    (mulf (broadcastInDim S262144x58 ![0, 1] bcast_S262144x1_S262144x58_0_1 (wcol ei))
      (Host.gather gather_S100000x58_S262144x1_S262144x58_1_0_n_n_0_1_158 X (col (wrap (row0 ei)))))

def msg300 (X : Arr S100000x300) (ei : IArr S2x262144) : Arr S100000x300 :=
  Host.scatterAdd scatter_S100000x300_S262144x1_S262144x300_1_0_0_1 (broadcastInDim S100000x300 ![] bcast_S_S100000x300 zeroS)
    (col (row1 ei))
    (mulf (broadcastInDim S262144x300 ![0, 1] bcast_S262144x1_S262144x300_0_1 (wcol ei))
      (Host.gather gather_S100000x300_S262144x1_S262144x300_1_0_n_n_0_1_1300 X (col (wrap (row0 ei)))))

def msg100 (X : Arr S100000x100) (ei : IArr S2x262144) : Arr S100000x100 :=
  Host.scatterAdd scatter_S100000x100_S262144x1_S262144x100_1_0_0_1 (broadcastInDim S100000x100 ![] bcast_S_S100000x100 zeroS)
    (col (row1 ei))
    (mulf (broadcastInDim S262144x100 ![0, 1] bcast_S262144x1_S262144x100_0_1 (wcol ei))
      (Host.gather gather_S100000x100_S262144x1_S262144x100_1_0_n_n_0_1_1100 X (col (wrap (row0 ei)))))

/-- The same for a one-column node array (only the kernel aggregates at this width). -/
def msg1 (X : Arr S100000x1) (ei : IArr S2x262144) : Arr S100000x1 :=
  Host.scatterAdd Cert.KernelIdeal.scatter_S100000x1_S262144x1_S262144x1_1_0_0_1
    (broadcastInDim S100000x1 ![] Cert.KernelIdeal.Facts₀.bcast_S_S100000x1 zeroS)
    (col (row1 ei))
    (mulf (wcol ei) (Host.gather Cert.KernelIdeal.gather_S100000x1_S262144x1_S262144x1_1_0_n_n_0_1_11 X (col (wrap (row0 ei)))))

/-! ## The link loss -/

/-- The inner product of the two end nodes' rows of z, per edge. -/
def logit (Z : Arr S100000x100) (ei : IArr S2x262144) : Arr S262144 :=
  Host.reduceAdd
    (mulf (Host.gather gather_S100000x100_S262144x1_S262144x100_1_0_n_n_0_1_1100 Z (col (wrap (row0 ei))))
      (Host.gather gather_S100000x100_S262144x1_S262144x100_1_0_n_n_0_1_1100 Z (col (wrap (row1 ei)))))
    zeroS reducesTo_S262144x100_S262144_d1 h_S_

/-- The logistic function 1 / (1 + exp (-x)), entry by entry. -/
def sigm (l : Arr S262144) : Arr S262144 :=
  Host.divf (broadcastInDim S262144 ![] bcast_S_S262144 oneS)
    (addf (broadcastInDim S262144 ![] bcast_S_S262144 oneS) (Host.exp (Host.negf l)))

/-- Minus the mean of the logarithms. -/
def negMeanLog (p : Arr S262144) : Arr S_ :=
  Host.negf (Host.divf (Host.reduceAdd (Host.log p) zeroS reducesTo_S262144_S_d0 h_S_) cntS)

def loss (Z : Arr S100000x100) (ei nei : IArr S2x262144) : Arr S_ :=
  addf
    (negMeanLog (addf (sigm (logit Z ei)) (broadcastInDim S262144 ![] bcast_S_S262144 epsS)))
    (negMeanLog (addf (subf (broadcastInDim S262144 ![] bcast_S_S262144 oneS) (sigm (logit Z nei)))
      (broadcastInDim S262144 ![] bcast_S_S262144 epsS)))

/-! ## The reference's dense layers -/

def hR (X : Arr S100000x58) (ei : IArr S2x262144) (W0 W1 : Arr S58x300) (b : Arr S300) : Arr S100000x300 :=
  maximumf
    (addf
      (addf (Host.dotGeneral dot_S100000x58_S58x300_S100000x300_1_0_0_1_n_n none X W0)
        (Host.dotGeneral dot_S100000x58_S58x300_S100000x300_1_0_0_1_n_n none (msg58 X ei) W1))
      (broadcastInDim S100000x300 ![0, 1] bcast_S1x300_S100000x300_0_1 (broadcastInDim S1x300 ![1] bcast_S300_S1x300_1 b)))
    (broadcastInDim S100000x300 ![] bcast_S_S100000x300 zeroS)

def x1R (H : Arr S100000x300) (ei : IArr S2x262144) (W0 W1 : Arr S300x100) (b : Arr S100) : Arr S100000x100 :=
  maximumf
    (addf
      (addf (Host.dotGeneral dot_S100000x300_S300x100_S100000x100_1_0_0_1_n_n none H W0)
        (Host.dotGeneral dot_S100000x300_S300x100_S100000x100_1_0_0_1_n_n none (msg300 H ei) W1))
      (broadcastInDim S100000x100 ![0, 1] bcast_S1x100_S100000x100_0_1 (broadcastInDim S1x100 ![1] bcast_S100_S1x100_1 b)))
    (broadcastInDim S100000x100 ![] bcast_S_S100000x100 zeroS)

def linR (X : Arr S100000x58) (W : Arr S58x100) (b : Arr S100) : Arr S100000x100 :=
  maximumf
    (addf (Host.dotGeneral dot_S100000x58_S58x100_S100000x100_1_0_0_1_n_n none X W)
      (broadcastInDim S100000x100 ![0, 1] bcast_S1x100_S100000x100_0_1 (broadcastInDim S1x100 ![1] bcast_S100_S1x100_1 b)))
    (broadcastInDim S100000x100 ![] bcast_S_S100000x100 zeroS)

def outR (Xs : Arr S100000x100) (ei : IArr S2x262144) (W0 W1 : Arr S100x1) (b : Arr S1) : Arr S100000 :=
  shapeCast S100000
    (addf
      (addf (Host.dotGeneral dot_S100000x100_S100x1_S100000x1_1_0_0_1_n_n none Xs W0)
        (Host.dotGeneral dot_S100000x100_S100x1_S100000x1_1_0_0_1_n_n none (msg100 Xs ei) W1))
      (broadcastInDim S100000x1 ![0, 1] bcast_S1x1_S100000x1_0_1 (broadcastInDim S1x1 ![1] bcast_S1_S1x1_1 b)))
    shapeCasts_S100000x1_S100000

/-! ## The reference, composed -/

def refH (x0 : Arr S100000x58) (x1 : IArr S2x262144) (x3 x4 : Arr S58x300) (x5 : Arr S300) : Arr S100000x300 := hR x0 x1 x3 x4 x5

def refX1 (x0 : Arr S100000x58) (x1 : IArr S2x262144) (x3 x4 : Arr S58x300) (x5 : Arr S300) (x6 x7 : Arr S300x100) (x8 : Arr S100) :
    Arr S100000x100 := x1R (refH x0 x1 x3 x4 x5) x1 x6 x7 x8

def refXs (x0 : Arr S100000x58) (x1 : IArr S2x262144) (x3 x4 : Arr S58x300) (x5 : Arr S300) (x6 x7 : Arr S300x100) (x8 : Arr S100)
    (x12 : Arr S58x100) (x13 : Arr S100) : Arr S100000x100 := addf (refX1 x0 x1 x3 x4 x5 x6 x7 x8) (linR x0 x12 x13)

def refZ (x0 : Arr S100000x58) (x1 : IArr S2x262144) (x3 x4 : Arr S58x300) (x5 : Arr S300) (x6 x7 : Arr S300x100) (x8 : Arr S100)
    (x14 : Arr S58x100) (x15 : Arr S100) : Arr S100000x100 := addf (refX1 x0 x1 x3 x4 x5 x6 x7 x8) (linR x0 x14 x15)

end Cert.HostFns

end
-- ==== Proof.KRun.lean ====
/-
  The idealized kernel's run with its final buffer contents named.

  The program is three grid regions among stretches of host operations.  Its frame is the library's launch over the
  list of segments; the thread state after the last segment holds every buffer that lives outside a region at the
  contents the segments fold to, written W9 below.  Reading that state against the final memory gives, for every such
  buffer and not only for the argument arrays, that the run ends with the buffer at its W9 contents.
-/
import proofs.«145370_j17231408792162_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every buffer that
    lives outside a region holds the contents the segments fold to. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.KRun

end
-- ==== Proof.RefRun.lean ====
/-
  The reference program's run, read back.

  The reference is a straight line of host operations on whole arrays.  Every weakly fair execution of it terminates,
  and each buffer ends at the fold of the operations over the launch memory.  Folding the operations one by one, the two
  float results are the network's stages of the argument arrays: the output is the last layer of xs with its aggregated
  message, the loss is the link loss of z; the argument arrays are not written.
-/
import proofs.«145370_j17231408792162_2_alg».proof.Proof.Gen.ReferenceIdeal
import proofs.«145370_j17231408792162_2_alg».proof.Proof.HostFns
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's host operations in order; the operations of a called function stand in its call's place. -/
abbrev ops : List (HloOp τ sig (Elt F)) :=
  [ unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    nullary main_cst (constant S_ .f32 0x3F800000#32),
    unary main_cst main_v4 (broadcastInDim S262144 ![] bcast_S_S262144 : (⟨S_, .f32⟩ : BufTy).Contents (Elt F) → (⟨S262144, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S262144x1 ![0] bcast_S262144_S262144x1_0 : (⟨S262144, .i32⟩ : BufTy).Contents (Elt F) → (⟨S262144x1, .i32⟩ : BufTy).Contents (Elt F)),
    ternary main_v5 main_v6 main_v4 main_v7 ((fun x i u => Host.scatterAdd scatter_S100000_S262144x1_S262144_n_0_0_1 x i u) : (⟨S100000, .f32⟩ : BufTy).Contents (Elt F) → (⟨S262144x1, .i32⟩ : BufTy).Contents (Elt F) → (⟨S262144, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S262144 ![] bcast_S_S262144 : (⟨S_, .i32⟩ : BufTy).Contents (Elt F) → (⟨S262144, .i32⟩ : BufTy).Contents (Elt F)),
    binary main_v1 main_v14 main_v15 (cmpi .slt : (⟨S262144, .i32⟩ : BufTy).Contents (Elt F) → (⟨S262144, .i32⟩ : BufTy).Contents (Elt F) → (⟨S262144, .i1⟩ : BufTy).Contents (Elt F)),
    nullary main_c_4 (constantI S_ 32 100000#32),
    unary main_c_4 main_v16 (broadcastInDim S262144 ![] bcast_S_S262144 : (⟨S_, .i32⟩ : BufTy).Contents (Elt F) → (⟨S262144, .i32⟩ : BufTy).Contents (Elt F)),
    binary main_v1 main_v16 main_v17 (addi : (⟨S262144, .i32⟩ : BufTy).Contents (Elt F) → (⟨S262144, .i32⟩ : BufTy).Contents (Elt F) → (⟨S262144, .i32⟩ : BufTy).Contents (Elt F)),
    ternary main_v15 main_v17 main_v1 main_v18 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v18 main_v19 (broadcastInDim S262144x1 ![0] bcast_S262144_S262144x1_0 : (⟨S262144, .i32⟩ : BufTy).Contents (Elt F) → (⟨S262144x1, .i32⟩ : BufTy).Contents (Elt F)),
    binary main_v13 main_v19 main_v20 ((fun x i => Host.gather gather_S100000_S262144x1_S262144_n_0_n_n_0_1_1 x i) : (⟨S100000, .f32⟩ : BufTy).Contents (Elt F) → (⟨S262144x1, .i32⟩ : BufTy).Contents (Elt F) → (⟨S262144, .f32⟩ : BufTy).Contents (Elt F)),
    unary main_v20 main_v21 (Host.negf : (⟨S262144, .f32⟩ : BufTy).Contents (Elt F) → (⟨S262144, .f32⟩ : BufTy).Contents (Elt F)),
    nullary main_c_5 (constantI S_ 32 0#32),
    unary main_c_5 main_v22 (broadcastInDim S262144 ![] bcast_S_S262144 : (⟨S_, .i32⟩ : BufTy).Contents (Elt F) → (⟨S262144, .i32⟩ : BufTy).Contents (Elt F)),
    binary main_v3 main_v22 main_v23 (cmpi .slt : (⟨S262144, .i32⟩ : BufTy).Contents (Elt F) → (⟨S262144, .i32⟩ : BufTy).Contents (Elt F) → (⟨S262144, .i1⟩ : BufTy).Contents (Elt F)),
    nullary main_c_6 (constantI S_ 32 100000#32),
    unary main_c_6 main_v24 (broadcastInDim S262144 ![] bcast_S_S262144 : (⟨S_, .i32⟩ : BufTy).Contents (Elt F) → (⟨S262144, .i32⟩ : BufTy).Contents (Elt F)),
    binary main_v3 main_v24 main_v25 (addi : (⟨S262144, .i32⟩ : BufTy).Contents (Elt F) → (⟨S262144, .i32⟩ : BufTy).Contents (Elt F) → (⟨S262144, .i32⟩ : BufTy).Contents (Elt F)),
    ternary main_v23 main_v25 main_v3 main_v26 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v26 main_v27 (broadcastInDim S262144x1 ![0] bcast_S262144_S262144x1_0 : (⟨S262144, .i32⟩ : BufTy).Contents (Elt F) → (⟨S262144x1, .i32⟩ : BufTy).Contents (Elt F)),
    binary main_v13 main_v27 main_v28 ((fun x i => Host.gather gather_S100000_S262144x1_S262144_n_0_n_n_0_1_1 x i) : (⟨S100000, .f32⟩ : BufTy).Contents (Elt F) → (⟨S262144x1, .i32⟩ : BufTy).Contents (Elt F) → (⟨S262144, .f32⟩ : BufTy).Contents (Elt F)),
    binary main_v21 main_v28 main_v29 (mulf : (⟨S262144, .f32⟩ : BufTy).Contents (Elt F) → (⟨S262144, .f32⟩ : BufTy).Contents (Elt F) → (⟨S262144, .f32⟩ : BufTy).Contents (Elt F)),
    unary main_arg1 main_v30 ((extractStridedSlice S1x262144 ![0, 0] · slices_S2x262144_S1x262144_0_0) : (⟨S2x262144, .i32⟩ : BufTy).Contents (Elt F) → (⟨S1x262144, .i32⟩ : BufTy).Contents (Elt F)),
    reshape main_v30 main_v31 rfl shapeCasts_S1x262144_S262144,
    unary main_arg1 main_v32 ((extractStridedSlice S1x262144 ![1, 0] · slices_S2x262144_S1x262144_1_0) : (⟨S2x262144, .i32⟩ : BufTy).Contents (Elt F) → (⟨S1x262144, .i32⟩ : BufTy).Contents (Elt F)),
    reshape main_v32 main_v33 rfl shapeCasts_S1x262144_S262144,
    unary main_v29 main_v34 (broadcastInDim S262144x1 ![0] bcast_S262144_S262144x1_0 : (⟨S262144, .f32⟩ : BufTy).Contents (Elt F) → (⟨S262144x1, .f32⟩ : BufTy).Contents (Elt F)),
    nullary main_c_7 (constantI S_ 32 0#32),
    unary main_c_7 main_v35 (broadcastInDim S262144 ![] bcast_S_S262144 : (⟨S_, .i32⟩ : BufTy).Contents (Elt F) → (⟨S262144, .i32⟩ : BufTy).Contents (Elt F)),
    binary main_v31 main_v35 main_v36 (cmpi .slt : (⟨S262144, .i32⟩ : BufTy).Contents (Elt F) → (⟨S262144, .i32⟩ : BufTy).Contents (Elt F) → (⟨S262144, .i1⟩ : BufTy).Contents (Elt F)),
    nullary main_c_8 (constantI S_ 32 100000#32),
    unary main_c_8 main_v37 (broadcastInDim S262144 ![] bcast_S_S262144 : (⟨S_, .i32⟩ : BufTy).Contents (Elt F) → (⟨S262144, .i32⟩ : BufTy).Contents (Elt F)),
    binary main_v31 main_v37 main_v38 (addi : (⟨S262144, .i32⟩ : BufTy).Contents (Elt F) → (⟨S262144, .i32⟩ : BufTy).Contents (Elt F) → (⟨S262144, .i32⟩ : BufTy).Contents (Elt F)),
    ternary main_v36 main_v38 main_v31 main_v39 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v39 main_v40 (broadcastInDim S262144x1 ![0] bcast_S262144_S262144x1_0 : (⟨S262144, .i32⟩ : BufTy).Contents (Elt F) → (⟨S262144x1, .i32⟩ : BufTy).Contents (Elt F)),
    binary main_arg0 main_v40 main_v41 ((fun x i => Host.gather gather_S100000x58_S262144x1_S262144x58_1_0_n_n_0_1_158 x i) : (⟨S100000x58, .f32⟩ : BufTy).Contents (Elt F) → (⟨S262144x1, .i32⟩ : BufTy).Contents (Elt F) → (⟨S262144x58, .f32⟩ : BufTy).Contents (Elt F)),
    unary main_v34 main_v42 (broadcastInDim S262144x58 ![0, 1] bcast_S262144x1_S262144x58_0_1 : (⟨S262144x1, .f32⟩ : BufTy).Contents (Elt F) → (⟨S262144x58, .f32⟩ : BufTy).Contents (Elt F)),
    binary main_v42 main_v41 main_v43 (mulf : (⟨S262144x58, .f32⟩ : BufTy).Contents (Elt F) → (⟨S262144x58, .f32⟩ : BufTy).Contents (Elt F) → (⟨S262144x58, .f32⟩ : BufTy).Contents (Elt F)),
    nullary main_cst_9 (constant S_ .f32 0x00000000#32),
    unary main_cst_9 main_v44 (broadcastInDim S100000x58 ![] bcast_S_S100000x58 : (⟨S_, .f32⟩ : BufTy).Contents (Elt F) → (⟨S100000x58, .f32⟩ : BufTy).Contents (Elt F)),
    unary main_v33 main_v45 (broadcastInDim S262144x1 ![0] bcast_S262144_S262144x1_0 : (⟨S262144, .i32⟩ : BufTy).Contents (Elt F) → (⟨S262144x1, .i32⟩ : BufTy).Contents (Elt F)),
    ternary main_v44 main_v45 main_v43 main_v46 ((fun x i u => Host.scatterAdd scatter_S100000x58_S262144x1_S262144x58_1_0_0_1 x i u) : (⟨S100000x58, .f32⟩ : BufTy).Contents (Elt F) → (⟨S262144x1, .i32⟩ : BufTy).Contents (Elt F) → (⟨S262144x58, .f32⟩ : BufTy).Contents (Elt F) → (⟨S100000x58, .f32⟩ : BufTy).Contents (Elt F)),
    binary main_arg0 main_arg3 main_v47 ((fun l r => Host.dotGeneral dot_S100000x58_S58x300_S100000x300_1_0_0_1_n_n none l r) : (⟨S100000x58, .f32⟩ : BufTy).Contents (Elt F) → (⟨S58x300, .f32⟩ : BufTy).Contents (Elt F) → (⟨S100000x300, .f32⟩ : BufTy).Contents (Elt F)),
    binary main_v46 main_arg4 main_v48 ((fun l r => Host.dotGeneral dot_S100000x58_S58x300_S100000x300_1_0_0_1_n_n none l r) : (⟨S100000x58, .f32⟩ : BufTy).Contents (Elt F) → (⟨S58x300, .f32⟩ : BufTy).Contents (Elt F) → (⟨S100000x300, .f32⟩ : BufTy).Contents (Elt F)),
    binary main_v47 main_v48 main_v49 (addf : (⟨S100000x300, .f32⟩ : BufTy).Contents (Elt F) → (⟨S100000x300, .f32⟩ : BufTy).Contents (Elt F) → (⟨S100000x300, .f32⟩ : BufTy).Contents (Elt F)),
    unary main_arg5 main_v50 (broadcastInDim S1x300 ![1] bcast_S300_S1x300_1 : (⟨S300, .f32⟩ : BufTy).Contents (Elt F) → (⟨S1x300, .f32⟩ : BufTy).Contents (Elt F)),
    unary main_v50 main_v51 (broadcastInDim S100000x300 ![0, 1] bcast_S1x300_S100000x300_0_1 : (⟨S1x300, .f32⟩ : BufTy).Contents (Elt F) → (⟨S100000x300, .f32⟩ : BufTy).Contents (Elt F)),
    binary main_v49 main_v51 main_v52 (addf : (⟨S100000x300, .f32⟩ : BufTy).Contents (Elt F) → (⟨S100000x300, .f32⟩ : BufTy).Contents (Elt F) → (⟨S100000x300, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x300, .f32⟩) main_call1_v0) (broadcastInDim S100000x300 ![] bcast_S_S100000x300),
    TRef.binary (TRef.of (T := ⟨S100000x300, .f32⟩) main_v52) (TRef.of (T := ⟨S100000x300, .f32⟩) main_call1_v0) (TRef.of (T := ⟨S100000x300, .f32⟩) main_v53) maximumf,
    unary main_arg1 main_v54 ((extractStridedSlice S1x262144 ![0, 0] · slices_S2x262144_S1x262144_0_0) : (⟨S2x262144, .i32⟩ : BufTy).Contents (Elt F) → (⟨S1x262144, .i32⟩ : BufTy).Contents (Elt F)),
    reshape main_v54 main_v55 rfl shapeCasts_S1x262144_S262144,
    unary main_arg1 main_v56 ((extractStridedSlice S1x262144 ![1, 0] · slices_S2x262144_S1x262144_1_0) : (⟨S2x262144, .i32⟩ : BufTy).Contents (Elt F) → (⟨S1x262144, .i32⟩ : BufTy).Contents (Elt F)),
    reshape main_v56 main_v57 rfl shapeCasts_S1x262144_S262144,
    unary main_v29 main_v58 (broadcastInDim S262144x1 ![0] bcast_S262144_S262144x1_0 : (⟨S262144, .f32⟩ : BufTy).Contents (Elt F) → (⟨S262144x1, .f32⟩ : BufTy).Contents (Elt F)),
    nullary main_c_10 (constantI S_ 32 0#32),
    unary main_c_10 main_v59 (broadcastInDim S262144 ![] bcast_S_S262144 : (⟨S_, .i32⟩ : BufTy).Contents (Elt F) → (⟨S262144, .i32⟩ : BufTy).Contents (Elt F)),
    binary main_v55 main_v59 main_v60 (cmpi .slt : (⟨S262144, .i32⟩ : BufTy).Contents (Elt F) → (⟨S262144, .i32⟩ : BufTy).Contents (Elt F) → (⟨S262144, .i1⟩ : BufTy).Contents (Elt F)),
    nullary main_c_11 (constantI S_ 32 100000#32),
    unary main_c_11 main_v61 (broadcastInDim S262144 ![] bcast_S_S262144 : (⟨S_, .i32⟩ : BufTy).Contents (Elt F) → (⟨S262144, .i32⟩ : BufTy).Contents (Elt F)),
    binary main_v55 main_v61 main_v62 (addi : (⟨S262144, .i32⟩ : BufTy).Contents (Elt F) → (⟨S262144, .i32⟩ : BufTy).Contents (Elt F) → (⟨S262144, .i32⟩ : BufTy).Contents (Elt F)),
    ternary main_v60 main_v62 main_v55 main_v63 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v63 main_v64 (broadcastInDim S262144x1 ![0] bcast_S262144_S262144x1_0 : (⟨S262144, .i32⟩ : BufTy).Contents (Elt F) → (⟨S262144x1, .i32⟩ : BufTy).Contents (Elt F)),
    binary main_v53 main_v64 main_v65 ((fun x i => Host.gather gather_S100000x300_S262144x1_S262144x300_1_0_n_n_0_1_1300 x i) : (⟨S100000x300, .f32⟩ : BufTy).Contents (Elt F) → (⟨S262144x1, .i32⟩ : BufTy).Contents (Elt F) → (⟨S262144x300, .f32⟩ : BufTy).Contents (Elt F)),
    unary main_v58 main_v66 (broadcastInDim S262144x300 ![0, 1] bcast_S262144x1_S262144x300_0_1 : (⟨S262144x1, .f32⟩ : BufTy).Contents (Elt F) → (⟨S262144x300, .f32⟩ : BufTy).Contents (Elt F)),
    binary main_v66 main_v65 main_v67 (mulf : (⟨S262144x300, .f32⟩ : BufTy).Contents (Elt F) → (⟨S262144x300, .f32⟩ : BufTy).Contents (Elt F) → (⟨S262144x300, .f32⟩ : BufTy).Contents (Elt F)),
    nullary main_cst_12 (constant S_ .f32 0x00000000#32),
    unary main_cst_12 main_v68 (broadcastInDim S100000x300 ![] bcast_S_S100000x300 : (⟨S_, .f32⟩ : BufTy).Contents (Elt F) → (⟨S100000x300, .f32⟩ : BufTy).Contents (Elt F)),
    unary main_v57 main_v69 (broadcastInDim S262144x1 ![0] bcast_S262144_S262144x1_0 : (⟨S262144, .i32⟩ : BufTy).Contents (Elt F) → (⟨S262144x1, .i32⟩ : BufTy).Contents (Elt F)),
    ternary main_v68 main_v69 main_v67 main_v70 ((fun x i u => Host.scatterAdd scatter_S100000x300_S262144x1_S262144x300_1_0_0_1 x i u) : (⟨S100000x300, .f32⟩ : BufTy).Contents (Elt F) → (⟨S262144x1, .i32⟩ : BufTy).Contents (Elt F) → (⟨S262144x300, .f32⟩ : BufTy).Contents (Elt F) → (⟨S100000x300, .f32⟩ : BufTy).Contents (Elt F)),
    binary main_v53 main_arg6 main_v71 ((fun l r => Host.dotGeneral dot_S100000x300_S300x100_S100000x100_1_0_0_1_n_n none l r) : (⟨S100000x300, .f32⟩ : BufTy).Contents (Elt F) → (⟨S300x100, .f32⟩ : BufTy).Contents (Elt F) → (⟨S100000x100, .f32⟩ : BufTy).Contents (Elt F)),
    binary main_v70 main_arg7 main_v72 ((fun l r => Host.dotGeneral dot_S100000x300_S300x100_S100000x100_1_0_0_1_n_n none l r) : (⟨S100000x300, .f32⟩ : BufTy).Contents (Elt F) → (⟨S300x100, .f32⟩ : BufTy).Contents (Elt F) → (⟨S100000x100, .f32⟩ : BufTy).Contents (Elt F)),
    binary main_v71 main_v72 main_v73 (addf : (⟨S100000x100, .f32⟩ : BufTy).Contents (Elt F) → (⟨S100000x100, .f32⟩ : BufTy).Contents (Elt F) → (⟨S100000x100, .f32⟩ : BufTy).Contents (Elt F)),
    unary main_arg8 main_v74 (broadcastInDim S1x100 ![1] bcast_S100_S1x100_1 : (⟨S100, .f32⟩ : BufTy).Contents (Elt F) → (⟨S1x100, .f32⟩ : BufTy).Contents (Elt F)),
    unary main_v74 main_v75 (broadcastInDim S100000x100 ![0, 1] bcast_S1x100_S100000x100_0_1 : (⟨S1x100, .f32⟩ : BufTy).Contents (Elt F) → (⟨S100000x100, .f32⟩ : BufTy).Contents (Elt F)),
    binary main_v73 main_v75 main_v76 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x100, .f32⟩) main_call2_v0) (broadcastInDim S100000x100 ![] bcast_S_S100000x100),
    TRef.binary (TRef.of (T := ⟨S100000x100, .f32⟩) main_v76) (TRef.of (T := ⟨S100000x100, .f32⟩) main_call2_v0) (TRef.of (T := ⟨S100000x100, .f32⟩) main_v77) maximumf,
    binary main_arg0 main_arg12 main_v78 ((fun l r => Host.dotGeneral dot_S100000x58_S58x100_S100000x100_1_0_0_1_n_n none l r) : (⟨S100000x58, .f32⟩ : BufTy).Contents (Elt F) → (⟨S58x100, .f32⟩ : BufTy).Contents (Elt F) → (⟨S100000x100, .f32⟩ : BufTy).Contents (Elt F)),
    unary main_arg13 main_v79 (broadcastInDim S1x100 ![1] bcast_S100_S1x100_1 : (⟨S100, .f32⟩ : BufTy).Contents (Elt F) → (⟨S1x100, .f32⟩ : BufTy).Contents (Elt F)),
    unary main_v79 main_v80 (broadcastInDim S100000x100 ![0, 1] bcast_S1x100_S100000x100_0_1 : (⟨S1x100, .f32⟩ : BufTy).Contents (Elt F) → (⟨S100000x100, .f32⟩ : BufTy).Contents (Elt F)),
    binary main_v78 main_v80 main_v81 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x100, .f32⟩) main_call3_v0) (broadcastInDim S100000x100 ![] bcast_S_S100000x100),
    TRef.binary (TRef.of (T := ⟨S100000x100, .f32⟩) main_v81) (TRef.of (T := ⟨S100000x100, .f32⟩) main_call3_v0) (TRef.of (T := ⟨S100000x100, .f32⟩) main_v82) maximumf,
    binary main_v77 main_v82 main_v83 (addf : (⟨S100000x100, .f32⟩ : BufTy).Contents (Elt F) → (⟨S100000x100, .f32⟩ : BufTy).Contents (Elt F) → (⟨S100000x100, .f32⟩ : BufTy).Contents (Elt F)),
    binary main_arg0 main_arg14 main_v84 ((fun l r => Host.dotGeneral dot_S100000x58_S58x100_S100000x100_1_0_0_1_n_n none l r) : (⟨S100000x58, .f32⟩ : BufTy).Contents (Elt F) → (⟨S58x100, .f32⟩ : BufTy).Contents (Elt F) → (⟨S100000x100, .f32⟩ : BufTy).Contents (Elt F)),
    unary main_arg15 main_v85 (broadcastInDim S1x100 ![1] bcast_S100_S1x100_1 : (⟨S100, .f32⟩ : BufTy).Contents (Elt F) → (⟨S1x100, .f32⟩ : BufTy).Contents (Elt F)),
    unary main_v85 main_v86 (broadcastInDim S100000x100 ![0, 1] bcast_S1x100_S100000x100_0_1 : (⟨S1x100, .f32⟩ : BufTy).Contents (Elt F) → (⟨S100000x100, .f32⟩ : BufTy).Contents (Elt F)),
    binary main_v84 main_v86 main_v87 (addf : (⟨S100000x100, .f32⟩ : BufTy).Contents (Elt F) → (⟨S100000x100, .f32⟩ : BufTy).Contents (Elt F) → (⟨S100000x100, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x100, .f32⟩) main_call4_v0) (broadcastInDim S100000x100 ![] bcast_S_S100000x100),
    TRef.binary (TRef.of (T := ⟨S100000x100, .f32⟩) main_v87) (TRef.of (T := ⟨S100000x100, .f32⟩) main_call4_v0) (TRef.of (T := ⟨S100000x100, .f32⟩) main_v88) maximumf,
    binary main_v77 main_v88 main_v89 (addf : (⟨S100000x100, .f32⟩ : BufTy).Contents (Elt F) → (⟨S100000x100, .f32⟩ : BufTy).Contents (Elt F) → (⟨S100000x100, .f32⟩ : BufTy).Contents (Elt F)),
    unary main_arg1 main_v90 ((extractStridedSlice S1x262144 ![0, 0] · slices_S2x262144_S1x262144_0_0) : (⟨S2x262144, .i32⟩ : BufTy).Contents (Elt F) → (⟨S1x262144, .i32⟩ : BufTy).Contents (Elt F)),
    reshape main_v90 main_v91 rfl shapeCasts_S1x262144_S262144,
    nullary main_c_13 (constantI S_ 32 0#32),
    unary main_c_13 main_v92 (broadcastInDim S262144 ![] bcast_S_S262144 : (⟨S_, .i32⟩ : BufTy).Contents (Elt F) → (⟨S262144, .i32⟩ : BufTy).Contents (Elt F)),
    binary main_v91 main_v92 main_v93 (cmpi .slt : (⟨S262144, .i32⟩ : BufTy).Contents (Elt F) → (⟨S262144, .i32⟩ : BufTy).Contents (Elt F) → (⟨S262144, .i1⟩ : BufTy).Contents (Elt F)),
    nullary main_c_14 (constantI S_ 32 100000#32),
    unary main_c_14 main_v94 (broadcastInDim S262144 ![] bcast_S_S262144 : (⟨S_, .i32⟩ : BufTy).Contents (Elt F) → (⟨S262144, .i32⟩ : BufTy).Contents (Elt F)),
    binary main_v91 main_v94 main_v95 (addi : (⟨S262144, .i32⟩ : BufTy).Contents (Elt F) → (⟨S262144, .i32⟩ : BufTy).Contents (Elt F) → (⟨S262144, .i32⟩ : BufTy).Contents (Elt F)),
    ternary main_v93 main_v95 main_v91 main_v96 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v96 main_v97 (broadcastInDim S262144x1 ![0] bcast_S262144_S262144x1_0 : (⟨S262144, .i32⟩ : BufTy).Contents (Elt F) → (⟨S262144x1, .i32⟩ : BufTy).Contents (Elt F)),
    binary main_v89 main_v97 main_v98 ((fun x i => Host.gather gather_S100000x100_S262144x1_S262144x100_1_0_n_n_0_1_1100 x i) : (⟨S100000x100, .f32⟩ : BufTy).Contents (Elt F) → (⟨S262144x1, .i32⟩ : BufTy).Contents (Elt F) → (⟨S262144x100, .f32⟩ : BufTy).Contents (Elt F)),
    unary main_arg1 main_v99 ((extractStridedSlice S1x262144 ![1, 0] · slices_S2x262144_S1x262144_1_0) : (⟨S2x262144, .i32⟩ : BufTy).Contents (Elt F) → (⟨S1x262144, .i32⟩ : BufTy).Contents (Elt F)),
    reshape main_v99 main_v100 rfl shapeCasts_S1x262144_S262144,
    nullary main_c_15 (constantI S_ 32 0#32),
    unary main_c_15 main_v101 (broadcastInDim S262144 ![] bcast_S_S262144 : (⟨S_, .i32⟩ : BufTy).Contents (Elt F) → (⟨S262144, .i32⟩ : BufTy).Contents (Elt F)),
    binary main_v100 main_v101 main_v102 (cmpi .slt : (⟨S262144, .i32⟩ : BufTy).Contents (Elt F) → (⟨S262144, .i32⟩ : BufTy).Contents (Elt F) → (⟨S262144, .i1⟩ : BufTy).Contents (Elt F)),
    nullary main_c_16 (constantI S_ 32 100000#32),
    unary main_c_16 main_v103 (broadcastInDim S262144 ![] bcast_S_S262144 : (⟨S_, .i32⟩ : BufTy).Contents (Elt F) → (⟨S262144, .i32⟩ : BufTy).Contents (Elt F)),
    binary main_v100 main_v103 main_v104 (addi : (⟨S262144, .i32⟩ : BufTy).Contents (Elt F) → (⟨S262144, .i32⟩ : BufTy).Contents (Elt F) → (⟨S262144, .i32⟩ : BufTy).Contents (Elt F)),
    ternary main_v102 main_v104 main_v100 main_v105 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v105 main_v106 (broadcastInDim S262144x1 ![0] bcast_S262144_S262144x1_0 : (⟨S262144, .i32⟩ : BufTy).Contents (Elt F) → (⟨S262144x1, .i32⟩ : BufTy).Contents (Elt F)),
    binary main_v89 main_v106 main_v107 ((fun x i => Host.gather gather_S100000x100_S262144x1_S262144x100_1_0_n_n_0_1_1100 x i) : (⟨S100000x100, .f32⟩ : BufTy).Contents (Elt F) → (⟨S262144x1, .i32⟩ : BufTy).Contents (Elt F) → (⟨S262144x100, .f32⟩ : BufTy).Contents (Elt F)),
    binary main_v98 main_v107 main_v108 (mulf : (⟨S262144x100, .f32⟩ : BufTy).Contents (Elt F) → (⟨S262144x100, .f32⟩ : BufTy).Contents (Elt F) → (⟨S262144x100, .f32⟩ : BufTy).Contents (Elt F)),
    nullary main_cst_17 (constant S_ .f32 0x00000000#32),
    binary main_v108 main_cst_17 main_v109 ((fun x v => Host.reduceAdd x v reducesTo_S262144x100_S262144_d1 h_S_) : (⟨S262144x100, .f32⟩ : BufTy).Contents (Elt F) → (⟨S_, .f32⟩ : BufTy).Contents (Elt F) → (⟨S262144, .f32⟩ : BufTy).Contents (Elt F)),
    unary main_v109 main_v110 (Host.negf : (⟨S262144, .f32⟩ : BufTy).Contents (Elt F) → (⟨S262144, .f32⟩ : BufTy).Contents (Elt F)),
    unary main_v110 main_v111 (Host.exp : (⟨S262144, .f32⟩ : BufTy).Contents (Elt F) → (⟨S262144, .f32⟩ : BufTy).Contents (Elt F)),
    nullary main_cst_18 (constant S_ .f32 0x3F800000#32),
    unary main_cst_18 main_v112 (broadcastInDim S262144 ![] bcast_S_S262144 : (⟨S_, .f32⟩ : BufTy).Contents (Elt F) → (⟨S262144, .f32⟩ : BufTy).Contents (Elt F)),
    binary main_v112 main_v111 main_v113 (addf : (⟨S262144, .f32⟩ : BufTy).Contents (Elt F) → (⟨S262144, .f32⟩ : BufTy).Contents (Elt F) → (⟨S262144, .f32⟩ : BufTy).Contents (Elt F)),
    nullary main_cst_19 (constant S_ .f32 0x3F800000#32),
    unary main_cst_19 main_v114 (broadcastInDim S262144 ![] bcast_S_S262144 : (⟨S_, .f32⟩ : BufTy).Contents (Elt F) → (⟨S262144, .f32⟩ : BufTy).Contents (Elt F)),
    binary main_v114 main_v113 main_v115 (Host.divf : (⟨S262144, .f32⟩ : BufTy).Contents (Elt F) → (⟨S262144, .f32⟩ : BufTy).Contents (Elt F) → (⟨S262144, .f32⟩ : BufTy).Contents (Elt F)),
    nullary main_cst_20 (constant S_ .f32 0x26901D7D#32),
    unary main_cst_20 main_v116 (broadcastInDim S262144 ![] bcast_S_S262144 : (⟨S_, .f32⟩ : BufTy).Contents (Elt F) → (⟨S262144, .f32⟩ : BufTy).Contents (Elt F)),
    binary main_v115 main_v116 main_v117 (addf : (⟨S262144, .f32⟩ : BufTy).Contents (Elt F) → (⟨S262144, .f32⟩ : BufTy).Contents (Elt F) → (⟨S262144, .f32⟩ : BufTy).Contents (Elt F)),
    unary main_v117 main_v118 (Host.log : (⟨S262144, .f32⟩ : BufTy).Contents (Elt F) → (⟨S262144, .f32⟩ : BufTy).Contents (Elt F)),
    nullary main_cst_21 (constant S_ .f32 0x00000000#32),
    binary main_v118 main_cst_21 main_v119 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_22 (constant S_ .f32 0x48800000#32),
    binary main_v119 main_cst_22 main_v120 (Host.divf : (⟨S_, .f32⟩ : BufTy).Contents (Elt F) → (⟨S_, .f32⟩ : BufTy).Contents (Elt F) → (⟨S_, .f32⟩ : BufTy).Contents (Elt F)),
    unary main_v120 main_v121 (Host.negf : (⟨S_, .f32⟩ : BufTy).Contents (Elt F) → (⟨S_, .f32⟩ : BufTy).Contents (Elt F)),
    unary main_arg2 main_v122 ((extractStridedSlice S1x262144 ![0, 0] · slices_S2x262144_S1x262144_0_0) : (⟨S2x262144, .i32⟩ : BufTy).Contents (Elt F) → (⟨S1x262144, .i32⟩ : BufTy).Contents (Elt F)),
    reshape main_v122 main_v123 rfl shapeCasts_S1x262144_S262144,
    nullary main_c_23 (constantI S_ 32 0#32),
    unary main_c_23 main_v124 (broadcastInDim S262144 ![] bcast_S_S262144 : (⟨S_, .i32⟩ : BufTy).Contents (Elt F) → (⟨S262144, .i32⟩ : BufTy).Contents (Elt F)),
    binary main_v123 main_v124 main_v125 (cmpi .slt : (⟨S262144, .i32⟩ : BufTy).Contents (Elt F) → (⟨S262144, .i32⟩ : BufTy).Contents (Elt F) → (⟨S262144, .i1⟩ : BufTy).Contents (Elt F)),
    nullary main_c_24 (constantI S_ 32 100000#32),
    unary main_c_24 main_v126 (broadcastInDim S262144 ![] bcast_S_S262144 : (⟨S_, .i32⟩ : BufTy).Contents (Elt F) → (⟨S262144, .i32⟩ : BufTy).Contents (Elt F)),
    binary main_v123 main_v126 main_v127 (addi : (⟨S262144, .i32⟩ : BufTy).Contents (Elt F) → (⟨S262144, .i32⟩ : BufTy).Contents (Elt F) → (⟨S262144, .i32⟩ : BufTy).Contents (Elt F)),
    ternary main_v125 main_v127 main_v123 main_v128 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v128 main_v129 (broadcastInDim S262144x1 ![0] bcast_S262144_S262144x1_0 : (⟨S262144, .i32⟩ : BufTy).Contents (Elt F) → (⟨S262144x1, .i32⟩ : BufTy).Contents (Elt F)),
    binary main_v89 main_v129 main_v130 ((fun x i => Host.gather gather_S100000x100_S262144x1_S262144x100_1_0_n_n_0_1_1100 x i) : (⟨S100000x100, .f32⟩ : BufTy).Contents (Elt F) → (⟨S262144x1, .i32⟩ : BufTy).Contents (Elt F) → (⟨S262144x100, .f32⟩ : BufTy).Contents (Elt F)),
    unary main_arg2 main_v131 ((extractStridedSlice S1x262144 ![1, 0] · slices_S2x262144_S1x262144_1_0) : (⟨S2x262144, .i32⟩ : BufTy).Contents (Elt F) → (⟨S1x262144, .i32⟩ : BufTy).Contents (Elt F)),
    reshape main_v131 main_v132 rfl shapeCasts_S1x262144_S262144,
    nullary main_c_25 (constantI S_ 32 0#32),
    unary main_c_25 main_v133 (broadcastInDim S262144 ![] bcast_S_S262144 : (⟨S_, .i32⟩ : BufTy).Contents (Elt F) → (⟨S262144, .i32⟩ : BufTy).Contents (Elt F)),
    binary main_v132 main_v133 main_v134 (cmpi .slt : (⟨S262144, .i32⟩ : BufTy).Contents (Elt F) → (⟨S262144, .i32⟩ : BufTy).Contents (Elt F) → (⟨S262144, .i1⟩ : BufTy).Contents (Elt F)),
    nullary main_c_26 (constantI S_ 32 100000#32),
    unary main_c_26 main_v135 (broadcastInDim S262144 ![] bcast_S_S262144 : (⟨S_, .i32⟩ : BufTy).Contents (Elt F) → (⟨S262144, .i32⟩ : BufTy).Contents (Elt F)),
    binary main_v132 main_v135 main_v136 (addi : (⟨S262144, .i32⟩ : BufTy).Contents (Elt F) → (⟨S262144, .i32⟩ : BufTy).Contents (Elt F) → (⟨S262144, .i32⟩ : BufTy).Contents (Elt F)),
    ternary main_v134 main_v136 main_v132 main_v137 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v137 main_v138 (broadcastInDim S262144x1 ![0] bcast_S262144_S262144x1_0 : (⟨S262144, .i32⟩ : BufTy).Contents (Elt F) → (⟨S262144x1, .i32⟩ : BufTy).Contents (Elt F)),
    binary main_v89 main_v138 main_v139 ((fun x i => Host.gather gather_S100000x100_S262144x1_S262144x100_1_0_n_n_0_1_1100 x i) : (⟨S100000x100, .f32⟩ : BufTy).Contents (Elt F) → (⟨S262144x1, .i32⟩ : BufTy).Contents (Elt F) → (⟨S262144x100, .f32⟩ : BufTy).Contents (Elt F)),
    binary main_v130 main_v139 main_v140 (mulf : (⟨S262144x100, .f32⟩ : BufTy).Contents (Elt F) → (⟨S262144x100, .f32⟩ : BufTy).Contents (Elt F) → (⟨S262144x100, .f32⟩ : BufTy).Contents (Elt F)),
    nullary main_cst_27 (constant S_ .f32 0x00000000#32),
    binary main_v140 main_cst_27 main_v141 ((fun x v => Host.reduceAdd x v reducesTo_S262144x100_S262144_d1 h_S_) : (⟨S262144x100, .f32⟩ : BufTy).Contents (Elt F) → (⟨S_, .f32⟩ : BufTy).Contents (Elt F) → (⟨S262144, .f32⟩ : BufTy).Contents (Elt F)),
    unary main_v141 main_v142 (Host.negf : (⟨S262144, .f32⟩ : BufTy).Contents (Elt F) → (⟨S262144, .f32⟩ : BufTy).Contents (Elt F)),
    unary main_v142 main_v143 (Host.exp : (⟨S262144, .f32⟩ : BufTy).Contents (Elt F) → (⟨S262144, .f32⟩ : BufTy).Contents (Elt F)),
    nullary main_cst_28 (constant S_ .f32 0x3F800000#32),
    unary main_cst_28 main_v144 (broadcastInDim S262144 ![] bcast_S_S262144 : (⟨S_, .f32⟩ : BufTy).Contents (Elt F) → (⟨S262144, .f32⟩ : BufTy).Contents (Elt F)),
    binary main_v144 main_v143 main_v145 (addf : (⟨S262144, .f32⟩ : BufTy).Contents (Elt F) → (⟨S262144, .f32⟩ : BufTy).Contents (Elt F) → (⟨S262144, .f32⟩ : BufTy).Contents (Elt F)),
    nullary main_cst_29 (constant S_ .f32 0x3F800000#32),
    unary main_cst_29 main_v146 (broadcastInDim S262144 ![] bcast_S_S262144 : (⟨S_, .f32⟩ : BufTy).Contents (Elt F) → (⟨S262144, .f32⟩ : BufTy).Contents (Elt F)),
    binary main_v146 main_v145 main_v147 (Host.divf : (⟨S262144, .f32⟩ : BufTy).Contents (Elt F) → (⟨S262144, .f32⟩ : BufTy).Contents (Elt F) → (⟨S262144, .f32⟩ : BufTy).Contents (Elt F)),
    nullary main_cst_30 (constant S_ .f32 0x3F800000#32),
    unary main_cst_30 main_v148 (broadcastInDim S262144 ![] bcast_S_S262144 : (⟨S_, .f32⟩ : BufTy).Contents (Elt F) → (⟨S262144, .f32⟩ : BufTy).Contents (Elt F)),
    binary main_v148 main_v147 main_v149 (subf : (⟨S262144, .f32⟩ : BufTy).Contents (Elt F) → (⟨S262144, .f32⟩ : BufTy).Contents (Elt F) → (⟨S262144, .f32⟩ : BufTy).Contents (Elt F)),
    nullary main_cst_31 (constant S_ .f32 0x26901D7D#32),
    unary main_cst_31 main_v150 (broadcastInDim S262144 ![] bcast_S_S262144 : (⟨S_, .f32⟩ : BufTy).Contents (Elt F) → (⟨S262144, .f32⟩ : BufTy).Contents (Elt F)),
    binary main_v149 main_v150 main_v151 (addf : (⟨S262144, .f32⟩ : BufTy).Contents (Elt F) → (⟨S262144, .f32⟩ : BufTy).Contents (Elt F) → (⟨S262144, .f32⟩ : BufTy).Contents (Elt F)),
    unary main_v151 main_v152 (Host.log : (⟨S262144, .f32⟩ : BufTy).Contents (Elt F) → (⟨S262144, .f32⟩ : BufTy).Contents (Elt F)),
    nullary main_cst_32 (constant S_ .f32 0x00000000#32),
    binary main_v152 main_cst_32 main_v153 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_33 (constant S_ .f32 0x48800000#32),
    binary main_v153 main_cst_33 main_v154 (Host.divf : (⟨S_, .f32⟩ : BufTy).Contents (Elt F) → (⟨S_, .f32⟩ : BufTy).Contents (Elt F) → (⟨S_, .f32⟩ : BufTy).Contents (Elt F)),
    unary main_v154 main_v155 (Host.negf : (⟨S_, .f32⟩ : BufTy).Contents (Elt F) → (⟨S_, .f32⟩ : BufTy).Contents (Elt F)),
    binary main_v121 main_v155 main_v156 (addf : (⟨S_, .f32⟩ : BufTy).Contents (Elt F) → (⟨S_, .f32⟩ : BufTy).Contents (Elt F) → (⟨S_, .f32⟩ : BufTy).Contents (Elt F)),
    unary main_arg1 main_v157 ((extractStridedSlice S1x262144 ![0, 0] · slices_S2x262144_S1x262144_0_0) : (⟨S2x262144, .i32⟩ : BufTy).Contents (Elt F) → (⟨S1x262144, .i32⟩ : BufTy).Contents (Elt F)),
    reshape main_v157 main_v158 rfl shapeCasts_S1x262144_S262144,
    unary main_arg1 main_v159 ((extractStridedSlice S1x262144 ![1, 0] · slices_S2x262144_S1x262144_1_0) : (⟨S2x262144, .i32⟩ : BufTy).Contents (Elt F) → (⟨S1x262144, .i32⟩ : BufTy).Contents (Elt F)),
    reshape main_v159 main_v160 rfl shapeCasts_S1x262144_S262144,
    unary main_v29 main_v161 (broadcastInDim S262144x1 ![0] bcast_S262144_S262144x1_0 : (⟨S262144, .f32⟩ : BufTy).Contents (Elt F) → (⟨S262144x1, .f32⟩ : BufTy).Contents (Elt F)),
    nullary main_c_34 (constantI S_ 32 0#32),
    unary main_c_34 main_v162 (broadcastInDim S262144 ![] bcast_S_S262144 : (⟨S_, .i32⟩ : BufTy).Contents (Elt F) → (⟨S262144, .i32⟩ : BufTy).Contents (Elt F)),
    binary main_v158 main_v162 main_v163 (cmpi .slt : (⟨S262144, .i32⟩ : BufTy).Contents (Elt F) → (⟨S262144, .i32⟩ : BufTy).Contents (Elt F) → (⟨S262144, .i1⟩ : BufTy).Contents (Elt F)),
    nullary main_c_35 (constantI S_ 32 100000#32),
    unary main_c_35 main_v164 (broadcastInDim S262144 ![] bcast_S_S262144 : (⟨S_, .i32⟩ : BufTy).Contents (Elt F) → (⟨S262144, .i32⟩ : BufTy).Contents (Elt F)),
    binary main_v158 main_v164 main_v165 (addi : (⟨S262144, .i32⟩ : BufTy).Contents (Elt F) → (⟨S262144, .i32⟩ : BufTy).Contents (Elt F) → (⟨S262144, .i32⟩ : BufTy).Contents (Elt F)),
    ternary main_v163 main_v165 main_v158 main_v166 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v166 main_v167 (broadcastInDim S262144x1 ![0] bcast_S262144_S262144x1_0 : (⟨S262144, .i32⟩ : BufTy).Contents (Elt F) → (⟨S262144x1, .i32⟩ : BufTy).Contents (Elt F)),
    binary main_v83 main_v167 main_v168 ((fun x i => Host.gather gather_S100000x100_S262144x1_S262144x100_1_0_n_n_0_1_1100 x i) : (⟨S100000x100, .f32⟩ : BufTy).Contents (Elt F) → (⟨S262144x1, .i32⟩ : BufTy).Contents (Elt F) → (⟨S262144x100, .f32⟩ : BufTy).Contents (Elt F)),
    unary main_v161 main_v169 (broadcastInDim S262144x100 ![0, 1] bcast_S262144x1_S262144x100_0_1 : (⟨S262144x1, .f32⟩ : BufTy).Contents (Elt F) → (⟨S262144x100, .f32⟩ : BufTy).Contents (Elt F)),
    binary main_v169 main_v168 main_v170 (mulf : (⟨S262144x100, .f32⟩ : BufTy).Contents (Elt F) → (⟨S262144x100, .f32⟩ : BufTy).Contents (Elt F) → (⟨S262144x100, .f32⟩ : BufTy).Contents (Elt F)),
    nullary main_cst_36 (constant S_ .f32 0x00000000#32),
    unary main_cst_36 main_v171 (broadcastInDim S100000x100 ![] bcast_S_S100000x100 : (⟨S_, .f32⟩ : BufTy).Contents (Elt F) → (⟨S100000x100, .f32⟩ : BufTy).Contents (Elt F)),
    unary main_v160 main_v172 (broadcastInDim S262144x1 ![0] bcast_S262144_S262144x1_0 : (⟨S262144, .i32⟩ : BufTy).Contents (Elt F) → (⟨S262144x1, .i32⟩ : BufTy).Contents (Elt F)),
    ternary main_v171 main_v172 main_v170 main_v173 ((fun x i u => Host.scatterAdd scatter_S100000x100_S262144x1_S262144x100_1_0_0_1 x i u) : (⟨S100000x100, .f32⟩ : BufTy).Contents (Elt F) → (⟨S262144x1, .i32⟩ : BufTy).Contents (Elt F) → (⟨S262144x100, .f32⟩ : BufTy).Contents (Elt F) → (⟨S100000x100, .f32⟩ : BufTy).Contents (Elt F)),
    binary main_v83 main_arg9 main_v174 ((fun l r => Host.dotGeneral dot_S100000x100_S100x1_S100000x1_1_0_0_1_n_n none l r) : (⟨S100000x100, .f32⟩ : BufTy).Contents (Elt F) → (⟨S100x1, .f32⟩ : BufTy).Contents (Elt F) → (⟨S100000x1, .f32⟩ : BufTy).Contents (Elt F)),
    binary main_v173 main_arg10 main_v175 ((fun l r => Host.dotGeneral dot_S100000x100_S100x1_S100000x1_1_0_0_1_n_n none l r) : (⟨S100000x100, .f32⟩ : BufTy).Contents (Elt F) → (⟨S100x1, .f32⟩ : BufTy).Contents (Elt F) → (⟨S100000x1, .f32⟩ : BufTy).Contents (Elt F)),
    binary main_v174 main_v175 main_v176 (addf : (⟨S100000x1, .f32⟩ : BufTy).Contents (Elt F) → (⟨S100000x1, .f32⟩ : BufTy).Contents (Elt F) → (⟨S100000x1, .f32⟩ : BufTy).Contents (Elt F)),
    unary main_arg11 main_v177 (broadcastInDim S1x1 ![1] bcast_S1_S1x1_1 : (⟨S1, .f32⟩ : BufTy).Contents (Elt F) → (⟨S1x1, .f32⟩ : BufTy).Contents (Elt F)),
    unary main_v177 main_v178 (broadcastInDim S100000x1 ![0, 1] bcast_S1x1_S100000x1_0_1 : (⟨S1x1, .f32⟩ : BufTy).Contents (Elt F) → (⟨S100000x1, .f32⟩ : BufTy).Contents (Elt F)),
    binary main_v176 main_v178 main_v179 (addf : (⟨S100000x1, .f32⟩ : BufTy).Contents (Elt F) → (⟨S100000x1, .f32⟩ : BufTy).Contents (Elt F) → (⟨S100000x1, .f32⟩ : BufTy).Contents (Elt F)),
    reshape main_v179 main_v180 rfl shapeCasts_S100000x1_S100000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., binary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., binary_bufs_sub .., unary_bufs_sub .., binary_bufs_sub .., unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., binary_bufs_sub .., unary_bufs_sub .., unary_bufs_sub .., binary_bufs_sub .., reshape_bufs_sub ..⟩

set_option maxRecDepth 8192 in

set_option maxRecDepth 8192 in
set_option maxHeartbeats 92000000 in
/-- Every weakly fair execution terminates with the output at the last layer of the reference's xs, the loss at the
    link loss of the reference's z, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v180) = Cert.HostFns.outR (Cert.HostFns.refXs (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13))) (m ((c.tc : Thread nD τ).loc main_arg1)) (m ((c.tc : Thread nD τ).loc main_arg9)) (m ((c.tc : Thread nD τ).loc main_arg10)) (m ((c.tc : Thread nD τ).loc main_arg11))
      ∧ r.2.mem ((c.tc : Thread nD τ).loc main_v156) = Cert.HostFns.loss (Cert.HostFns.refZ (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15))) (m ((c.tc : Thread nD τ).loc main_arg1)) (m ((c.tc : Thread nD τ).loc main_arg2))
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v180).trans (by after_results_simp; simp only [cast_eq]; rfl),
      (h c main_v156).trans (by after_results_simp; simp only [cast_eq]; rfl),
      (h c main_arg16).trans (by after_results_simp <;> rfl),
      (h c main_arg17).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl)⟩)
    (run_seq scopedRefs_eq scopedSems_eq defs main (fun _ => ops) main_eq (fun _ => ops_sub) m ρ)

end Cert.ReferenceIdeal.RefRun

end
-- ==== Proof.HostK.lean ====
/-
  What the arrays hold that the three grid regions are entered with, and what the program returns.

  Between its regions the program runs stretches of host operations on whole arrays: the degree-normalised edge
  weights and the first aggregated message before region 0; the aggregation of the projected message p1 before
  region 1; the link loss over z and the aggregation of the projected message p2 before region 2; a final flattening.
  The contents at each boundary are a fold of these stretches and of the regions' write-backs over the launch memory.
  Here each array a region reads, and each returned array, is read back through that fold to a stage of the argument
  arrays and of the regions' output arrays.
-/
import proofs.«145370_j17231408792162_2_alg».proof.Proof.Gen.KernelIdeal.Frame
import proofs.«145370_j17231408792162_2_alg».proof.Proof.HostFns
import Idealize.ShloMosaic.Lib.StableHlo.Run

set_option maxRecDepth 16384
set_option maxHeartbeats 8000000

noncomputable section

namespace Cert.KernelIdeal.HostK

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The first region's outputs: h and the projection p1. -/
abbrev H0 := (dat0 (V3 m ρ) c).arrAt 6 cfg0.N
abbrev P1 := (dat0 (V3 m ρ) c).arrAt 7 cfg0.N
/-- The second region's outputs: xs, z and the projection p2. -/
abbrev XS := (dat1 (V5 m ρ) c).arrAt 10 cfg1.N
abbrev ZZ := (dat1 (V5 m ρ) c).arrAt 11 cfg1.N
abbrev P2 := (dat1 (V5 m ρ) c).arrAt 12 cfg1.N
/-- The third region's output. -/
abbrev OUT := (dat2 (V7 m ρ) c).arrAt 4 cfg2.N

/-! ## Before region 0 -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg1 : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem W3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl
theorem W3_arg9 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl
theorem W3_arg10 : W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp <;> rfl
theorem W3_arg11 : W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results_simp <;> rfl
theorem W3_arg12 : W3 m ρ c (Proc.devRef .tc main_arg12) = m ((c : Thread nD τ).loc main_arg12) := by
  show StableHlo.after hostOps0_2 (StableHlo.after hostOps0_1 (StableHlo.after hostOps0 (W0 m ρ c))) (Proc.devRef .tc main_arg12) = _
  after_results_simp <;> rfl
theorem W3_arg13 : W3 m ρ c (Proc.devRef .tc main_arg13) = m ((c : Thread nD τ).loc main_arg13) := by
  show StableHlo.after hostOps0_2 (StableHlo.after hostOps0_1 (StableHlo.after hostOps0 (W0 m ρ c))) (Proc.devRef .tc main_arg13) = _
  after_results_simp <;> rfl
theorem W3_arg14 : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results_simp <;> rfl
theorem W3_arg15 : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results_simp <;> rfl
set_option maxRecDepth 65536 in
/-- The edge weights. -/
theorem W3_v29 : W3 m ρ c (Proc.devRef .tc main_v29) = Cert.HostFns.w (m ((c : Thread nD τ).loc main_arg1)) := by
  show StableHlo.after hostOps0_2 (StableHlo.after hostOps0_1 (StableHlo.after hostOps0 (W0 m ρ c))) (Proc.devRef .tc main_v29) = _
  after_results_simp
  simp only [cast_eq]
  rfl
set_option maxRecDepth 65536 in
/-- The first aggregated message. -/
theorem W3_v46 : W3 m ρ c (Proc.devRef .tc main_v46) = Cert.HostFns.msg58 (m ((c : Thread nD τ).loc main_arg0)) (m ((c : Thread nD τ).loc main_arg1)) := by
  show StableHlo.after hostOps0_2 (StableHlo.after hostOps0_1 (StableHlo.after hostOps0 (W0 m ρ c))) (Proc.devRef .tc main_v46) = _
  after_results_simp
  simp only [cast_eq]
  rfl
/-- The first bias as a one-row matrix. -/
theorem W3_v47 : W3 m ρ c (Proc.devRef .tc main_v47) = shapeCast S1x300 (m ((c : Thread nD τ).loc main_arg5)) shapeCasts_S300_S1x300 := by
  show StableHlo.after hostOps0_2 (StableHlo.after hostOps0_1 (StableHlo.after hostOps0 (W0 m ρ c))) (Proc.devRef .tc main_v47) = _
  after_results_simp <;> rfl

/-! ## After region 0 -/

theorem W4_arg0 : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)
theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  ((W4_arr m ρ c 2).trans (((dat0 (V3 m ρ) c).arrAt_in 2 rfl _).trans (A_eq0 (V3 m ρ) c 2))).trans (W3_arg3 m ρ c)
theorem W4_arg4 : W4 m ρ c (Proc.devRef .tc main_arg4) = m ((c : Thread nD τ).loc main_arg4) :=
  ((W4_arr m ρ c 3).trans (((dat0 (V3 m ρ) c).arrAt_in 3 rfl _).trans (A_eq0 (V3 m ρ) c 3))).trans (W3_arg4 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  ((W4_arr m ρ c 5).trans (((dat0 (V3 m ρ) c).arrAt_in 5 rfl _).trans (A_eq0 (V3 m ρ) c 5))).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_arg13 : W4 m ρ c (Proc.devRef .tc main_arg13) = m ((c : Thread nD τ).loc main_arg13) :=
  (W4_of_ne m ρ c main_arg13 (by decide)).trans (W3_arg13 m ρ c)
theorem W4_arg14 : W4 m ρ c (Proc.devRef .tc main_arg14) = m ((c : Thread nD τ).loc main_arg14) :=
  (W4_of_ne m ρ c main_arg14 (by decide)).trans (W3_arg14 m ρ c)
theorem W4_arg15 : W4 m ρ c (Proc.devRef .tc main_arg15) = m ((c : Thread nD τ).loc main_arg15) :=
  (W4_of_ne m ρ c main_arg15 (by decide)).trans (W3_arg15 m ρ c)
theorem W4_v29 : W4 m ρ c (Proc.devRef .tc main_v29) = Cert.HostFns.w (m ((c : Thread nD τ).loc main_arg1)) :=
  (W4_of_ne m ρ c main_v29 (by decide)).trans (W3_v29 m ρ c)
theorem W4_v48_0 : W4 m ρ c (Proc.devRef .tc main_v48_0) = H0 m ρ c := W4_arr m ρ c 6
theorem W4_v48_1 : W4 m ρ c (Proc.devRef .tc main_v48_1) = P1 m ρ c := W4_arr m ρ c 7

/-! ## Before region 1 -/

theorem W5_arg0 : W5 m ρ c (Proc.devRef .tc main_arg0) = m ((c : Thread nD τ).loc main_arg0) := by
  show StableHlo.after hostOps1 (W4 m ρ c) (Proc.devRef .tc main_arg0) = _
  after_results_simp
  exact W4_arg0 m ρ c
theorem W5_arg1 : W5 m ρ c (Proc.devRef .tc main_arg1) = m ((c : Thread nD τ).loc main_arg1) := by
  show StableHlo.after hostOps1 (W4 m ρ c) (Proc.devRef .tc main_arg1) = _
  after_results_simp
  exact W4_arg1 m ρ c
theorem W5_arg2 : W5 m ρ c (Proc.devRef .tc main_arg2) = m ((c : Thread nD τ).loc main_arg2) := by
  show StableHlo.after hostOps1 (W4 m ρ c) (Proc.devRef .tc main_arg2) = _
  after_results_simp
  exact W4_arg2 m ρ c
theorem W5_arg6 : W5 m ρ c (Proc.devRef .tc main_arg6) = m ((c : Thread nD τ).loc main_arg6) := by
  show StableHlo.after hostOps1 (W4 m ρ c) (Proc.devRef .tc main_arg6) = _
  after_results_simp
  exact W4_arg6 m ρ c
theorem W5_arg9 : W5 m ρ c (Proc.devRef .tc main_arg9) = m ((c : Thread nD τ).loc main_arg9) := by
  show StableHlo.after hostOps1 (W4 m ρ c) (Proc.devRef .tc main_arg9) = _
  after_results_simp
  exact W4_arg9 m ρ c
theorem W5_arg10 : W5 m ρ c (Proc.devRef .tc main_arg10) = m ((c : Thread nD τ).loc main_arg10) := by
  show StableHlo.after hostOps1 (W4 m ρ c) (Proc.devRef .tc main_arg10) = _
  after_results_simp
  exact W4_arg10 m ρ c
theorem W5_arg11 : W5 m ρ c (Proc.devRef .tc main_arg11) = m ((c : Thread nD τ).loc main_arg11) := by
  show StableHlo.after hostOps1 (W4 m ρ c) (Proc.devRef .tc main_arg11) = _
  after_results_simp
  exact W4_arg11 m ρ c
theorem W5_arg12 : W5 m ρ c (Proc.devRef .tc main_arg12) = m ((c : Thread nD τ).loc main_arg12) := by
  show StableHlo.after hostOps1 (W4 m ρ c) (Proc.devRef .tc main_arg12) = _
  after_results_simp
  exact W4_arg12 m ρ c
theorem W5_arg14 : W5 m ρ c (Proc.devRef .tc main_arg14) = m ((c : Thread nD τ).loc main_arg14) := by
  show StableHlo.after hostOps1 (W4 m ρ c) (Proc.devRef .tc main_arg14) = _
  after_results_simp
  exact W4_arg14 m ρ c
theorem W5_v29 : W5 m ρ c (Proc.devRef .tc main_v29) = Cert.HostFns.w (m ((c : Thread nD τ).loc main_arg1)) := by
  show StableHlo.after hostOps1 (W4 m ρ c) (Proc.devRef .tc main_v29) = _
  after_results_simp
  exact W4_v29 m ρ c
theorem W5_v48_0 : W5 m ρ c (Proc.devRef .tc main_v48_0) = H0 m ρ c := by
  show StableHlo.after hostOps1 (W4 m ρ c) (Proc.devRef .tc main_v48_0) = _
  after_results_simp
  exact W4_v48_0 m ρ c
/-- The aggregation of the projected message p1. -/
theorem W5_v65 : W5 m ρ c (Proc.devRef .tc main_v65) = Cert.HostFns.msg100 (P1 m ρ c) (m ((c : Thread nD τ).loc main_arg1)) := by
  show StableHlo.after hostOps1 (W4 m ρ c) (Proc.devRef .tc main_v65) = _
  after_results_simp
  rw [W4_arg1, W4_v29, W4_v48_1]
  rfl
theorem W5_v66 : W5 m ρ c (Proc.devRef .tc main_v66) = shapeCast S1x100 (m ((c : Thread nD τ).loc main_arg8)) shapeCasts_S100_S1x100 := by
  show StableHlo.after hostOps1 (W4 m ρ c) (Proc.devRef .tc main_v66) = _
  after_results_simp
  rw [W4_arg8]
  rfl
theorem W5_v67 : W5 m ρ c (Proc.devRef .tc main_v67) = shapeCast S1x100 (m ((c : Thread nD τ).loc main_arg13)) shapeCasts_S100_S1x100 := by
  show StableHlo.after hostOps1 (W4 m ρ c) (Proc.devRef .tc main_v67) = _
  after_results_simp
  rw [W4_arg13]
  rfl
theorem W5_v68 : W5 m ρ c (Proc.devRef .tc main_v68) = shapeCast S1x100 (m ((c : Thread nD τ).loc main_arg15)) shapeCasts_S100_S1x100 := by
  show StableHlo.after hostOps1 (W4 m ρ c) (Proc.devRef .tc main_v68) = _
  after_results_simp
  rw [W4_arg15]
  rfl

/-! ## After region 1 -/

theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg9 : W6 m ρ c (Proc.devRef .tc main_arg9) = m ((c : Thread nD τ).loc main_arg9) :=
  (W6_of_ne m ρ c main_arg9 (by decide)).trans (W5_arg9 m ρ c)
theorem W6_arg11 : W6 m ρ c (Proc.devRef .tc main_arg11) = m ((c : Thread nD τ).loc main_arg11) :=
  (W6_of_ne m ρ c main_arg11 (by decide)).trans (W5_arg11 m ρ c)
theorem W6_v29 : W6 m ρ c (Proc.devRef .tc main_v29) = Cert.HostFns.w (m ((c : Thread nD τ).loc main_arg1)) :=
  (W6_of_ne m ρ c main_v29 (by decide)).trans (W5_v29 m ρ c)
theorem W6_v69_0 : W6 m ρ c (Proc.devRef .tc main_v69_0) = XS m ρ c := W6_arr m ρ c 10
theorem W6_v69_1 : W6 m ρ c (Proc.devRef .tc main_v69_1) = ZZ m ρ c := W6_arr m ρ c 11
theorem W6_v69_2 : W6 m ρ c (Proc.devRef .tc main_v69_2) = P2 m ρ c := W6_arr m ρ c 12

/-! ## Before region 2 -/

theorem W7_arg9 : W7 m ρ c (Proc.devRef .tc main_arg9) = m ((c : Thread nD τ).loc main_arg9) := by
  show StableHlo.after hostOps2 (W6 m ρ c) (Proc.devRef .tc main_arg9) = _
  after_results_simp
  exact W6_arg9 m ρ c
theorem W7_v69_0 : W7 m ρ c (Proc.devRef .tc main_v69_0) = XS m ρ c := by
  show StableHlo.after hostOps2 (W6 m ρ c) (Proc.devRef .tc main_v69_0) = _
  after_results_simp
  exact W6_v69_0 m ρ c
/-- The aggregation of the projected message p2. -/
theorem W7_v152 : W7 m ρ c (Proc.devRef .tc main_v152) = Cert.HostFns.msg1 (P2 m ρ c) (m ((c : Thread nD τ).loc main_arg1)) := by
  show StableHlo.after hostOps2 (W6 m ρ c) (Proc.devRef .tc main_v152) = _
  after_results_simp
  rw [W6_arg1, W6_v29, W6_v69_2]
  rfl
theorem W7_v153 : W7 m ρ c (Proc.devRef .tc main_v153) = shapeCast S1x1 (m ((c : Thread nD τ).loc main_arg11)) shapeCasts_S1_S1x1 := by
  show StableHlo.after hostOps2 (W6 m ρ c) (Proc.devRef .tc main_v153) = _
  after_results_simp
  rw [W6_arg11]
  rfl
/-- The link loss of z. -/
theorem W7_v136 : W7 m ρ c (Proc.devRef .tc main_v136) = Cert.HostFns.loss (ZZ m ρ c) (m ((c : Thread nD τ).loc main_arg1)) (m ((c : Thread nD τ).loc main_arg2)) := by
  show StableHlo.after hostOps2 (W6 m ρ c) (Proc.devRef .tc main_v136) = _
  after_results_simp
  rw [W6_arg1, W6_arg2, W6_v69_1]
  rfl

/-! ## After region 2, and the return -/

theorem W8_v154 : W8 m ρ c (Proc.devRef .tc main_v154) = OUT m ρ c := W8_arr m ρ c 4
theorem W8_v136 : W8 m ρ c (Proc.devRef .tc main_v136) = Cert.HostFns.loss (ZZ m ρ c) (m ((c : Thread nD τ).loc main_arg1)) (m ((c : Thread nD τ).loc main_arg2)) :=
  (W8_of_ne m ρ c main_v136 (by decide)).trans (W7_v136 m ρ c)

/-- The returned node output: the third region's column, flattened. -/
theorem W9_v155 : W9 m ρ c (Proc.devRef .tc main_v155) = shapeCast S100000 (OUT m ρ c) shapeCasts_S100000x1_S100000 := by
  show StableHlo.after hostOps3 (W8 m ρ c) (Proc.devRef .tc main_v155) = _
  after_results_simp
  rw [W8_v154]
  rfl
/-- The returned loss. -/
theorem W9_v136 : W9 m ρ c (Proc.devRef .tc main_v136) = Cert.HostFns.loss (ZZ m ρ c) (m ((c : Thread nD τ).loc main_arg1)) (m ((c : Thread nD τ).loc main_arg2)) := by
  show StableHlo.after hostOps3 (W8 m ρ c) (Proc.devRef .tc main_v136) = _
  after_results_simp
  exact W8_v136 m ρ c

end Cert.KernelIdeal.HostK

end
-- ==== Proof.Net.lean ====
/-
  The dense stages of a three-layer graph-convolution network, entry by entry over the extended reals, for any number
  of rows.

  Every stage acts on the rows of its operands one at a time: entry (r, q) of a stage depends on row r of the row
  operands and on the whole weight operands only.  So a block of consecutive rows of a stage, computed from that block
  of rows of its operands, is the same block of the stage computed on the whole arrays; this is what lets a kernel that
  works through the rows block by block be read as one function of the whole arrays.
-/
import Idealize.ShloMosaic.PureOps.Ideal
import Idealize.ShloMosaic.Lib.ValueIdx

noncomputable section

open scoped BigOperators

namespace Cert.Net

open Idealize.ShloMosaic Idealize.ShloMosaic.ValueIdx

/-- The float pattern of zero, kept as a pattern. -/
abbrev zero : EReal := Ideal.ofBits .f32 0x00000000#32

variable {N K C : ℕ}

/-- The first layer: the rectifier of x · W0 + t · W1 + b, the bias a one-row matrix. -/
def conv1 (X T : (⟨2, ![N, K]⟩ : Shape).Idx → EReal) (W0 W1 : (⟨2, ![K, C]⟩ : Shape).Idx → EReal)
    (b : (⟨2, ![1, C]⟩ : Shape).Idx → EReal) : (⟨2, ![N, C]⟩ : Shape).Idx → EReal :=
  fun i => max ((∑ k : Fin K, X (ix2 (i 0) k) * W0 (ix2 k (i 1)) + ∑ k : Fin K, T (ix2 (i 0) k) * W1 (ix2 k (i 1)))
    + b (ix2 (0 : Fin 1) (i 1))) zero

theorem conv1_apply (X T : (⟨2, ![N, K]⟩ : Shape).Idx → EReal) (W0 W1 : (⟨2, ![K, C]⟩ : Shape).Idx → EReal)
    (b : (⟨2, ![1, C]⟩ : Shape).Idx → EReal) (r : Fin N) (q : Fin C) :
    conv1 X T W0 W1 b (ix2 r q) = max ((∑ k : Fin K, X (ix2 r k) * W0 (ix2 k q) + ∑ k : Fin K, T (ix2 r k) * W1 (ix2 k q))
      + b (ix2 (0 : Fin 1) q)) zero := rfl

/-- A projection: the matrix product h · W. -/
def proj (H : (⟨2, ![N, K]⟩ : Shape).Idx → EReal) (W : (⟨2, ![K, C]⟩ : Shape).Idx → EReal) :
    (⟨2, ![N, C]⟩ : Shape).Idx → EReal :=
  fun i => ∑ k : Fin K, H (ix2 (i 0) k) * W (ix2 k (i 1))

theorem proj_apply (H : (⟨2, ![N, K]⟩ : Shape).Idx → EReal) (W : (⟨2, ![K, C]⟩ : Shape).Idx → EReal) (r : Fin N) (q : Fin C) :
    proj H W (ix2 r q) = ∑ k : Fin K, H (ix2 r k) * W (ix2 k q) := rfl

/-- A layer whose aggregated message arrives already projected: the rectifier of h · W0 + p + b. -/
def conv2 (H : (⟨2, ![N, K]⟩ : Shape).Idx → EReal) (P : (⟨2, ![N, C]⟩ : Shape).Idx → EReal)
    (W0 : (⟨2, ![K, C]⟩ : Shape).Idx → EReal) (b : (⟨2, ![1, C]⟩ : Shape).Idx → EReal) : (⟨2, ![N, C]⟩ : Shape).Idx → EReal :=
  fun i => max ((∑ k : Fin K, H (ix2 (i 0) k) * W0 (ix2 k (i 1)) + P i) + b (ix2 (0 : Fin 1) (i 1))) zero

theorem conv2_apply (H : (⟨2, ![N, K]⟩ : Shape).Idx → EReal) (P : (⟨2, ![N, C]⟩ : Shape).Idx → EReal)
    (W0 : (⟨2, ![K, C]⟩ : Shape).Idx → EReal) (b : (⟨2, ![1, C]⟩ : Shape).Idx → EReal) (r : Fin N) (q : Fin C) :
    conv2 H P W0 b (ix2 r q) = max ((∑ k : Fin K, H (ix2 r k) * W0 (ix2 k q) + P (ix2 r q)) + b (ix2 (0 : Fin 1) q)) zero := rfl

/-- A dense layer with rectifier: max (x · W + b) 0. -/
def lin (X : (⟨2, ![N, K]⟩ : Shape).Idx → EReal) (W : (⟨2, ![K, C]⟩ : Shape).Idx → EReal)
    (b : (⟨2, ![1, C]⟩ : Shape).Idx → EReal) : (⟨2, ![N, C]⟩ : Shape).Idx → EReal :=
  fun i => max (∑ k : Fin K, X (ix2 (i 0) k) * W (ix2 k (i 1)) + b (ix2 (0 : Fin 1) (i 1))) zero

theorem lin_apply (X : (⟨2, ![N, K]⟩ : Shape).Idx → EReal) (W : (⟨2, ![K, C]⟩ : Shape).Idx → EReal)
    (b : (⟨2, ![1, C]⟩ : Shape).Idx → EReal) (r : Fin N) (q : Fin C) :
    lin X W b (ix2 r q) = max (∑ k : Fin K, X (ix2 r k) * W (ix2 k q) + b (ix2 (0 : Fin 1) q)) zero := rfl

/-- The last layer, its message already projected and no rectifier: xs · W0 + p + b. -/
def conv3 (Xs : (⟨2, ![N, K]⟩ : Shape).Idx → EReal) (P : (⟨2, ![N, C]⟩ : Shape).Idx → EReal)
    (W0 : (⟨2, ![K, C]⟩ : Shape).Idx → EReal) (b : (⟨2, ![1, C]⟩ : Shape).Idx → EReal) : (⟨2, ![N, C]⟩ : Shape).Idx → EReal :=
  fun i => (∑ k : Fin K, Xs (ix2 (i 0) k) * W0 (ix2 k (i 1)) + P i) + b (ix2 (0 : Fin 1) (i 1))

theorem conv3_apply (Xs : (⟨2, ![N, K]⟩ : Shape).Idx → EReal) (P : (⟨2, ![N, C]⟩ : Shape).Idx → EReal)
    (W0 : (⟨2, ![K, C]⟩ : Shape).Idx → EReal) (b : (⟨2, ![1, C]⟩ : Shape).Idx → EReal) (r : Fin N) (q : Fin C) :
    conv3 Xs P W0 b (ix2 r q) = (∑ k : Fin K, Xs (ix2 r k) * W0 (ix2 k q) + P (ix2 r q)) + b (ix2 (0 : Fin 1) q) := rfl

end Cert.Net

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.Payloads.lean ====
/-
  The arithmetic of the three kernel bodies, read as the dense stages of the network.

  Each body's value is a fixed composition of matrix products into a zero accumulator, sums, a bias row broadcast over
  all rows and the rectifier; changes of float format and casts to the same shape do nothing over the extended reals.
  Entry by entry these compositions are the stages of the network: the first layer and its projection, the second
  layer, the dense layers, the sums of two blocks and their projection, and the last layer.
-/
import proofs.«145370_j17231408792162_2_alg».proof.Proof.Gen.KernelIdeal.Skeleton
import proofs.«145370_j17231408792162_2_alg».proof.Proof.Net
import proofs.«145370_j17231408792162_2_alg».proof.Proof.LibProduct
import Idealize.ShloMosaic.Lib.Pipeline.Value
import Idealize.ShloMosaic.Lib.ValueLayout
import Idealize.ShloMosaic.Lib.ValueIdx

noncomputable section

open scoped BigOperators

namespace Cert.KernelIdeal.Payloads

open Cert.KernelIdeal Cert.KernelIdeal.Gen Idealize.ShloMosaic Idealize.ShloMosaic.ValueIdx

/-- The first body's first value is the first layer: `max (x0 · w0 + x1 · w1 + b) 0`, the bias row broadcast over the
    rows.  Each matrix product into the zero accumulator is the sum over the shared coordinate. -/
theorem k0_pay1_eq (x0 x1 : Vec Ideal S2000x58 .f32) (w0 w1 : Vec Ideal S58x300 .f32) (b : Vec Ideal S1x300 .f32) :
    k0_pay1 (F := Ideal) x0 x1 w0 w1 b = Cert.Net.conv1 x0 x1 w0 w1 b := by
  funext j
  obtain ⟨p, q, rfl⟩ : ∃ (p : Fin 2000) (q : Fin 300), j = ix2 p q := ⟨j 0, j 1, eq_ix2 j⟩
  rw [Cert.Net.conv1_apply]
  unfold k0_pay1
  simp only [matmul, shapeCast_self]
  rw [maximumf_apply, addf_apply, addf_apply, Cert.LibProduct.matmul_zero_apply _ rfl rfl rfl rfl rfl rfl,
    Cert.LibProduct.matmul_zero_apply _ rfl rfl rfl rfl rfl rfl, broadcastTo_1b_ab_apply]
  rfl

/-- The first body's second value is the first layer projected through the weight `w`. -/
theorem k0_pay2_eq (x0 x1 : Vec Ideal S2000x58 .f32) (w0 w1 : Vec Ideal S58x300 .f32) (b : Vec Ideal S1x300 .f32)
    (w : Vec Ideal S300x100 .f32) :
    k0_pay2 (F := Ideal) x0 x1 w0 w1 b w = Cert.Net.proj (Cert.Net.conv1 x0 x1 w0 w1 b) w := by
  funext j
  obtain ⟨p, q, rfl⟩ : ∃ (p : Fin 2000) (q : Fin 100), j = ix2 p q := ⟨j 0, j 1, eq_ix2 j⟩
  rw [Cert.Net.proj_apply, ← k0_pay1_eq]
  unfold k0_pay2
  simp only [matmul]
  rw [Cert.LibProduct.matmul_zero_apply _ rfl rfl rfl rfl rfl rfl]
  rfl

/-- The sum of two blocks, entry by entry. -/
theorem k1_pay1_eq (a b : FVec Ideal S2000x100 .f32) : k1_pay1 (F := Ideal) a b = fun i => a i + b i := rfl

/-- The sum of two blocks, entry by entry. -/
theorem k1_pay2_eq (a b : FVec Ideal S2000x100 .f32) : k1_pay2 (F := Ideal) a b = fun i => a i + b i := rfl

/-- The sum of two blocks projected through the one-column weight `w`. -/
theorem k1_pay3_eq (a b : FVec Ideal S2000x100 .f32) (w : Vec Ideal S100x1 .f32) :
    k1_pay3 (F := Ideal) a b w = Cert.Net.proj (fun i => a i + b i) w := by
  funext j
  obtain ⟨p, q, rfl⟩ : ∃ (p : Fin 2000) (q : Fin 1), j = ix2 p q := ⟨j 0, j 1, eq_ix2 j⟩
  rw [Cert.Net.proj_apply]
  unfold k1_pay3
  simp only [matmul]
  rw [Cert.LibProduct.matmul_zero_apply _ rfl rfl rfl rfl rfl rfl]
  rfl

/-- The second body's layer value: `max (h · w + m + b) 0` for the block `h`, the weight `w`, the projected message
    block `m` and the bias row `b`. -/
theorem k1_pay4_eq (v0 : Vec Ideal S2000x300 .f32) (v3 : Vec Ideal S300x100 .f32) (v6 : Vec Ideal S2000x100 .f32)
    (v9 : Vec Ideal S1x100 .f32) :
    k1_pay4 (F := Ideal) v0 v3 v6 v9 = Cert.Net.conv2 v0 v6 v3 v9 := by
  funext j
  obtain ⟨p, q, rfl⟩ : ∃ (p : Fin 2000) (q : Fin 100), j = ix2 p q := ⟨j 0, j 1, eq_ix2 j⟩
  rw [Cert.Net.conv2_apply]
  unfold k1_pay4
  simp only [matmul, shapeCast_self]
  rw [maximumf_apply, addf_apply, addf_apply, Cert.LibProduct.matmul_zero_apply _ rfl rfl rfl rfl rfl rfl,
    broadcastTo_1b_ab_apply]
  rfl

/-- A dense layer of the second body: `max (x · w + b) 0`. -/
theorem k1_pay6_eq (v15 : Vec Ideal S2000x58 .f32) (v17 : Vec Ideal S58x100 .f32) (v20 : Vec Ideal S1x100 .f32) :
    k1_pay6 (F := Ideal) v15 v17 v20 = Cert.Net.lin v15 v17 v20 := by
  funext j
  obtain ⟨p, q, rfl⟩ : ∃ (p : Fin 2000) (q : Fin 100), j = ix2 p q := ⟨j 0, j 1, eq_ix2 j⟩
  rw [Cert.Net.lin_apply]
  unfold k1_pay6 k1_pay5
  simp only [matmul, shapeCast_self]
  rw [maximumf_apply, addf_apply, Cert.LibProduct.matmul_zero_apply _ rfl rfl rfl rfl rfl rfl, broadcastTo_1b_ab_apply]
  rfl

/-- The other dense layer of the second body: `max (x · w + b) 0`. -/
theorem k1_pay7_eq (v15 : Vec Ideal S2000x58 .f32) (v26 : Vec Ideal S58x100 .f32) (v29 : Vec Ideal S1x100 .f32) :
    k1_pay7 (F := Ideal) v15 v26 v29 = Cert.Net.lin v15 v26 v29 := by
  funext j
  obtain ⟨p, q, rfl⟩ : ∃ (p : Fin 2000) (q : Fin 100), j = ix2 p q := ⟨j 0, j 1, eq_ix2 j⟩
  rw [Cert.Net.lin_apply]
  unfold k1_pay7 k1_pay5
  simp only [matmul, shapeCast_self]
  rw [maximumf_apply, addf_apply, Cert.LibProduct.matmul_zero_apply _ rfl rfl rfl rfl rfl rfl, broadcastTo_1b_ab_apply]
  rfl

/-- The third body's value is the last layer: `xs · w + m + b`, no rectifier. -/
theorem k2_pay1_eq (v0 : Vec Ideal S2000x100 .f32) (v3 : Vec Ideal S100x1 .f32) (v6 : Vec Ideal S2000x1 .f32)
    (v9 : Vec Ideal S1x1 .f32) :
    k2_pay1 (F := Ideal) v0 v3 v6 v9 = Cert.Net.conv3 v0 v6 v3 v9 := by
  funext j
  obtain ⟨p, q, rfl⟩ : ∃ (p : Fin 2000) (q : Fin 1), j = ix2 p q := ⟨j 0, j 1, eq_ix2 j⟩
  rw [Cert.Net.conv3_apply]
  unfold k2_pay1
  simp only [matmul, shapeCast_self]
  rw [addf_apply, addf_apply, Cert.LibProduct.matmul_zero_apply _ rfl rfl rfl rfl rfl rfl, broadcastTo_1b_ab_apply]
  rfl

end Cert.KernelIdeal.Payloads

end
-- ==== Proof.Conv1Value.lean ====
/-
  What the first grid region leaves in its two output arrays.

  The region works through the 100000 node rows in 50 blocks of 2000.  At block t it reads rows 2000·t … 2000·t + 1999
  of the node features and of the aggregated message, the whole weight matrices and the bias row, and writes the same
  rows of h and of the projection p1.  Every stage acts row by row, so the block written at t is that block of the stage
  computed on the whole arrays, and the 50 blocks tile the arrays: after the region h and p1 hold the stages of the
  arrays the region found.
-/
import proofs.«145370_j17231408792162_2_alg».proof.Proof.Gen.KernelIdeal.Frame
import proofs.«145370_j17231408792162_2_alg».proof.Proof.Net
import proofs.«145370_j17231408792162_2_alg».proof.Proof.Payloads
import Idealize.ShloMosaic.Lib.Pipeline.Value
import Idealize.ShloMosaic.Lib.ValueIdx

set_option maxRecDepth 16384

noncomputable section

namespace Cert.KernelIdeal.Conv1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a window of node rows, read or written, is at block (t, 0) at point t, a
    window holding a whole weight matrix or bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of block t is row 2000·t + p of the array. -/
def row (t : Fin cfg0.N) (p : Fin 2000) : Fin 100000 :=
  ⟨t.val * 2000 + p.val, by have ht := t.isLt; have hN : grid0.N = 50 := N_0; have hp := p.isLt; change t.val < grid0.N at ht; omega⟩

/-! ## Each input block, read as rows of its array -/

theorem rd0 (c : Dev nD) (t : Fin cfg0.N) (p : Fin 2000) (k : Fin 58) :
    iblk0 V c 0 t (ix2 p k) = V c main_arg0 (ix2 (row t p) k) := by
  obtain ⟨e0_0, e0_1, e1_0, e1_1, e2_0, e2_1, e3_0, e3_1, e4_0, e4_1, e5_0, e5_1, e6_0, e6_1, e7_0, e7_1⟩ := idx_facts t
  show V c main_arg0 (((cfg0.win 0).blk t).view.emb (ix2 p k)) = _
  congr 1
  funext a; apply Fin.ext
  match a with
  | ⟨0, _⟩ => show win0_0.index t (0 : Fin 2) * 2000 + 1 * p.val = t.val * 2000 + p.val; omega
  | ⟨1, _⟩ => show win0_0.index t (1 : Fin 2) * 58 + 1 * k.val = k.val; omega

theorem rd1 (c : Dev nD) (t : Fin cfg0.N) (p : Fin 2000) (k : Fin 58) :
    iblk0 V c 1 t (ix2 p k) = V c main_v46 (ix2 (row t p) k) := by
  obtain ⟨e0_0, e0_1, e1_0, e1_1, e2_0, e2_1, e3_0, e3_1, e4_0, e4_1, e5_0, e5_1, e6_0, e6_1, e7_0, e7_1⟩ := idx_facts t
  show V c main_v46 (((cfg0.win 1).blk t).view.emb (ix2 p k)) = _
  congr 1
  funext a; apply Fin.ext
  match a with
  | ⟨0, _⟩ => show win0_1.index t (0 : Fin 2) * 2000 + 1 * p.val = t.val * 2000 + p.val; omega
  | ⟨1, _⟩ => show win0_1.index t (1 : Fin 2) * 58 + 1 * k.val = k.val; omega

theorem rd2 (c : Dev nD) (t : Fin cfg0.N) (p : Fin 58) (k : Fin 300) :
    iblk0 V c 2 t (ix2 p k) = V c main_arg3 (ix2 p k) := by
  obtain ⟨e0_0, e0_1, e1_0, e1_1, e2_0, e2_1, e3_0, e3_1, e4_0, e4_1, e5_0, e5_1, e6_0, e6_1, e7_0, e7_1⟩ := idx_facts t
  show V c main_arg3 (((cfg0.win 2).blk t).view.emb (ix2 p k)) = _
  congr 1
  funext a; apply Fin.ext
  match a with
  | ⟨0, _⟩ => show win0_2.index t (0 : Fin 2) * 58 + 1 * p.val = p.val; omega
  | ⟨1, _⟩ => show win0_2.index t (1 : Fin 2) * 300 + 1 * k.val = k.val; omega

theorem rd3 (c : Dev nD) (t : Fin cfg0.N) (p : Fin 58) (k : Fin 300) :
    iblk0 V c 3 t (ix2 p k) = V c main_arg4 (ix2 p k) := by
  obtain ⟨e0_0, e0_1, e1_0, e1_1, e2_0, e2_1, e3_0, e3_1, e4_0, e4_1, e5_0, e5_1, e6_0, e6_1, e7_0, e7_1⟩ := idx_facts t
  show V c main_arg4 (((cfg0.win 3).blk t).view.emb (ix2 p k)) = _
  congr 1
  funext a; apply Fin.ext
  match a with
  | ⟨0, _⟩ => show win0_3.index t (0 : Fin 2) * 58 + 1 * p.val = p.val; omega
  | ⟨1, _⟩ => show win0_3.index t (1 : Fin 2) * 300 + 1 * k.val = k.val; omega

theorem rd4 (c : Dev nD) (t : Fin cfg0.N) (p : Fin 1) (k : Fin 300) :
    iblk0 V c 4 t (ix2 p k) = V c main_v47 (ix2 p k) := by
  obtain ⟨e0_0, e0_1, e1_0, e1_1, e2_0, e2_1, e3_0, e3_1, e4_0, e4_1, e5_0, e5_1, e6_0, e6_1, e7_0, e7_1⟩ := idx_facts t
  show V c main_v47 (((cfg0.win 4).blk t).view.emb (ix2 p k)) = _
  congr 1
  funext a; apply Fin.ext
  match a with
  | ⟨0, _⟩ => show win0_4.index t (0 : Fin 2) * 1 + 1 * p.val = p.val; omega
  | ⟨1, _⟩ => show win0_4.index t (1 : Fin 2) * 300 + 1 * k.val = k.val; omega

theorem rd5 (c : Dev nD) (t : Fin cfg0.N) (p : Fin 300) (k : Fin 100) :
    iblk0 V c 5 t (ix2 p k) = V c main_arg7 (ix2 p k) := by
  obtain ⟨e0_0, e0_1, e1_0, e1_1, e2_0, e2_1, e3_0, e3_1, e4_0, e4_1, e5_0, e5_1, e6_0, e6_1, e7_0, e7_1⟩ := idx_facts t
  show V c main_arg7 (((cfg0.win 5).blk t).view.emb (ix2 p k)) = _
  congr 1
  funext a; apply Fin.ext
  match a with
  | ⟨0, _⟩ => show win0_5.index t (0 : Fin 2) * 300 + 1 * p.val = p.val; omega
  | ⟨1, _⟩ => show win0_5.index t (1 : Fin 2) * 100 + 1 * k.val = k.val; omega

/-! ## Output window 6 -/

/-- Entry (p, q) of block t of the array is entry (2000·t + p, q). -/
theorem emb6 (t : Fin cfg0.N) (p : Fin 2000) (q : Fin 300) :
    ((cfg0.win 6).blk t).view.emb (ix2 p q) = (ix2 (row t p) q : S100000x300.Idx) := by
  obtain ⟨e0_0, e0_1, e1_0, e1_1, e2_0, e2_1, e3_0, e3_1, e4_0, e4_1, e5_0, e5_1, e6_0, e6_1, e7_0, e7_1⟩ := idx_facts t
  funext a; apply Fin.ext
  match a with
  | ⟨0, _⟩ => show win0_6.index t (0 : Fin 2) * 2000 + 1 * p.val = t.val * 2000 + p.val; omega
  | ⟨1, _⟩ => show win0_6.index t (1 : Fin 2) * 300 + 1 * q.val = q.val; omega

/-- What point t writes back to h is block t of the first layer of the arrays the region found. -/
theorem flushed6 (c : Dev nD) (t : Fin cfg0.N) :
    (dat0 V c).flushed 6 t = ((cfg0.win 6).blk t).view.read (Elt Ideal) (Cert.Net.conv1 (N := 100000) (K := 58) (C := 300) (V c main_arg0) (V c main_v46) (V c main_arg3) (V c main_arg4) (V c main_v47)) := by
  show (cfg0.win 6).cut (grid0.coords t) ((dat0 V c).after 6 t) = _
  rw [after0_6]
  unfold out0_6
  rw [View.canon_unit_zero hz]
  simp only [View.ld_unit_zero (S := S2000x58) hz, View.ld_unit_zero (S := S58x300) hz, View.ld_unit_zero (S := S1x300) hz, View.ld_unit_zero (S := S300x100) hz]
  rw [Cert.KernelIdeal.Payloads.k0_pay1_eq]
  funext j
  obtain ⟨p, q, rfl⟩ : ∃ (p : Fin 2000) (q : Fin 300), j = ix2 p q := ⟨j 0, j 1, eq_ix2 j⟩
  show Cert.Net.conv1 (N := 2000) (K := 58) (C := 300) (iblk0 V c 0 t) (iblk0 V c 1 t) (iblk0 V c 2 t) (iblk0 V c 3 t) (iblk0 V c 4 t) (ix2 p q)
    = (Cert.Net.conv1 (N := 100000) (K := 58) (C := 300) (V c main_arg0) (V c main_v46) (V c main_arg3) (V c main_arg4) (V c main_v47)) (((cfg0.win 6).blk t).view.emb (ix2 p q))
  rw [emb6, Cert.Net.conv1_apply, Cert.Net.conv1_apply]
  simp only [rd0, rd1, rd2, rd3, rd4]

/-- An index of the array is in point t's block iff each coordinate is in the block's range on its axis. -/
theorem mem_blk6 (t : Fin cfg0.N) (i : S100000x300.Idx) :
    i ∈ ((cfg0.win 6).blk t).view.set ↔ ∀ a : Fin 2, win0_6.index t a * S2000x300.size a ≤ (i a).val ∧ (i a).val < win0_6.index t a * S2000x300.size a + S2000x300.size a := by
  show i ∈ ((View.whole main_v48_0).slice (win0_6.rect t)).set ↔ _
  rw [View.set_slice_whole, Rect.mem_set_unit]
  exact Iff.rfl

/-- The blocks tile the array: row r is in block r / 2000. -/
theorem cover6 (i : S100000x300.Idx) :
    ∃ t : Fin cfg0.N, (cfg0.win 6).flush t = true ∧ i ∈ ((cfg0.win 6).blk t).view.set := by
  have hi0 : (i 0).val < 100000 := (i 0).isLt
  have hi1 : (i 1).val < 300 := (i 1).isLt
  have hN : grid0.N = 50 := N_0
  have ht : (i 0).val / 2000 < cfg0.N := by change _ < grid0.N; omega
  refine ⟨⟨(i 0).val / 2000, ht⟩, flush0_6 _, ?_⟩
  rw [mem_blk6]
  obtain ⟨e0_0, e0_1, e1_0, e1_1, e2_0, e2_1, e3_0, e3_1, e4_0, e4_1, e5_0, e5_1, e6_0, e6_1, e7_0, e7_1⟩ := idx_facts ⟨(i 0).val / 2000, ht⟩
  intro a
  match a with
  | ⟨0, _⟩ => show win0_6.index ⟨(i 0).val / 2000, ht⟩ (0 : Fin 2) * 2000 ≤ (i 0).val ∧ (i 0).val < win0_6.index ⟨(i 0).val / 2000, ht⟩ (0 : Fin 2) * 2000 + 2000; have e6 : win0_6.index ⟨(i 0).val / 2000, ht⟩ (0 : Fin 2) = (i 0).val / 2000 := e6_0; omega
  | ⟨1, _⟩ => show win0_6.index ⟨(i 0).val / 2000, ht⟩ (1 : Fin 2) * 300 ≤ (i 1).val ∧ (i 1).val < win0_6.index ⟨(i 0).val / 2000, ht⟩ (1 : Fin 2) * 300 + 300; omega

/-- After the region h is the first layer of the arrays the region found. -/
theorem final6 (c : Dev nD) : (dat0 V c).arrAt 6 cfg0.N = (Cert.Net.conv1 (N := 100000) (K := 58) (C := 300) (V c main_arg0) (V c main_v46) (V c main_arg3) (V c main_arg4) (V c main_v47)) :=
  (dat0 V c).arrAt_eq_of_cover 6 _ (fun t _ => flushed6 V c t) (cover6)

/-! ## Output window 7 -/

/-- Entry (p, q) of block t of the array is entry (2000·t + p, q). -/
theorem emb7 (t : Fin cfg0.N) (p : Fin 2000) (q : Fin 100) :
    ((cfg0.win 7).blk t).view.emb (ix2 p q) = (ix2 (row t p) q : S100000x100.Idx) := by
  obtain ⟨e0_0, e0_1, e1_0, e1_1, e2_0, e2_1, e3_0, e3_1, e4_0, e4_1, e5_0, e5_1, e6_0, e6_1, e7_0, e7_1⟩ := idx_facts t
  funext a; apply Fin.ext
  match a with
  | ⟨0, _⟩ => show win0_7.index t (0 : Fin 2) * 2000 + 1 * p.val = t.val * 2000 + p.val; omega
  | ⟨1, _⟩ => show win0_7.index t (1 : Fin 2) * 100 + 1 * q.val = q.val; omega

/-- What point t writes back to p1 is block t of h · W, h the first layer of the arrays the region found. -/
theorem flushed7 (c : Dev nD) (t : Fin cfg0.N) :
    (dat0 V c).flushed 7 t = ((cfg0.win 7).blk t).view.read (Elt Ideal) (Cert.Net.proj (N := 100000) (K := 300) (C := 100) (Cert.Net.conv1 (N := 100000) (K := 58) (C := 300) (V c main_arg0) (V c main_v46) (V c main_arg3) (V c main_arg4) (V c main_v47)) (V c main_arg7)) := by
  show (cfg0.win 7).cut (grid0.coords t) ((dat0 V c).after 7 t) = _
  rw [after0_7]
  unfold out0_7
  rw [View.canon_unit_zero hz]
  simp only [View.ld_unit_zero (S := S2000x58) hz, View.ld_unit_zero (S := S58x300) hz, View.ld_unit_zero (S := S1x300) hz, View.ld_unit_zero (S := S300x100) hz]
  rw [Cert.KernelIdeal.Payloads.k0_pay2_eq]
  funext j
  obtain ⟨p, q, rfl⟩ : ∃ (p : Fin 2000) (q : Fin 100), j = ix2 p q := ⟨j 0, j 1, eq_ix2 j⟩
  show Cert.Net.proj (N := 2000) (K := 300) (C := 100) (Cert.Net.conv1 (N := 2000) (K := 58) (C := 300) (iblk0 V c 0 t) (iblk0 V c 1 t) (iblk0 V c 2 t) (iblk0 V c 3 t) (iblk0 V c 4 t)) (iblk0 V c 5 t) (ix2 p q)
    = Cert.Net.proj (N := 100000) (K := 300) (C := 100) (Cert.Net.conv1 (N := 100000) (K := 58) (C := 300) (V c main_arg0) (V c main_v46) (V c main_arg3) (V c main_arg4) (V c main_v47)) (V c main_arg7) (((cfg0.win 7).blk t).view.emb (ix2 p q))
  rw [emb7, Cert.Net.proj_apply, Cert.Net.proj_apply]
  simp only [Cert.Net.conv1_apply, rd0, rd1, rd2, rd3, rd4, rd5]

/-- An index of the array is in point t's block iff each coordinate is in the block's range on its axis. -/
theorem mem_blk7 (t : Fin cfg0.N) (i : S100000x100.Idx) :
    i ∈ ((cfg0.win 7).blk t).view.set ↔ ∀ a : Fin 2, win0_7.index t a * S2000x100.size a ≤ (i a).val ∧ (i a).val < win0_7.index t a * S2000x100.size a + S2000x100.size a := by
  show i ∈ ((View.whole main_v48_1).slice (win0_7.rect t)).set ↔ _
  rw [View.set_slice_whole, Rect.mem_set_unit]
  exact Iff.rfl

/-- The blocks tile the array: row r is in block r / 2000. -/
theorem cover7 (i : S100000x100.Idx) :
    ∃ t : Fin cfg0.N, (cfg0.win 7).flush t = true ∧ i ∈ ((cfg0.win 7).blk t).view.set := by
  have hi0 : (i 0).val < 100000 := (i 0).isLt
  have hi1 : (i 1).val < 100 := (i 1).isLt
  have hN : grid0.N = 50 := N_0
  have ht : (i 0).val / 2000 < cfg0.N := by change _ < grid0.N; omega
  refine ⟨⟨(i 0).val / 2000, ht⟩, flush0_7 _, ?_⟩
  rw [mem_blk7]
  obtain ⟨e0_0, e0_1, e1_0, e1_1, e2_0, e2_1, e3_0, e3_1, e4_0, e4_1, e5_0, e5_1, e6_0, e6_1, e7_0, e7_1⟩ := idx_facts ⟨(i 0).val / 2000, ht⟩
  intro a
  match a with
  | ⟨0, _⟩ => show win0_7.index ⟨(i 0).val / 2000, ht⟩ (0 : Fin 2) * 2000 ≤ (i 0).val ∧ (i 0).val < win0_7.index ⟨(i 0).val / 2000, ht⟩ (0 : Fin 2) * 2000 + 2000; have e7 : win0_7.index ⟨(i 0).val / 2000, ht⟩ (0 : Fin 2) = (i 0).val / 2000 := e7_0; omega
  | ⟨1, _⟩ => show win0_7.index ⟨(i 0).val / 2000, ht⟩ (1 : Fin 2) * 100 ≤ (i 1).val ∧ (i 1).val < win0_7.index ⟨(i 0).val / 2000, ht⟩ (1 : Fin 2) * 100 + 100; omega

/-- After the region p1 is h · W. -/
theorem final7 (c : Dev nD) : (dat0 V c).arrAt 7 cfg0.N = (Cert.Net.proj (N := 100000) (K := 300) (C := 100) (Cert.Net.conv1 (N := 100000) (K := 58) (C := 300) (V c main_arg0) (V c main_v46) (V c main_arg3) (V c main_arg4) (V c main_v47)) (V c main_arg7)) :=
  (dat0 V c).arrAt_eq_of_cover 7 _ (fun t _ => flushed7 V c t) (cover7)

end Cert.KernelIdeal.Conv1

end
-- ==== Proof.Conv2Value.lean ====
/-
  What the second grid region leaves in its three output arrays.

  The region works through the 100000 node rows in 50 blocks of 2000.  At block t it reads rows 2000·t … 2000·t + 1999
  of h, of the projected aggregated message and of the node features, the whole weight matrices and bias rows, and
  writes the same rows of the two sums xs, xt (the second layer plus a dense layer of the node features) and of the
  projection of xs through a one-column weight.  Every stage acts row by row, so the block written at t is that block
  of the stage computed on the whole arrays, and the 50 blocks tile the arrays.
-/
import proofs.«145370_j17231408792162_2_alg».proof.Proof.Gen.KernelIdeal.Frame
import proofs.«145370_j17231408792162_2_alg».proof.Proof.Net
import proofs.«145370_j17231408792162_2_alg».proof.Proof.Payloads
import Idealize.ShloMosaic.Lib.Pipeline.Value
import Idealize.ShloMosaic.Lib.ValueIdx

set_option maxRecDepth 16384

noncomputable section

namespace Cert.KernelIdeal.Conv2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a window of node rows, read or written, is at block (t, 0) at
    point t, a window holding a whole weight matrix or bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- Row p of block t is row 2000·t + p of the array. -/
def row (t : Fin cfg1.N) (p : Fin 2000) : Fin 100000 :=
  ⟨t.val * 2000 + p.val, by have ht := t.isLt; have hN : grid1.N = 50 := N_1; have hp := p.isLt; change t.val < grid1.N at ht; omega⟩

/-! ## Each input block, read as rows of its array -/

theorem rd0 (c : Dev nD) (t : Fin cfg1.N) (p : Fin 2000) (k : Fin 300) :
    iblk1 V c 0 t (ix2 p k) = V c main_v48_0 (ix2 (row t p) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v48_0 (((cfg1.win 0).blk t).view.emb (ix2 p k)) = _
  congr 1
  funext a; apply Fin.ext
  match a with
  | ⟨0, _⟩ => show win1_0.index t (0 : Fin 2) * 2000 + 1 * p.val = t.val * 2000 + p.val; omega
  | ⟨1, _⟩ => show win1_0.index t (1 : Fin 2) * 300 + 1 * k.val = k.val; omega

theorem rd1 (c : Dev nD) (t : Fin cfg1.N) (p : Fin 2000) (k : Fin 100) :
    iblk1 V c 1 t (ix2 p k) = V c main_v65 (ix2 (row t p) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v65 (((cfg1.win 1).blk t).view.emb (ix2 p k)) = _
  congr 1
  funext a; apply Fin.ext
  match a with
  | ⟨0, _⟩ => show win1_1.index t (0 : Fin 2) * 2000 + 1 * p.val = t.val * 2000 + p.val; omega
  | ⟨1, _⟩ => show win1_1.index t (1 : Fin 2) * 100 + 1 * k.val = k.val; omega

theorem rd2 (c : Dev nD) (t : Fin cfg1.N) (p : Fin 2000) (k : Fin 58) :
    iblk1 V c 2 t (ix2 p k) = V c main_arg0 (ix2 (row t p) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg0 (((cfg1.win 2).blk t).view.emb (ix2 p k)) = _
  congr 1
  funext a; apply Fin.ext
  match a with
  | ⟨0, _⟩ => show win1_2.index t (0 : Fin 2) * 2000 + 1 * p.val = t.val * 2000 + p.val; omega
  | ⟨1, _⟩ => show win1_2.index t (1 : Fin 2) * 58 + 1 * k.val = k.val; omega

theorem rd3 (c : Dev nD) (t : Fin cfg1.N) (p : Fin 300) (k : Fin 100) :
    iblk1 V c 3 t (ix2 p k) = V c main_arg6 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg6 (((cfg1.win 3).blk t).view.emb (ix2 p k)) = _
  congr 1
  funext a; apply Fin.ext
  match a with
  | ⟨0, _⟩ => show win1_3.index t (0 : Fin 2) * 300 + 1 * p.val = p.val; omega
  | ⟨1, _⟩ => show win1_3.index t (1 : Fin 2) * 100 + 1 * k.val = k.val; omega

theorem rd4 (c : Dev nD) (t : Fin cfg1.N) (p : Fin 1) (k : Fin 100) :
    iblk1 V c 4 t (ix2 p k) = V c main_v66 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v66 (((cfg1.win 4).blk t).view.emb (ix2 p k)) = _
  congr 1
  funext a; apply Fin.ext
  match a with
  | ⟨0, _⟩ => show win1_4.index t (0 : Fin 2) * 1 + 1 * p.val = p.val; omega
  | ⟨1, _⟩ => show win1_4.index t (1 : Fin 2) * 100 + 1 * k.val = k.val; omega

theorem rd5 (c : Dev nD) (t : Fin cfg1.N) (p : Fin 58) (k : Fin 100) :
    iblk1 V c 5 t (ix2 p k) = V c main_arg12 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg12 (((cfg1.win 5).blk t).view.emb (ix2 p k)) = _
  congr 1
  funext a; apply Fin.ext
  match a with
  | ⟨0, _⟩ => show win1_5.index t (0 : Fin 2) * 58 + 1 * p.val = p.val; omega
  | ⟨1, _⟩ => show win1_5.index t (1 : Fin 2) * 100 + 1 * k.val = k.val; omega

theorem rd6 (c : Dev nD) (t : Fin cfg1.N) (p : Fin 1) (k : Fin 100) :
    iblk1 V c 6 t (ix2 p k) = V c main_v67 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v67 (((cfg1.win 6).blk t).view.emb (ix2 p k)) = _
  congr 1
  funext a; apply Fin.ext
  match a with
  | ⟨0, _⟩ => show win1_6.index t (0 : Fin 2) * 1 + 1 * p.val = p.val; omega
  | ⟨1, _⟩ => show win1_6.index t (1 : Fin 2) * 100 + 1 * k.val = k.val; omega

theorem rd7 (c : Dev nD) (t : Fin cfg1.N) (p : Fin 58) (k : Fin 100) :
    iblk1 V c 7 t (ix2 p k) = V c main_arg14 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg14 (((cfg1.win 7).blk t).view.emb (ix2 p k)) = _
  congr 1
  funext a; apply Fin.ext
  match a with
  | ⟨0, _⟩ => show win1_7.index t (0 : Fin 2) * 58 + 1 * p.val = p.val; omega
  | ⟨1, _⟩ => show win1_7.index t (1 : Fin 2) * 100 + 1 * k.val = k.val; omega

theorem rd8 (c : Dev nD) (t : Fin cfg1.N) (p : Fin 1) (k : Fin 100) :
    iblk1 V c 8 t (ix2 p k) = V c main_v68 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v68 (((cfg1.win 8).blk t).view.emb (ix2 p k)) = _
  congr 1
  funext a; apply Fin.ext
  match a with
  | ⟨0, _⟩ => show win1_8.index t (0 : Fin 2) * 1 + 1 * p.val = p.val; omega
  | ⟨1, _⟩ => show win1_8.index t (1 : Fin 2) * 100 + 1 * k.val = k.val; omega

theorem rd9 (c : Dev nD) (t : Fin cfg1.N) (p : Fin 100) (k : Fin 1) :
    iblk1 V c 9 t (ix2 p k) = V c main_arg10 (ix2 p k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg10 (((cfg1.win 9).blk t).view.emb (ix2 p k)) = _
  congr 1
  funext a; apply Fin.ext
  match a with
  | ⟨0, _⟩ => show win1_9.index t (0 : Fin 2) * 100 + 1 * p.val = p.val; omega
  | ⟨1, _⟩ => show win1_9.index t (1 : Fin 2) * 1 + 1 * k.val = k.val; omega

/-! ## Output window 10 -/

/-- Entry (p, q) of block t of the array is entry (2000·t + p, q). -/
theorem emb10 (t : Fin cfg1.N) (p : Fin 2000) (q : Fin 100) :
    ((cfg1.win 10).blk t).view.emb (ix2 p q) = (ix2 (row t p) q : S100000x100.Idx) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext a; apply Fin.ext
  match a with
  | ⟨0, _⟩ => show win1_10.index t (0 : Fin 2) * 2000 + 1 * p.val = t.val * 2000 + p.val; omega
  | ⟨1, _⟩ => show win1_10.index t (1 : Fin 2) * 100 + 1 * q.val = q.val; omega

/-- What point t writes back to xs is block t of the second layer plus the dense layer, of the arrays the region found. -/
theorem flushed10 (c : Dev nD) (t : Fin cfg1.N) :
    (dat1 V c).flushed 10 t = ((cfg1.win 10).blk t).view.read (Elt Ideal) (fun i => Cert.Net.conv2 (N := 100000) (K := 300) (C := 100) (V c main_v48_0) (V c main_v65) (V c main_arg6) (V c main_v66) i + Cert.Net.lin (N := 100000) (K := 58) (C := 100) (V c main_arg0) (V c main_arg12) (V c main_v67) i) := by
  show (cfg1.win 10).cut (grid1.coords t) ((dat1 V c).after 10 t) = _
  rw [after1_10]
  unfold out1_10
  rw [View.canon_unit_zero hz]
  simp only [View.ld_unit_zero (S := S2000x300) hz, View.ld_unit_zero (S := S2000x100) hz, View.ld_unit_zero (S := S2000x58) hz, View.ld_unit_zero (S := S300x100) hz, View.ld_unit_zero (S := S1x100) hz, View.ld_unit_zero (S := S58x100) hz, View.ld_unit_zero (S := S100x1) hz, View.ld_unit_zero (S := S2000x1) hz]
  rw [Cert.KernelIdeal.Payloads.k1_pay1_eq, Cert.KernelIdeal.Payloads.k1_pay4_eq, Cert.KernelIdeal.Payloads.k1_pay6_eq]
  funext j
  obtain ⟨p, q, rfl⟩ : ∃ (p : Fin 2000) (q : Fin 100), j = ix2 p q := ⟨j 0, j 1, eq_ix2 j⟩
  show Cert.Net.conv2 (N := 2000) (K := 300) (C := 100) (iblk1 V c 0 t) (iblk1 V c 1 t) (iblk1 V c 3 t) (iblk1 V c 4 t) (ix2 p q) + Cert.Net.lin (N := 2000) (K := 58) (C := 100) (iblk1 V c 2 t) (iblk1 V c 5 t) (iblk1 V c 6 t) (ix2 p q)
    = Cert.Net.conv2 (N := 100000) (K := 300) (C := 100) (V c main_v48_0) (V c main_v65) (V c main_arg6) (V c main_v66) (((cfg1.win 10).blk t).view.emb (ix2 p q)) + Cert.Net.lin (N := 100000) (K := 58) (C := 100) (V c main_arg0) (V c main_arg12) (V c main_v67) (((cfg1.win 10).blk t).view.emb (ix2 p q))
  rw [emb10]
  simp only [Cert.Net.conv2_apply, Cert.Net.lin_apply, rd0, rd1, rd2, rd3, rd4, rd5, rd6]

/-- An index of the array is in point t's block iff each coordinate is in the block's range on its axis. -/
theorem mem_blk10 (t : Fin cfg1.N) (i : S100000x100.Idx) :
    i ∈ ((cfg1.win 10).blk t).view.set ↔ ∀ a : Fin 2, win1_10.index t a * S2000x100.size a ≤ (i a).val ∧ (i a).val < win1_10.index t a * S2000x100.size a + S2000x100.size a := by
  show i ∈ ((View.whole main_v69_0).slice (win1_10.rect t)).set ↔ _
  rw [View.set_slice_whole, Rect.mem_set_unit]
  exact Iff.rfl

/-- The blocks tile the array: row r is in block r / 2000. -/
theorem cover10 (i : S100000x100.Idx) :
    ∃ t : Fin cfg1.N, (cfg1.win 10).flush t = true ∧ i ∈ ((cfg1.win 10).blk t).view.set := by
  have hi0 : (i 0).val < 100000 := (i 0).isLt
  have hi1 : (i 1).val < 100 := (i 1).isLt
  have hN : grid1.N = 50 := N_1
  have ht : (i 0).val / 2000 < cfg1.N := by change _ < grid1.N; omega
  refine ⟨⟨(i 0).val / 2000, ht⟩, flush1_10 _, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts ⟨(i 0).val / 2000, ht⟩
  intro a
  match a with
  | ⟨0, _⟩ => show win1_10.index ⟨(i 0).val / 2000, ht⟩ (0 : Fin 2) * 2000 ≤ (i 0).val ∧ (i 0).val < win1_10.index ⟨(i 0).val / 2000, ht⟩ (0 : Fin 2) * 2000 + 2000; have e : win1_10.index ⟨(i 0).val / 2000, ht⟩ (0 : Fin 2) = (i 0).val / 2000 := e10_0; omega
  | ⟨1, _⟩ => show win1_10.index ⟨(i 0).val / 2000, ht⟩ (1 : Fin 2) * 100 ≤ (i 1).val ∧ (i 1).val < win1_10.index ⟨(i 0).val / 2000, ht⟩ (1 : Fin 2) * 100 + 100; omega

/-- After the region xs is the second layer plus the dense layer of the node features, of the arrays the region found. -/
theorem final10 (c : Dev nD) : (dat1 V c).arrAt 10 cfg1.N = (fun i => Cert.Net.conv2 (N := 100000) (K := 300) (C := 100) (V c main_v48_0) (V c main_v65) (V c main_arg6) (V c main_v66) i + Cert.Net.lin (N := 100000) (K := 58) (C := 100) (V c main_arg0) (V c main_arg12) (V c main_v67) i) :=
  (dat1 V c).arrAt_eq_of_cover 10 _ (fun t _ => flushed10 V c t) (cover10)

/-! ## Output window 11 -/

/-- Entry (p, q) of block t of the array is entry (2000·t + p, q). -/
theorem emb11 (t : Fin cfg1.N) (p : Fin 2000) (q : Fin 100) :
    ((cfg1.win 11).blk t).view.emb (ix2 p q) = (ix2 (row t p) q : S100000x100.Idx) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext a; apply Fin.ext
  match a with
  | ⟨0, _⟩ => show win1_11.index t (0 : Fin 2) * 2000 + 1 * p.val = t.val * 2000 + p.val; omega
  | ⟨1, _⟩ => show win1_11.index t (1 : Fin 2) * 100 + 1 * q.val = q.val; omega

/-- What point t writes back to xt is block t of the second layer plus the other dense layer, of the arrays the region found. -/
theorem flushed11 (c : Dev nD) (t : Fin cfg1.N) :
    (dat1 V c).flushed 11 t = ((cfg1.win 11).blk t).view.read (Elt Ideal) (fun i => Cert.Net.conv2 (N := 100000) (K := 300) (C := 100) (V c main_v48_0) (V c main_v65) (V c main_arg6) (V c main_v66) i + Cert.Net.lin (N := 100000) (K := 58) (C := 100) (V c main_arg0) (V c main_arg14) (V c main_v68) i) := by
  show (cfg1.win 11).cut (grid1.coords t) ((dat1 V c).after 11 t) = _
  rw [after1_11]
  unfold out1_11
  rw [View.canon_unit_zero hz]
  simp only [View.ld_unit_zero (S := S2000x300) hz, View.ld_unit_zero (S := S2000x100) hz, View.ld_unit_zero (S := S2000x58) hz, View.ld_unit_zero (S := S300x100) hz, View.ld_unit_zero (S := S1x100) hz, View.ld_unit_zero (S := S58x100) hz, View.ld_unit_zero (S := S100x1) hz, View.ld_unit_zero (S := S2000x1) hz]
  rw [Cert.KernelIdeal.Payloads.k1_pay2_eq, Cert.KernelIdeal.Payloads.k1_pay4_eq, Cert.KernelIdeal.Payloads.k1_pay7_eq]
  funext j
  obtain ⟨p, q, rfl⟩ : ∃ (p : Fin 2000) (q : Fin 100), j = ix2 p q := ⟨j 0, j 1, eq_ix2 j⟩
  show Cert.Net.conv2 (N := 2000) (K := 300) (C := 100) (iblk1 V c 0 t) (iblk1 V c 1 t) (iblk1 V c 3 t) (iblk1 V c 4 t) (ix2 p q) + Cert.Net.lin (N := 2000) (K := 58) (C := 100) (iblk1 V c 2 t) (iblk1 V c 7 t) (iblk1 V c 8 t) (ix2 p q)
    = Cert.Net.conv2 (N := 100000) (K := 300) (C := 100) (V c main_v48_0) (V c main_v65) (V c main_arg6) (V c main_v66) (((cfg1.win 11).blk t).view.emb (ix2 p q)) + Cert.Net.lin (N := 100000) (K := 58) (C := 100) (V c main_arg0) (V c main_arg14) (V c main_v68) (((cfg1.win 11).blk t).view.emb (ix2 p q))
  rw [emb11]
  simp only [Cert.Net.conv2_apply, Cert.Net.lin_apply, rd0, rd1, rd2, rd3, rd4, rd7, rd8]

/-- An index of the array is in point t's block iff each coordinate is in the block's range on its axis. -/
theorem mem_blk11 (t : Fin cfg1.N) (i : S100000x100.Idx) :
    i ∈ ((cfg1.win 11).blk t).view.set ↔ ∀ a : Fin 2, win1_11.index t a * S2000x100.size a ≤ (i a).val ∧ (i a).val < win1_11.index t a * S2000x100.size a + S2000x100.size a := by
  show i ∈ ((View.whole main_v69_1).slice (win1_11.rect t)).set ↔ _
  rw [View.set_slice_whole, Rect.mem_set_unit]
  exact Iff.rfl

/-- The blocks tile the array: row r is in block r / 2000. -/
theorem cover11 (i : S100000x100.Idx) :
    ∃ t : Fin cfg1.N, (cfg1.win 11).flush t = true ∧ i ∈ ((cfg1.win 11).blk t).view.set := by
  have hi0 : (i 0).val < 100000 := (i 0).isLt
  have hi1 : (i 1).val < 100 := (i 1).isLt
  have hN : grid1.N = 50 := N_1
  have ht : (i 0).val / 2000 < cfg1.N := by change _ < grid1.N; omega
  refine ⟨⟨(i 0).val / 2000, ht⟩, flush1_11 _, ?_⟩
  rw [mem_blk11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts ⟨(i 0).val / 2000, ht⟩
  intro a
  match a with
  | ⟨0, _⟩ => show win1_11.index ⟨(i 0).val / 2000, ht⟩ (0 : Fin 2) * 2000 ≤ (i 0).val ∧ (i 0).val < win1_11.index ⟨(i 0).val / 2000, ht⟩ (0 : Fin 2) * 2000 + 2000; have e : win1_11.index ⟨(i 0).val / 2000, ht⟩ (0 : Fin 2) = (i 0).val / 2000 := e11_0; omega
  | ⟨1, _⟩ => show win1_11.index ⟨(i 0).val / 2000, ht⟩ (1 : Fin 2) * 100 ≤ (i 1).val ∧ (i 1).val < win1_11.index ⟨(i 0).val / 2000, ht⟩ (1 : Fin 2) * 100 + 100; omega

/-- After the region xt is the second layer plus the other dense layer of the node features, of the arrays the region found. -/
theorem final11 (c : Dev nD) : (dat1 V c).arrAt 11 cfg1.N = (fun i => Cert.Net.conv2 (N := 100000) (K := 300) (C := 100) (V c main_v48_0) (V c main_v65) (V c main_arg6) (V c main_v66) i + Cert.Net.lin (N := 100000) (K := 58) (C := 100) (V c main_arg0) (V c main_arg14) (V c main_v68) i) :=
  (dat1 V c).arrAt_eq_of_cover 11 _ (fun t _ => flushed11 V c t) (cover11)

/-! ## Output window 12 -/

/-- Entry (p, q) of block t of the array is entry (2000·t + p, q). -/
theorem emb12 (t : Fin cfg1.N) (p : Fin 2000) (q : Fin 1) :
    ((cfg1.win 12).blk t).view.emb (ix2 p q) = (ix2 (row t p) q : S100000x1.Idx) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext a; apply Fin.ext
  match a with
  | ⟨0, _⟩ => show win1_12.index t (0 : Fin 2) * 2000 + 1 * p.val = t.val * 2000 + p.val; omega
  | ⟨1, _⟩ => show win1_12.index t (1 : Fin 2) * 1 + 1 * q.val = q.val; omega

/-- What point t writes back to the projection is block t of xs · w, xs computed from the arrays the region found. -/
theorem flushed12 (c : Dev nD) (t : Fin cfg1.N) :
    (dat1 V c).flushed 12 t = ((cfg1.win 12).blk t).view.read (Elt Ideal) (Cert.Net.proj (N := 100000) (K := 100) (C := 1) (fun i => Cert.Net.conv2 (N := 100000) (K := 300) (C := 100) (V c main_v48_0) (V c main_v65) (V c main_arg6) (V c main_v66) i + Cert.Net.lin (N := 100000) (K := 58) (C := 100) (V c main_arg0) (V c main_arg12) (V c main_v67) i) (V c main_arg10)) := by
  show (cfg1.win 12).cut (grid1.coords t) ((dat1 V c).after 12 t) = _
  rw [after1_12]
  unfold out1_12
  rw [View.canon_unit_zero hz]
  simp only [View.ld_unit_zero (S := S2000x300) hz, View.ld_unit_zero (S := S2000x100) hz, View.ld_unit_zero (S := S2000x58) hz, View.ld_unit_zero (S := S300x100) hz, View.ld_unit_zero (S := S1x100) hz, View.ld_unit_zero (S := S58x100) hz, View.ld_unit_zero (S := S100x1) hz, View.ld_unit_zero (S := S2000x1) hz]
  rw [Cert.KernelIdeal.Payloads.k1_pay3_eq, Cert.KernelIdeal.Payloads.k1_pay4_eq, Cert.KernelIdeal.Payloads.k1_pay6_eq]
  funext j
  obtain ⟨p, q, rfl⟩ : ∃ (p : Fin 2000) (q : Fin 1), j = ix2 p q := ⟨j 0, j 1, eq_ix2 j⟩
  show Cert.Net.proj (N := 2000) (K := 100) (C := 1) (fun i => Cert.Net.conv2 (N := 2000) (K := 300) (C := 100) (iblk1 V c 0 t) (iblk1 V c 1 t) (iblk1 V c 3 t) (iblk1 V c 4 t) i + Cert.Net.lin (N := 2000) (K := 58) (C := 100) (iblk1 V c 2 t) (iblk1 V c 5 t) (iblk1 V c 6 t) i) (iblk1 V c 9 t) (ix2 p q)
    = Cert.Net.proj (N := 100000) (K := 100) (C := 1) (fun i => Cert.Net.conv2 (N := 100000) (K := 300) (C := 100) (V c main_v48_0) (V c main_v65) (V c main_arg6) (V c main_v66) i + Cert.Net.lin (N := 100000) (K := 58) (C := 100) (V c main_arg0) (V c main_arg12) (V c main_v67) i) (V c main_arg10) (((cfg1.win 12).blk t).view.emb (ix2 p q))
  rw [emb12]
  simp only [Cert.Net.proj_apply, Cert.Net.conv2_apply, Cert.Net.lin_apply, rd0, rd1, rd2, rd3, rd4, rd5, rd6, rd9]

/-- An index of the array is in point t's block iff each coordinate is in the block's range on its axis. -/
theorem mem_blk12 (t : Fin cfg1.N) (i : S100000x1.Idx) :
    i ∈ ((cfg1.win 12).blk t).view.set ↔ ∀ a : Fin 2, win1_12.index t a * S2000x1.size a ≤ (i a).val ∧ (i a).val < win1_12.index t a * S2000x1.size a + S2000x1.size a := by
  show i ∈ ((View.whole main_v69_2).slice (win1_12.rect t)).set ↔ _
  rw [View.set_slice_whole, Rect.mem_set_unit]
  exact Iff.rfl

/-- The blocks tile the array: row r is in block r / 2000. -/
theorem cover12 (i : S100000x1.Idx) :
    ∃ t : Fin cfg1.N, (cfg1.win 12).flush t = true ∧ i ∈ ((cfg1.win 12).blk t).view.set := by
  have hi0 : (i 0).val < 100000 := (i 0).isLt
  have hi1 : (i 1).val < 1 := (i 1).isLt
  have hN : grid1.N = 50 := N_1
  have ht : (i 0).val / 2000 < cfg1.N := by change _ < grid1.N; omega
  refine ⟨⟨(i 0).val / 2000, ht⟩, flush1_12 _, ?_⟩
  rw [mem_blk12]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts ⟨(i 0).val / 2000, ht⟩
  intro a
  match a with
  | ⟨0, _⟩ => show win1_12.index ⟨(i 0).val / 2000, ht⟩ (0 : Fin 2) * 2000 ≤ (i 0).val ∧ (i 0).val < win1_12.index ⟨(i 0).val / 2000, ht⟩ (0 : Fin 2) * 2000 + 2000; have e : win1_12.index ⟨(i 0).val / 2000, ht⟩ (0 : Fin 2) = (i 0).val / 2000 := e12_0; omega
  | ⟨1, _⟩ => show win1_12.index ⟨(i 0).val / 2000, ht⟩ (1 : Fin 2) * 1 ≤ (i 1).val ∧ (i 1).val < win1_12.index ⟨(i 0).val / 2000, ht⟩ (1 : Fin 2) * 1 + 1; omega

/-- After the region the projection is xs · w. -/
theorem final12 (c : Dev nD) : (dat1 V c).arrAt 12 cfg1.N = (Cert.Net.proj (N := 100000) (K := 100) (C := 1) (fun i => Cert.Net.conv2 (N := 100000) (K := 300) (C := 100) (V c main_v48_0) (V c main_v65) (V c main_arg6) (V c main_v66) i + Cert.Net.lin (N := 100000) (K := 58) (C := 100) (V c main_arg0) (V c main_arg12) (V c main_v67) i) (V c main_arg10)) :=
  (dat1 V c).arrAt_eq_of_cover 12 _ (fun t _ => flushed12 V c t) (cover12)

end Cert.KernelIdeal.Conv2

end
-- ==== Proof.Conv3Value.lean ====
/-
  What the third grid region leaves in its output array.

  The region works through the 100000 node rows in 50 blocks of 2000.  At block t it reads rows 2000·t … 2000·t + 1999
  of xs and of the projected aggregated message, the whole one-column weight and the one-entry bias, and writes the
  same rows of the last layer.  The layer acts row by row, so the block written at t is that block of the layer
  computed on the whole arrays, and the 50 blocks tile the array.
-/
import proofs.«145370_j17231408792162_2_alg».proof.Proof.Gen.KernelIdeal.Frame
import proofs.«145370_j17231408792162_2_alg».proof.Proof.Net
import proofs.«145370_j17231408792162_2_alg».proof.Proof.Payloads
import Idealize.ShloMosaic.Lib.Pipeline.Value
import Idealize.ShloMosaic.Lib.ValueIdx

set_option maxRecDepth 16384

noncomputable section

namespace Cert.KernelIdeal.Conv3

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: a window of node rows, read or written, is at block (t, 0) at
    point t, a window holding a whole weight matrix or bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of block t is row 2000·t + p of the array. -/
def row (t : Fin cfg2.N) (p : Fin 2000) : Fin 100000 :=
  ⟨t.val * 2000 + p.val, by have ht := t.isLt; have hN : grid2.N = 50 := N_2; have hp := p.isLt; change t.val < grid2.N at ht; omega⟩

/-! ## Each input block, read as rows of its array -/

theorem rd0 (c : Dev nD) (t : Fin cfg2.N) (p : Fin 2000) (k : Fin 100) :
    iblk2 V c 0 t (ix2 p k) = V c main_v69_0 (ix2 (row t p) k) := by
  obtain ⟨e0_0, e0_1, e1_0, e1_1, e2_0, e2_1, e3_0, e3_1, e4_0, e4_1⟩ := idx_facts t
  show V c main_v69_0 (((cfg2.win 0).blk t).view.emb (ix2 p k)) = _
  congr 1
  funext a; apply Fin.ext
  match a with
  | ⟨0, _⟩ => show win2_0.index t (0 : Fin 2) * 2000 + 1 * p.val = t.val * 2000 + p.val; omega
  | ⟨1, _⟩ => show win2_0.index t (1 : Fin 2) * 100 + 1 * k.val = k.val; omega

theorem rd1 (c : Dev nD) (t : Fin cfg2.N) (p : Fin 2000) (k : Fin 1) :
    iblk2 V c 1 t (ix2 p k) = V c main_v152 (ix2 (row t p) k) := by
  obtain ⟨e0_0, e0_1, e1_0, e1_1, e2_0, e2_1, e3_0, e3_1, e4_0, e4_1⟩ := idx_facts t
  show V c main_v152 (((cfg2.win 1).blk t).view.emb (ix2 p k)) = _
  congr 1
  funext a; apply Fin.ext
  match a with
  | ⟨0, _⟩ => show win2_1.index t (0 : Fin 2) * 2000 + 1 * p.val = t.val * 2000 + p.val; omega
  | ⟨1, _⟩ => show win2_1.index t (1 : Fin 2) * 1 + 1 * k.val = k.val; omega

theorem rd2 (c : Dev nD) (t : Fin cfg2.N) (p : Fin 100) (k : Fin 1) :
    iblk2 V c 2 t (ix2 p k) = V c main_arg9 (ix2 p k) := by
  obtain ⟨e0_0, e0_1, e1_0, e1_1, e2_0, e2_1, e3_0, e3_1, e4_0, e4_1⟩ := idx_facts t
  show V c main_arg9 (((cfg2.win 2).blk t).view.emb (ix2 p k)) = _
  congr 1
  funext a; apply Fin.ext
  match a with
  | ⟨0, _⟩ => show win2_2.index t (0 : Fin 2) * 100 + 1 * p.val = p.val; omega
  | ⟨1, _⟩ => show win2_2.index t (1 : Fin 2) * 1 + 1 * k.val = k.val; omega

theorem rd3 (c : Dev nD) (t : Fin cfg2.N) (p : Fin 1) (k : Fin 1) :
    iblk2 V c 3 t (ix2 p k) = V c main_v153 (ix2 p k) := by
  obtain ⟨e0_0, e0_1, e1_0, e1_1, e2_0, e2_1, e3_0, e3_1, e4_0, e4_1⟩ := idx_facts t
  show V c main_v153 (((cfg2.win 3).blk t).view.emb (ix2 p k)) = _
  congr 1
  funext a; apply Fin.ext
  match a with
  | ⟨0, _⟩ => show win2_3.index t (0 : Fin 2) * 1 + 1 * p.val = p.val; omega
  | ⟨1, _⟩ => show win2_3.index t (1 : Fin 2) * 1 + 1 * k.val = k.val; omega

/-! ## Output window 4 -/

/-- Entry (p, q) of block t of the array is entry (2000·t + p, q). -/
theorem emb4 (t : Fin cfg2.N) (p : Fin 2000) (q : Fin 1) :
    ((cfg2.win 4).blk t).view.emb (ix2 p q) = (ix2 (row t p) q : S100000x1.Idx) := by
  obtain ⟨e0_0, e0_1, e1_0, e1_1, e2_0, e2_1, e3_0, e3_1, e4_0, e4_1⟩ := idx_facts t
  funext a; apply Fin.ext
  match a with
  | ⟨0, _⟩ => show win2_4.index t (0 : Fin 2) * 2000 + 1 * p.val = t.val * 2000 + p.val; omega
  | ⟨1, _⟩ => show win2_4.index t (1 : Fin 2) * 1 + 1 * q.val = q.val; omega

/-- What point t writes back is block t of the last layer of the arrays the region found. -/
theorem flushed4 (c : Dev nD) (t : Fin cfg2.N) :
    (dat2 V c).flushed 4 t = ((cfg2.win 4).blk t).view.read (Elt Ideal) (Cert.Net.conv3 (N := 100000) (K := 100) (C := 1) (V c main_v69_0) (V c main_v152) (V c main_arg9) (V c main_v153)) := by
  show (cfg2.win 4).cut (grid2.coords t) ((dat2 V c).after 4 t) = _
  rw [after2_4]
  unfold out2_4
  rw [View.canon_unit_zero hz]
  simp only [View.ld_unit_zero (S := S2000x100) hz, View.ld_unit_zero (S := S2000x1) hz, View.ld_unit_zero (S := S100x1) hz, View.ld_unit_zero (S := S1x1) hz]
  rw [Cert.KernelIdeal.Payloads.k2_pay1_eq]
  funext j
  obtain ⟨p, q, rfl⟩ : ∃ (p : Fin 2000) (q : Fin 1), j = ix2 p q := ⟨j 0, j 1, eq_ix2 j⟩
  show Cert.Net.conv3 (N := 2000) (K := 100) (C := 1) (iblk2 V c 0 t) (iblk2 V c 1 t) (iblk2 V c 2 t) (iblk2 V c 3 t) (ix2 p q)
    = Cert.Net.conv3 (N := 100000) (K := 100) (C := 1) (V c main_v69_0) (V c main_v152) (V c main_arg9) (V c main_v153) (((cfg2.win 4).blk t).view.emb (ix2 p q))
  rw [emb4]
  simp only [Cert.Net.conv3_apply, rd0, rd1, rd2, rd3]

/-- An index of the array is in point t's block iff each coordinate is in the block's range on its axis. -/
theorem mem_blk4 (t : Fin cfg2.N) (i : S100000x1.Idx) :
    i ∈ ((cfg2.win 4).blk t).view.set ↔ ∀ a : Fin 2, win2_4.index t a * S2000x1.size a ≤ (i a).val ∧ (i a).val < win2_4.index t a * S2000x1.size a + S2000x1.size a := by
  show i ∈ ((View.whole main_v154).slice (win2_4.rect t)).set ↔ _
  rw [View.set_slice_whole, Rect.mem_set_unit]
  exact Iff.rfl

/-- The blocks tile the array: row r is in block r / 2000. -/
theorem cover4 (i : S100000x1.Idx) :
    ∃ t : Fin cfg2.N, (cfg2.win 4).flush t = true ∧ i ∈ ((cfg2.win 4).blk t).view.set := by
  have hi0 : (i 0).val < 100000 := (i 0).isLt
  have hi1 : (i 1).val < 1 := (i 1).isLt
  have hN : grid2.N = 50 := N_2
  have ht : (i 0).val / 2000 < cfg2.N := by change _ < grid2.N; omega
  refine ⟨⟨(i 0).val / 2000, ht⟩, flush2_4 _, ?_⟩
  rw [mem_blk4]
  obtain ⟨e0_0, e0_1, e1_0, e1_1, e2_0, e2_1, e3_0, e3_1, e4_0, e4_1⟩ := idx_facts ⟨(i 0).val / 2000, ht⟩
  intro a
  match a with
  | ⟨0, _⟩ => show win2_4.index ⟨(i 0).val / 2000, ht⟩ (0 : Fin 2) * 2000 ≤ (i 0).val ∧ (i 0).val < win2_4.index ⟨(i 0).val / 2000, ht⟩ (0 : Fin 2) * 2000 + 2000; have e : win2_4.index ⟨(i 0).val / 2000, ht⟩ (0 : Fin 2) = (i 0).val / 2000 := e4_0; omega
  | ⟨1, _⟩ => show win2_4.index ⟨(i 0).val / 2000, ht⟩ (1 : Fin 2) * 1 ≤ (i 1).val ∧ (i 1).val < win2_4.index ⟨(i 0).val / 2000, ht⟩ (1 : Fin 2) * 1 + 1; omega

/-- After the region the output is the last layer of the arrays the region found. -/
theorem final4 (c : Dev nD) : (dat2 V c).arrAt 4 cfg2.N = (Cert.Net.conv3 (N := 100000) (K := 100) (C := 1) (V c main_v69_0) (V c main_v152) (V c main_arg9) (V c main_v153)) :=
  (dat2 V c).arrAt_eq_of_cover 4 _ (fun t _ => flushed4 V c t) (cover4)

end Cert.KernelIdeal.Conv3

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.LibMessageLaw.lean ====
/-
  Algebra over the extended reals for a message-passing layer.

  Every quantity of the layer is the coercion of a real number.  On such entries the extended reals obey the laws of
  the real field, so a projection through a weight matrix commutes with the sum over the edges; the rectifier, the
  masked sum and the inverse square root of a degree that is at least one keep entries real.
-/
import proofs.«145370_j17231408792162_2_alg».proof.Proof.LibRealValued
import Idealize.ShloMosaic.PureOps.Ideal
import Idealize.ShloMosaic.PureOps.Ideal.Laws
import Idealize.ShloMosaic.Lib.IdealHost
import Mathlib

noncomputable section

namespace Cert.Algebra

open Idealize.ShloMosaic
open Cert.RealValued
open scoped BigOperators

/-- The negative of a real entry is real: `-(r : EReal) = ((-r : ℝ) : EReal)`. -/
theorem IsReal.neg {x : EReal} (hx : IsReal x) : IsReal (-x) := by
  obtain ⟨r, rfl⟩ := hx
  exact ⟨-r, (EReal.coe_neg r).symm⟩

/-- A masked sum of real entries, added to a real entry, is real:
    `z + ∑ e, (if p e then u e else 0)` is real when `z` and every `u e` are. -/
theorem isReal_masked_sum {E : ℕ} {z : EReal} (p : Fin E → Prop) [DecidablePred p] (u : Fin E → EReal)
    (hz : IsReal z) (hu : ∀ e, IsReal (u e)) :
    IsReal (z + ∑ e : Fin E, if p e then u e else 0) :=
  hz.add (isReal_sum _ _ fun e _ => (hu e).ite isReal_zero)

/-- Projection commutes with aggregation.  With real entries,
    `0 + ∑ₑ [p e] a e · (∑ₖ H e k · Wt k) = ∑ₖ (0 + ∑ₑ [p e] a e · H e k) · Wt k`:
    a message that is projected through a weight matrix before it is summed over the edges equals the summed message
    projected afterwards.  Both sides are the coercion of the real double sum `∑ₑ ∑ₖ [p e] a e · H e k · Wt k`,
    by distributivity and the exchange of two finite sums over the reals. -/
theorem message_linear (E K : ℕ) (z : EReal) (hz : z = 0) (p : Fin E → Prop) [DecidablePred p]
    (a : Fin E → EReal) (H : Fin E → Fin K → EReal) (Wt : Fin K → EReal)
    (ha : ∀ e, IsReal (a e)) (hH : ∀ e k, IsReal (H e k)) (hW : ∀ k, IsReal (Wt k)) :
    z + ∑ e, (if p e then a e * (∑ k, H e k * Wt k) else 0)
      = ∑ k, (z + ∑ e, (if p e then a e * H e k else 0)) * Wt k := by
  subst hz
  choose a' ha' using ha
  choose H' hH' using hH
  choose W' hW' using hW
  have hL : ∀ e, (if p e then a e * (∑ k, H e k * Wt k) else 0)
      = (((if p e then a' e * ∑ k, H' e k * W' k else 0 : ℝ)) : EReal) := by
    intro e
    split
    · rw [ha' e, EReal.coe_mul, coe_sum]
      congr 1
      refine Finset.sum_congr rfl fun k _ => ?_
      rw [hH' e k, hW' k, EReal.coe_mul]
    · exact EReal.coe_zero.symm
  have hR : ∀ k, (0 + ∑ e, (if p e then a e * H e k else 0)) * Wt k
      = ((((∑ e, (if p e then a' e * H' e k else 0)) * W' k : ℝ)) : EReal) := by
    intro k
    rw [zero_add, EReal.coe_mul, coe_sum, hW' k]
    congr 1
    refine Finset.sum_congr rfl fun e _ => ?_
    split
    · rw [ha' e, hH' e k, EReal.coe_mul]
    · exact EReal.coe_zero.symm
  rw [zero_add, Finset.sum_congr rfl (fun e _ => hL e), Finset.sum_congr rfl (fun k _ => hR k),
    ← coe_sum, ← coe_sum]
  congr 1
  calc ∑ e, (if p e then a' e * ∑ k, H' e k * W' k else 0)
      = ∑ e, ∑ k, (if p e then a' e * H' e k else 0) * W' k := by
        refine Finset.sum_congr rfl fun e _ => ?_
        split
        · rw [Finset.mul_sum]
          exact Finset.sum_congr rfl fun k _ => (mul_assoc _ _ _).symm
        · simp
    _ = ∑ k, ∑ e, (if p e then a' e * H' e k else 0) * W' k := Finset.sum_comm
    _ = ∑ k, (∑ e, (if p e then a' e * H' e k else 0)) * W' k :=
        Finset.sum_congr rfl fun k _ => (Finset.sum_mul _ _ _).symm

/-- The single-precision pattern of all zero bits is the real number zero. -/
theorem isReal_zero_lit : IsReal (Ideal.ofBits .f32 0x00000000#32) := by
  rw [Ideal.ofBits_zero_f32]
  exact isReal_zero

/-- The rectifier `max x 0` of a real entry is real. -/
theorem isReal_relu {x : EReal} (hx : IsReal x) : IsReal (max x (Ideal.ofBits .f32 0x00000000#32)) :=
  hx.max isReal_zero_lit

/-- The single-precision pattern `0x3F800000` is the real number one. -/
theorem isReal_one_lit : IsReal (Ideal.ofBits .f32 0x3F800000#32) := by
  rw [Ideal.ofBits_one_f32]
  exact isReal_one

/-- The inverse square root of a real number that is at least one is the real number `(√r)⁻¹`:
    neither the branch of a negative argument nor the pole at zero is met. -/
theorem isReal_rsqrt {x : EReal} (hx : IsReal x) (h1 : 1 ≤ x) : IsReal (Ideal.rsqrt x) := by
  obtain ⟨r, rfl⟩ := hx
  have hr : (1 : ℝ) ≤ r := by exact_mod_cast h1
  rw [Ideal.rsqrt_coe, if_neg (by linarith), if_neg (by linarith)]
  exact ⟨_, rfl⟩

/-- A real degree clamped below by one has a real inverse square root: `max d 1` is real and at least one. -/
theorem isReal_rsqrt_max_one {d : EReal} (hd : IsReal d) :
    IsReal (Ideal.rsqrt (max d (Ideal.ofBits .f32 0x3F800000#32))) := by
  refine isReal_rsqrt (hd.max isReal_one_lit) ?_
  rw [Ideal.ofBits_one_f32]
  exact le_max_right d 1

end Cert.Algebra

end
-- ==== Proof.NetReal.lean ====
/-
  Real entries through the stages of a graph-convolution network.

  Every stage is built from finite sums, products, sums with a bias and the rectifier; each of these keeps entries that
  are real numbers real.  The normalised edge weight is either the inverse square root of a degree clamped below by one
  or a given real entry, so it is real as well, and so are negations and products of real entries.
-/
import proofs.«145370_j17231408792162_2_alg».proof.Proof.LibRealValued
import proofs.«145370_j17231408792162_2_alg».proof.Proof.LibMessageLaw
import proofs.«145370_j17231408792162_2_alg».proof.Proof.Net
import Idealize.ShloMosaic.PureOps.Ideal
import Idealize.ShloMosaic.Lib.ValueIdx

noncomputable section

open scoped BigOperators

namespace Cert.NetReal

open Idealize.ShloMosaic Idealize.ShloMosaic.ValueIdx
open Cert.RealValued Cert.Algebra

variable {N K C : ℕ}

/-- The first layer `max (x · W0 + t · W1 + b) 0` of real operands has real entries. -/
theorem isReal_conv1 (X T : (⟨2, ![N, K]⟩ : Shape).Idx → EReal) (W0 W1 : (⟨2, ![K, C]⟩ : Shape).Idx → EReal)
    (b : (⟨2, ![1, C]⟩ : Shape).Idx → EReal)
    (hX : ∀ i, IsReal (X i)) (hT : ∀ i, IsReal (T i)) (hW0 : ∀ i, IsReal (W0 i)) (hW1 : ∀ i, IsReal (W1 i))
    (hb : ∀ i, IsReal (b i)) : ∀ i, IsReal (Cert.Net.conv1 X T W0 W1 b i) := fun i =>
  isReal_relu (((isReal_sum _ _ fun k _ => (hX (ix2 (i 0) k)).mul (hW0 (ix2 k (i 1)))).add
    (isReal_sum _ _ fun k _ => (hT (ix2 (i 0) k)).mul (hW1 (ix2 k (i 1))))).add (hb (ix2 (0 : Fin 1) (i 1))))

/-- A matrix product `h · W` of real operands has real entries. -/
theorem isReal_proj (H : (⟨2, ![N, K]⟩ : Shape).Idx → EReal) (W : (⟨2, ![K, C]⟩ : Shape).Idx → EReal)
    (hH : ∀ i, IsReal (H i)) (hW : ∀ i, IsReal (W i)) : ∀ i, IsReal (Cert.Net.proj H W i) := fun i =>
  isReal_sum _ _ fun k _ => (hH (ix2 (i 0) k)).mul (hW (ix2 k (i 1)))

/-- The layer `max (h · W0 + p + b) 0` of real operands has real entries. -/
theorem isReal_conv2 (H : (⟨2, ![N, K]⟩ : Shape).Idx → EReal) (P : (⟨2, ![N, C]⟩ : Shape).Idx → EReal)
    (W0 : (⟨2, ![K, C]⟩ : Shape).Idx → EReal) (b : (⟨2, ![1, C]⟩ : Shape).Idx → EReal)
    (hH : ∀ i, IsReal (H i)) (hP : ∀ i, IsReal (P i)) (hW0 : ∀ i, IsReal (W0 i)) (hb : ∀ i, IsReal (b i)) :
    ∀ i, IsReal (Cert.Net.conv2 H P W0 b i) := fun i =>
  isReal_relu (((isReal_sum _ _ fun k _ => (hH (ix2 (i 0) k)).mul (hW0 (ix2 k (i 1)))).add (hP i)).add
    (hb (ix2 (0 : Fin 1) (i 1))))

/-- The dense layer `max (x · W + b) 0` of real operands has real entries. -/
theorem isReal_lin (X : (⟨2, ![N, K]⟩ : Shape).Idx → EReal) (W : (⟨2, ![K, C]⟩ : Shape).Idx → EReal)
    (b : (⟨2, ![1, C]⟩ : Shape).Idx → EReal)
    (hX : ∀ i, IsReal (X i)) (hW : ∀ i, IsReal (W i)) (hb : ∀ i, IsReal (b i)) :
    ∀ i, IsReal (Cert.Net.lin X W b i) := fun i =>
  isReal_relu ((isReal_sum _ _ fun k _ => (hX (ix2 (i 0) k)).mul (hW (ix2 k (i 1)))).add (hb (ix2 (0 : Fin 1) (i 1))))

/-- The last layer `xs · W0 + p + b` of real operands has real entries. -/
theorem isReal_conv3 (Xs : (⟨2, ![N, K]⟩ : Shape).Idx → EReal) (P : (⟨2, ![N, C]⟩ : Shape).Idx → EReal)
    (W0 : (⟨2, ![K, C]⟩ : Shape).Idx → EReal) (b : (⟨2, ![1, C]⟩ : Shape).Idx → EReal)
    (hXs : ∀ i, IsReal (Xs i)) (hP : ∀ i, IsReal (P i)) (hW0 : ∀ i, IsReal (W0 i)) (hb : ∀ i, IsReal (b i)) :
    ∀ i, IsReal (Cert.Net.conv3 Xs P W0 b i) := fun i =>
  ((isReal_sum _ _ fun k _ => (hXs (ix2 (i 0) k)).mul (hW0 (ix2 k (i 1)))).add (hP i)).add (hb (ix2 (0 : Fin 1) (i 1)))

/-- The normalised edge weight: where the degree exceeds the threshold it is the inverse square root of the degree
    clamped below by one, elsewhere a given real entry; in both cases a real number. -/
theorem isReal_dinv {s : Shape} (d z o zz : FVec Ideal s .f32)
    (hd : ∀ i, IsReal (d i)) (ho : ∀ i, o i = Ideal.ofBits .f32 0x3F800000#32) (hzz : ∀ i, IsReal (zz i)) :
    ∀ i, IsReal (select (cmpf .ogt d z) (Host.rsqrt (maximumf d o)) zz i) := by
  intro i
  rw [select_apply]
  unfold Scalar.select
  split
  · show IsReal (Ideal.rsqrt (max (d i) (o i)))
    rw [ho i]
    exact isReal_rsqrt_max_one (hd i)
  · exact hzz i

/-- The negation of a vector of real entries has real entries. -/
theorem isReal_hostNegf {s : Shape} (a : FVec Ideal s .f32) (ha : ∀ i, IsReal (a i)) :
    ∀ i, IsReal (Host.negf a i) := fun i =>
  Cert.Algebra.IsReal.neg (ha i)

/-- The entrywise product of two vectors of real entries has real entries. -/
theorem isReal_mulf {s : Shape} (a b : FVec Ideal s .f32) (ha : ∀ i, IsReal (a i)) (hb : ∀ i, IsReal (b i)) :
    ∀ i, IsReal (mulf a b i) := fun i =>
  (ha i).mul (hb i)

end Cert.NetReal

end
-- ==== Proof.LibLayoutReads.lean ====
/-
  Layout steps of a host program read at an entry, for any sizes.

  A splat (a scalar constant broadcast to any shape) reads the constant everywhere.  A vector placed along the columns
  of a one-row matrix and then repeated down the rows (a bias) reads, at (i, q), the vector at q.  A vector placed down
  a one-column matrix (one word or one weight per edge) reads, at (e, 0), the vector at e; repeated across the columns
  it reads, at (e, q), the vector at e.  A one-column matrix flattened to a vector reads, at i, the matrix at (i, 0);
  a one-row matrix flattened reads the matrix at (0, i).  A select on the comparison "greater than" is the `if` on the
  strict order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.RefEntries

open Idealize.ShloMosaic Idealize.ShloMosaic.ValueIdx

/-! ## Splats -/

/-- A float constant broadcast from a scalar to any shape reads, everywhere, the extended real its word encodes. -/
theorem splat_apply {T : Shape} (φ : FTy) (h : (⟨0, ![]⟩ : Shape).BroadcastsInDim T ![]) (w : BitVec φ.bits) (j : T.Idx) :
    broadcastInDim T ![] h (constant (F := Ideal) ⟨0, ![]⟩ φ w) j = Ideal.ofBits φ w := by
  rw [broadcastInDim_scalar_apply]
  rfl

/-- An integer constant broadcast from a scalar to any shape reads the word everywhere. -/
theorem splatI_apply {T : Shape} {n : ℕ} (h : (⟨0, ![]⟩ : Shape).BroadcastsInDim T ![]) (w : BitVec n) (j : T.Idx) :
    broadcastInDim T ![] h (constantI ⟨0, ![]⟩ n w) j = w := by
  rw [broadcastInDim_scalar_apply]
  rfl

/-! ## Rows and columns -/

variable {α : Type} {N E C : ℕ}

/-- A vector laid along the columns of a one-row matrix reads, at (u, q), the vector at q. -/
theorem rowOf_apply (h : (⟨1, ![C]⟩ : Shape).BroadcastsInDim ⟨2, ![1, C]⟩ ![1]) (b : (⟨1, ![C]⟩ : Shape).Idx → α)
    (u : Fin 1) (q : Fin C) : broadcastInDim ⟨2, ![1, C]⟩ ![1] h b (ix2 u q) = b (ix1 q) :=
  broadcastInDim_apply ![1] h b (ix2 u q) (ix1 q) (fun a => match a with
    | ⟨0, _⟩ => by
      show q.val = if C = 1 then 0 else q.val
      have := q.isLt
      split <;> omega)

/-- A one-row matrix repeated down the rows reads, at (i, q), its entry (0, q). -/
theorem repeatRows_apply (h : (⟨2, ![1, C]⟩ : Shape).BroadcastsInDim ⟨2, ![N, C]⟩ ![0, 1])
    (r : (⟨2, ![1, C]⟩ : Shape).Idx → α) (i : Fin N) (q : Fin C) :
    broadcastInDim ⟨2, ![N, C]⟩ ![0, 1] h r (ix2 i q) = r (ix2 (0 : Fin 1) q) :=
  broadcastInDim_apply ![0, 1] h r (ix2 i q) (ix2 (0 : Fin 1) q) (fun a => match a with
    | ⟨0, _⟩ => by
      show (0 : ℕ) = if (1 : ℕ) = 1 then 0 else i.val
      rw [if_pos rfl]
    | ⟨1, _⟩ => by
      show q.val = if C = 1 then 0 else q.val
      have := q.isLt
      split <;> omega)

/-- A BIAS: a vector laid along a one-row matrix and repeated down the rows reads, at (i, q), the vector at q. -/
theorem biasRow_apply (h' : (⟨1, ![C]⟩ : Shape).BroadcastsInDim ⟨2, ![1, C]⟩ ![1])
    (h : (⟨2, ![1, C]⟩ : Shape).BroadcastsInDim ⟨2, ![N, C]⟩ ![0, 1]) (b : (⟨1, ![C]⟩ : Shape).Idx → α)
    (i : Fin N) (q : Fin C) :
    broadcastInDim ⟨2, ![N, C]⟩ ![0, 1] h (broadcastInDim ⟨2, ![1, C]⟩ ![1] h' b) (ix2 i q) = b (ix1 q) := by
  rw [repeatRows_apply, rowOf_apply]

/-- A vector laid down a one-column matrix reads, at (e, u), the vector at e. -/
theorem colOf_apply (h : (⟨1, ![E]⟩ : Shape).BroadcastsInDim ⟨2, ![E, 1]⟩ ![0]) (v : (⟨1, ![E]⟩ : Shape).Idx → α)
    (e : Fin E) (u : Fin 1) : broadcastInDim ⟨2, ![E, 1]⟩ ![0] h v (ix2 e u) = v (ix1 e) :=
  broadcastInDim_apply ![0] h v (ix2 e u) (ix1 e) (fun a => match a with
    | ⟨0, _⟩ => by
      show e.val = if E = 1 then 0 else e.val
      have := e.isLt
      split <;> omega)

/-- A one-column matrix repeated across the columns reads, at (e, q), its entry (e, 0). -/
theorem repeatCols_apply (h : (⟨2, ![E, 1]⟩ : Shape).BroadcastsInDim ⟨2, ![E, C]⟩ ![0, 1])
    (c : (⟨2, ![E, 1]⟩ : Shape).Idx → α) (e : Fin E) (q : Fin C) :
    broadcastInDim ⟨2, ![E, C]⟩ ![0, 1] h c (ix2 e q) = c (ix2 e (0 : Fin 1)) :=
  broadcastInDim_apply ![0, 1] h c (ix2 e q) (ix2 e (0 : Fin 1)) (fun a => match a with
    | ⟨0, _⟩ => by
      show e.val = if E = 1 then 0 else e.val
      have := e.isLt
      split <;> omega
    | ⟨1, _⟩ => by
      show (0 : ℕ) = if (1 : ℕ) = 1 then 0 else q.val
      rw [if_pos rfl])

/-- A WEIGHT COLUMN: a vector laid down a one-column matrix and repeated across the columns reads, at (e, q), the
    vector at e. -/
theorem weightCol_apply (h' : (⟨1, ![E]⟩ : Shape).BroadcastsInDim ⟨2, ![E, 1]⟩ ![0])
    (h : (⟨2, ![E, 1]⟩ : Shape).BroadcastsInDim ⟨2, ![E, C]⟩ ![0, 1]) (w : (⟨1, ![E]⟩ : Shape).Idx → α)
    (e : Fin E) (q : Fin C) :
    broadcastInDim ⟨2, ![E, C]⟩ ![0, 1] h (broadcastInDim ⟨2, ![E, 1]⟩ ![0] h' w) (ix2 e q) = w (ix1 e) := by
  rw [repeatCols_apply, colOf_apply]

/-- A one-column matrix flattened to a vector reads, at i, the matrix at (i, 0). -/
theorem flattenCol_apply (x : (⟨2, ![N, 1]⟩ : Shape).Idx → α) (h : (⟨2, ![N, 1]⟩ : Shape).ShapeCasts ⟨1, ![N]⟩)
    (i : Fin N) : shapeCast ⟨1, ![N]⟩ x h (ix1 i) = x (ix2 i (0 : Fin 1)) :=
  shapeCast_apply x h _ _ (by
    rw [Shape.rowMajor_val_two, Shape.rowMajor_val_one]
    show i.val * 1 + 0 = i.val
    omega)

/-- Row o of a matrix, cut out as a one-row matrix and flattened, reads at e the matrix at (o, e). -/
theorem flattenRow_apply {R : ℕ} (o : ℕ) (ho : o < R) (X : (⟨2, ![R, E]⟩ : Shape).Idx → α)
    (hs : (⟨2, ![R, E]⟩ : Shape).Slices ![o, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![o, 0] X hs) hc (ix1 e) = X (ix2 ⟨o, ho⟩ e) := by
  rw [shapeCast_1a_a_apply]
  exact slice2_axis0_apply o X hs 0 e ⟨o, ho⟩ rfl

/-! ## A select on a comparison -/

/-- A select on the ordered comparison "greater than" of two extended reals is the `if` on the strict order. -/
theorem select_ogt (d z a b : EReal) : Scalar.select (Ideal.cmp .ogt d z) a b = if z < d then a else b := by
  by_cases h : z < d
  · rw [if_pos h]
    unfold Scalar.select Ideal.cmp
    simp [h]
  · rw [if_neg h]
    unfold Scalar.select Ideal.cmp
    simp [h]

end Cert.RefEntries

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«145370_j17231408792162_2_alg».proof.Proof.LibRows
import proofs.«145370_j17231408792162_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.LibFlatScatter.lean ====
/-
  An accumulating scatter into a flat array, read at an entry as a plain sum over the edges, for any sizes.

  The operand has N entries, the index array one word per edge (carried with a trailing unit axis), the updates one
  value per edge.  An edge's update lands on entry i exactly when its word, read as a signed integer and not clamped,
  is i; a word that reads as no entry lands nowhere.  So

      scatter(x, idx, u)(i) = x(i) + ∑ e, (if idx(e) reads as i then u(e) else 0).
-/
import proofs.«145370_j17231408792162_2_alg».proof.Proof.LibDegree

noncomputable section

namespace Cert.LibFlatScatter

open Idealize.ShloMosaic Idealize.ShloMosaic.ValueIdx

variable {N E w : ℕ}

/-- THE FLAT ACCUMULATING SCATTER AT AN ENTRY. -/
theorem flatScatter_apply (wf1 : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (i : Fin N) :
    Ideal.hostScatterAdd (⟨[], [0], [0], 1, wf1⟩ : ScatterDims ⟨1, ![N]⟩ ⟨2, ![E, 1]⟩ ⟨1, ![E]⟩) x idx u (ix1 i)
      = x (ix1 i) + ∑ e : Fin E, if (idx (ix2 e 0)).toInt = (i.val : Int) then u (ix1 e) else 0 := by
  unfold Ideal.hostScatterAdd
  congr 1
  rw [Finset.sum_filter, ← Cert.Sage.flatEquiv.symm.sum_comp]
  refine Finset.sum_congr rfl fun e _ => ?_
  show (if ScatterDims.resultIdx? _ (ix1 e) idx = some (ix1 i) then u (ix1 e) else 0) = _
  exact if_congr (Cert.Sage.flat_lands wf1 idx e i) rfl rfl

end Cert.LibFlatScatter

end
-- ==== Proof.LibGraphOps.lean ====
/-
  Accumulating scatters and gathers indexed by one word per edge, read at an entry, for any record of dimension
  numbers with the given axis lists.

  A record of scatter (gather) dimension numbers over fixed shapes is its axis lists together with a proof that they
  are well formed, so two records with the same lists are the same record.  The entry formulas proved for the record
  written out literally therefore hold for every record whose lists are those:

      scatter rows:   scatter(x, idx, U)(h, c) = x(h, c) + ∑ e, (if idx(e) reads as h then U(e, c) else 0)
      scatter flat:   scatter(x, idx, u)(h)    = x(h)    + ∑ e, (if idx(e) reads as h then u(e)    else 0)
      gather rows:    gather(X, idx)(e, c)     = X(clamp idx(e), c)
      gather flat:    gather(x, idx)(e)        = x(clamp idx(e))

  where a word is read as a signed integer, not clamped for a scatter (a word naming no row lands nowhere) and
  clamped to the last row for a gather.
-/
import Idealize.ShloMosaic.PureOps.Ideal
import Idealize.ShloMosaic.Lib.ValueIdx
import proofs.«145370_j17231408792162_2_alg».proof.Proof.LibRows
import proofs.«145370_j17231408792162_2_alg».proof.Proof.LibSegment
import proofs.«145370_j17231408792162_2_alg».proof.Proof.LibFlatScatter

noncomputable section

namespace Cert.LibGraphOps

open Idealize.ShloMosaic Idealize.ShloMosaic.ValueIdx Cert.LibRows

variable {N E C w : ℕ}

/-- THE ACCUMULATING SCATTER OF ROWS AT AN ENTRY, for any record with the row-scatter axis lists. -/
theorem rowScatter_apply' (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (U : (⟨2, ![E, C]⟩ : Shape).Idx → EReal)
    (h : Fin N) (c : Fin C) :
    Host.scatterAdd (F := Ideal) (φ := .f32) d x idx U (ix2 h c)
      = x (ix2 h c) + ∑ e : Fin E, if (idx (ix2 e 0)).toInt = (h.val : Int) then U (ix2 e c) else 0 := by
  obtain ⟨a1, b1, c1, v1, wf⟩ := d
  dsimp only at hu hi hs hv
  subst hu hi hs hv
  exact Cert.LibSegment.rowScatter_apply wf x idx U h c

/-- THE FLAT ACCUMULATING SCATTER AT AN ENTRY, for any record with the flat-scatter axis lists. -/
theorem flatScatter_apply' (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (u : (⟨1, ![E]⟩ : Shape).Idx → EReal)
    (h : Fin N) :
    Host.scatterAdd (F := Ideal) (φ := .f32) d x idx u (ix1 h)
      = x (ix1 h) + ∑ e : Fin E, if (idx (ix2 e 0)).toInt = (h.val : Int) then u (ix1 e) else 0 := by
  obtain ⟨a1, b1, c1, v1, wf⟩ := d
  dsimp only at hu hi hs hv
  subst hu hi hs hv
  exact Cert.LibFlatScatter.flatScatter_apply wf x idx u h

/-- THE ROW GATHER AT AN ENTRY, for any record with the row-gather axis lists. -/
theorem row_gather_apply' {α : Type} (hN : 0 < N) (d : GatherDims ⟨2, ![N, C]⟩ ⟨2, ![E, 1]⟩ ⟨2, ![E, C]⟩)
    (ho : d.offsetDims = [1]) (hc : d.collapsedSliceDims = [0]) (hob : d.operandBatchingDims = [])
    (hsb : d.startIndicesBatchingDims = []) (hm : d.startIndexMap = [0]) (hv : d.indexVectorDim = 1)
    (hz : d.sliceSizes = ![1, C])
    (X : (⟨2, ![N, C]⟩ : Shape).Idx → α) (idx : IVec ⟨2, ![E, 1]⟩ w) (e : Fin E) (c : Fin C) :
    Host.gather d X idx (ix2 e c) = X (ix2 ⟨clampRow N (idx (ix2 e 0)), clampRow_lt hN _⟩ c) := by
  obtain ⟨a1, b1, c1, d1, e1, v1, z1, wf⟩ := d
  dsimp only at ho hc hob hsb hm hv hz
  subst ho hc hob hsb hm hv hz
  exact row_gather_apply wf hN X idx e c

/-- THE FLAT GATHER AT AN ENTRY, for any record with the flat-gather axis lists. -/
theorem flat_gather_apply' {α : Type} (hN : 0 < N) (d : GatherDims ⟨1, ![N]⟩ ⟨2, ![E, 1]⟩ ⟨1, ![E]⟩)
    (ho : d.offsetDims = []) (hc : d.collapsedSliceDims = [0]) (hob : d.operandBatchingDims = [])
    (hsb : d.startIndicesBatchingDims = []) (hm : d.startIndexMap = [0]) (hv : d.indexVectorDim = 1)
    (hz : d.sliceSizes = ![1])
    (x : (⟨1, ![N]⟩ : Shape).Idx → α) (idx : IVec ⟨2, ![E, 1]⟩ w) (e : Fin E) :
    Host.gather d x idx (ix1 e) = x (ix1 ⟨clampRow N (idx (ix2 e 0)), clampRow_lt hN _⟩) := by
  obtain ⟨a1, b1, c1, d1, e1, v1, z1, wf⟩ := d
  dsimp only at ho hc hob hsb hm hv hz
  subst ho hc hob hsb hm hv hz
  exact flat_gather_apply wf hN x idx e

end Cert.LibGraphOps

end
-- ==== Proof.HostEntries.lean ====
/-
  The host-side stages of the network read at an entry.

  First, for any sizes, the three composite steps of a graph convolution.  A MESSAGE: the rows of X gathered at the
  edges' source words, each scaled by the edge's weight, accumulated at the edges' destination words onto a splat z,
  reads at (i, k) as z + ∑ over the edges whose destination word reads as i of weight(e) · X(clamp src(e), k).  A LAYER:
  the rectified sum of one or two matrix products and a bias row.  The OUTPUT: two products into one column plus a
  one-entry bias, flattened.  Beside them the degree count, the guarded inverse square root, the edge weight and the
  wrap of a negative row word.

  Then the same statements for the named stages of this network: the aggregated messages at the four widths, the
  layers, the edge weight and the degree.
-/
import proofs.«145370_j17231408792162_2_alg».proof.Proof.HostFns
import proofs.«145370_j17231408792162_2_alg».proof.Proof.LibLayoutReads
import proofs.«145370_j17231408792162_2_alg».proof.Proof.LibGraphOps
import proofs.«145370_j17231408792162_2_alg».proof.Proof.LibProduct
import proofs.«145370_j17231408792162_2_alg».proof.Proof.LibRows

noncomputable section

namespace Cert.HostEntries

open Idealize.ShloMosaic Idealize.ShloMosaic.ValueIdx Cert.LibRows Cert.RefEntries

variable {α : Type} {N E C : ℕ}

/-! ## A message: gather the rows, weight them, accumulate them per destination -/

section Message
variable {wd : ℕ}

/-- The accumulating scatter of weighted gathered rows at an entry, for any operand Z, weights W and index columns. -/
theorem message_apply (hN : 0 < N)
    (ds : ScatterDims ⟨2, ![N, C]⟩ ⟨2, ![E, 1]⟩ ⟨2, ![E, C]⟩)
    (hu : ds.updateWindowDims = [1]) (hi : ds.insertedWindowDims = [0]) (hs : ds.scatterDimsToOperandDims = [0])
    (hv : ds.indexVectorDim = 1)
    (dg : GatherDims ⟨2, ![N, C]⟩ ⟨2, ![E, 1]⟩ ⟨2, ![E, C]⟩)
    (ho : dg.offsetDims = [1]) (hc : dg.collapsedSliceDims = [0]) (hob : dg.operandBatchingDims = [])
    (hsb : dg.startIndicesBatchingDims = []) (hm : dg.startIndexMap = [0]) (hgv : dg.indexVectorDim = 1)
    (hz : dg.sliceSizes = ![1, C])
    (Z : FVec Ideal ⟨2, ![N, C]⟩ .f32) (dstc srcc : IVec ⟨2, ![E, 1]⟩ wd) (W : FVec Ideal ⟨2, ![E, C]⟩ .f32)
    (X : FVec Ideal ⟨2, ![N, C]⟩ .f32) (i : Fin N) (k : Fin C) :
    Host.scatterAdd (F := Ideal) (φ := .f32) ds Z dstc (mulf W (Host.gather dg X srcc)) (ix2 i k)
      = Z (ix2 i k) + ∑ e : Fin E,
          if (dstc (ix2 e (0 : Fin 1))).toInt = (i.val : Int) then
            W (ix2 e k) * X (ix2 ⟨clampRow N (srcc (ix2 e (0 : Fin 1))), clampRow_lt hN _⟩ k)
          else 0 := by
  rw [Cert.LibGraphOps.rowScatter_apply' ds hu hi hs hv]
  refine congrArg _ (Finset.sum_congr rfl fun e _ => ?_)
  rw [mulf_apply, Cert.LibGraphOps.row_gather_apply' hN dg ho hc hob hsb hm hgv hz]

/-- THE MESSAGE AT AN ENTRY, in the printed nesting: onto a splat z, index columns laid down from the flat word arrays
    dst and src, the weights laid down a column and repeated across the columns. -/
theorem message_bcast_apply (hN : 0 < N)
    (ds : ScatterDims ⟨2, ![N, C]⟩ ⟨2, ![E, 1]⟩ ⟨2, ![E, C]⟩)
    (hu : ds.updateWindowDims = [1]) (hi : ds.insertedWindowDims = [0]) (hs : ds.scatterDimsToOperandDims = [0])
    (hv : ds.indexVectorDim = 1)
    (dg : GatherDims ⟨2, ![N, C]⟩ ⟨2, ![E, 1]⟩ ⟨2, ![E, C]⟩)
    (ho : dg.offsetDims = [1]) (hc : dg.collapsedSliceDims = [0]) (hob : dg.operandBatchingDims = [])
    (hsb : dg.startIndicesBatchingDims = []) (hm : dg.startIndexMap = [0]) (hgv : dg.indexVectorDim = 1)
    (hz : dg.sliceSizes = ![1, C])
    (hz0 : (⟨0, ![]⟩ : Shape).BroadcastsInDim ⟨2, ![N, C]⟩ ![]) (z : BitVec FTy.f32.bits)
    (hd hsrc hw' : (⟨1, ![E]⟩ : Shape).BroadcastsInDim ⟨2, ![E, 1]⟩ ![0])
    (hw : (⟨2, ![E, 1]⟩ : Shape).BroadcastsInDim ⟨2, ![E, C]⟩ ![0, 1])
    (dst src : IVec ⟨1, ![E]⟩ wd) (wt : FVec Ideal ⟨1, ![E]⟩ .f32) (X : FVec Ideal ⟨2, ![N, C]⟩ .f32)
    (i : Fin N) (k : Fin C) :
    Host.scatterAdd (F := Ideal) (φ := .f32) ds
        (broadcastInDim ⟨2, ![N, C]⟩ ![] hz0 (constant (F := Ideal) ⟨0, ![]⟩ .f32 z))
        (broadcastInDim ⟨2, ![E, 1]⟩ ![0] hd dst)
        (mulf (broadcastInDim ⟨2, ![E, C]⟩ ![0, 1] hw (broadcastInDim ⟨2, ![E, 1]⟩ ![0] hw' wt))
          (Host.gather dg X (broadcastInDim ⟨2, ![E, 1]⟩ ![0] hsrc src))) (ix2 i k)
      = Ideal.ofBits .f32 z + ∑ e : Fin E,
          if (dst (ix1 e)).toInt = (i.val : Int) then
            wt (ix1 e) * X (ix2 ⟨clampRow N (src (ix1 e)), clampRow_lt hN _⟩ k)
          else 0 := by
  rw [message_apply hN ds hu hi hs hv dg ho hc hob hsb hm hgv hz, splat_apply]
  refine congrArg _ (Finset.sum_congr rfl fun e _ => ?_)
  rw [colOf_apply, colOf_apply, weightCol_apply]

/-- The flat accumulating scatter of a splat one per edge onto a splat z (a degree count) at an entry. -/
theorem count_bcast_apply
    (ds : ScatterDims ⟨1, ![N]⟩ ⟨2, ![E, 1]⟩ ⟨1, ![E]⟩)
    (hu : ds.updateWindowDims = []) (hi : ds.insertedWindowDims = [0]) (hs : ds.scatterDimsToOperandDims = [0])
    (hv : ds.indexVectorDim = 1)
    (hz0 : (⟨0, ![]⟩ : Shape).BroadcastsInDim ⟨1, ![N]⟩ ![]) (z : BitVec FTy.f32.bits)
    (hu0 : (⟨0, ![]⟩ : Shape).BroadcastsInDim ⟨1, ![E]⟩ ![]) (u : BitVec FTy.f32.bits)
    (hd : (⟨1, ![E]⟩ : Shape).BroadcastsInDim ⟨2, ![E, 1]⟩ ![0]) (dst : IVec ⟨1, ![E]⟩ wd) (j : Fin N) :
    Host.scatterAdd (F := Ideal) (φ := .f32) ds
        (broadcastInDim ⟨1, ![N]⟩ ![] hz0 (constant (F := Ideal) ⟨0, ![]⟩ .f32 z))
        (broadcastInDim ⟨2, ![E, 1]⟩ ![0] hd dst)
        (broadcastInDim ⟨1, ![E]⟩ ![] hu0 (constant (F := Ideal) ⟨0, ![]⟩ .f32 u)) (ix1 j)
      = Ideal.ofBits .f32 z + ∑ e : Fin E, if (dst (ix1 e)).toInt = (j.val : Int) then Ideal.ofBits .f32 u else 0 := by
  rw [Cert.LibGraphOps.flatScatter_apply' ds hu hi hs hv, splat_apply]
  refine congrArg _ (Finset.sum_congr rfl fun e _ => ?_)
  rw [colOf_apply, splat_apply]

/-- A flat gather through an index column laid down from a flat word array reads the operand at the clamped word. -/
theorem flatGather_col_apply (hN : 0 < N) (dg : GatherDims ⟨1, ![N]⟩ ⟨2, ![E, 1]⟩ ⟨1, ![E]⟩)
    (ho : dg.offsetDims = []) (hc : dg.collapsedSliceDims = [0]) (hob : dg.operandBatchingDims = [])
    (hsb : dg.startIndicesBatchingDims = []) (hm : dg.startIndexMap = [0]) (hgv : dg.indexVectorDim = 1)
    (hz : dg.sliceSizes = ![1])
    (hsrc : (⟨1, ![E]⟩ : Shape).BroadcastsInDim ⟨2, ![E, 1]⟩ ![0])
    (x : (⟨1, ![N]⟩ : Shape).Idx → α) (src : IVec ⟨1, ![E]⟩ wd) (e : Fin E) :
    Host.gather dg x (broadcastInDim ⟨2, ![E, 1]⟩ ![0] hsrc src) (ix1 e)
      = x (ix1 ⟨clampRow N (src (ix1 e)), clampRow_lt hN _⟩) := by
  rw [Cert.LibGraphOps.flat_gather_apply' hN dg ho hc hob hsb hm hgv hz, colOf_apply]

end Message

/-! ## Layers -/

section Layers
variable {M K K' Q : ℕ}

/-- A CONVOLUTION LAYER AT AN ENTRY: the rectified sum of two products and a bias row. -/
theorem convLayer_apply
    (d1 : DotDims ⟨2, ![M, K]⟩ ⟨2, ![K, Q]⟩ ⟨2, ![M, Q]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (d2 : DotDims ⟨2, ![M, K']⟩ ⟨2, ![K', Q]⟩ ⟨2, ![M, Q]⟩)
    (b1 : d2.lhsContracting = [1]) (b2 : d2.rhsContracting = [0]) (b3 : d2.lhsNonContracting = [0])
    (b4 : d2.rhsNonContracting = [1]) (b5 : d2.lhsBatch = []) (b6 : d2.rhsBatch = [])
    (p1 p2 : Option ContractPrecision)
    (hb' : (⟨1, ![Q]⟩ : Shape).BroadcastsInDim ⟨2, ![1, Q]⟩ ![1])
    (hb : (⟨2, ![1, Q]⟩ : Shape).BroadcastsInDim ⟨2, ![M, Q]⟩ ![0, 1])
    (hz0 : (⟨0, ![]⟩ : Shape).BroadcastsInDim ⟨2, ![M, Q]⟩ ![]) (z : BitVec FTy.f32.bits)
    (X : FVec Ideal ⟨2, ![M, K]⟩ .f32) (W0 : FVec Ideal ⟨2, ![K, Q]⟩ .f32)
    (Y : FVec Ideal ⟨2, ![M, K']⟩ .f32) (W1 : FVec Ideal ⟨2, ![K', Q]⟩ .f32) (b : FVec Ideal ⟨1, ![Q]⟩ .f32)
    (i : Fin M) (c : Fin Q) :
    maximumf (addf (addf (Host.dotGeneral d1 p1 X W0) (Host.dotGeneral d2 p2 Y W1))
        (broadcastInDim ⟨2, ![M, Q]⟩ ![0, 1] hb (broadcastInDim ⟨2, ![1, Q]⟩ ![1] hb' b)))
        (broadcastInDim ⟨2, ![M, Q]⟩ ![] hz0 (constant (F := Ideal) ⟨0, ![]⟩ .f32 z)) (ix2 i c)
      = max ((∑ k : Fin K, X (ix2 i k) * W0 (ix2 k c) + ∑ k : Fin K', Y (ix2 i k) * W1 (ix2 k c)) + b (ix1 c))
          (Ideal.ofBits .f32 z) := by
  rw [maximumf_apply, addf_apply, addf_apply, Cert.LibProduct.dotGeneral_apply d1 a1 a2 a3 a4 a5 a6,
    Cert.LibProduct.dotGeneral_apply d2 b1 b2 b3 b4 b5 b6, biasRow_apply, splat_apply]

/-- A DENSE LAYER AT AN ENTRY: the rectified sum of one product and a bias row. -/
theorem denseLayer_apply
    (d1 : DotDims ⟨2, ![M, K]⟩ ⟨2, ![K, Q]⟩ ⟨2, ![M, Q]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (p1 : Option ContractPrecision)
    (hb' : (⟨1, ![Q]⟩ : Shape).BroadcastsInDim ⟨2, ![1, Q]⟩ ![1])
    (hb : (⟨2, ![1, Q]⟩ : Shape).BroadcastsInDim ⟨2, ![M, Q]⟩ ![0, 1])
    (hz0 : (⟨0, ![]⟩ : Shape).BroadcastsInDim ⟨2, ![M, Q]⟩ ![]) (z : BitVec FTy.f32.bits)
    (X : FVec Ideal ⟨2, ![M, K]⟩ .f32) (W0 : FVec Ideal ⟨2, ![K, Q]⟩ .f32) (b : FVec Ideal ⟨1, ![Q]⟩ .f32)
    (i : Fin M) (c : Fin Q) :
    maximumf (addf (Host.dotGeneral d1 p1 X W0)
        (broadcastInDim ⟨2, ![M, Q]⟩ ![0, 1] hb (broadcastInDim ⟨2, ![1, Q]⟩ ![1] hb' b)))
        (broadcastInDim ⟨2, ![M, Q]⟩ ![] hz0 (constant (F := Ideal) ⟨0, ![]⟩ .f32 z)) (ix2 i c)
      = max (∑ k : Fin K, X (ix2 i k) * W0 (ix2 k c) + b (ix1 c)) (Ideal.ofBits .f32 z) := by
  rw [maximumf_apply, addf_apply, Cert.LibProduct.dotGeneral_apply d1 a1 a2 a3 a4 a5 a6, biasRow_apply, splat_apply]

/-- THE OUTPUT LAYER AT A NODE: two products into one column plus a one-entry bias, flattened to a vector. -/
theorem outLayer_apply
    (d1 : DotDims ⟨2, ![M, K]⟩ ⟨2, ![K, 1]⟩ ⟨2, ![M, 1]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (d2 : DotDims ⟨2, ![M, K']⟩ ⟨2, ![K', 1]⟩ ⟨2, ![M, 1]⟩)
    (b1 : d2.lhsContracting = [1]) (b2 : d2.rhsContracting = [0]) (b3 : d2.lhsNonContracting = [0])
    (b4 : d2.rhsNonContracting = [1]) (b5 : d2.lhsBatch = []) (b6 : d2.rhsBatch = [])
    (p1 p2 : Option ContractPrecision)
    (hb' : (⟨1, ![1]⟩ : Shape).BroadcastsInDim ⟨2, ![1, 1]⟩ ![1])
    (hb : (⟨2, ![1, 1]⟩ : Shape).BroadcastsInDim ⟨2, ![M, 1]⟩ ![0, 1])
    (hc : (⟨2, ![M, 1]⟩ : Shape).ShapeCasts ⟨1, ![M]⟩)
    (X : FVec Ideal ⟨2, ![M, K]⟩ .f32) (W0 : FVec Ideal ⟨2, ![K, 1]⟩ .f32)
    (Y : FVec Ideal ⟨2, ![M, K']⟩ .f32) (W1 : FVec Ideal ⟨2, ![K', 1]⟩ .f32) (b : FVec Ideal ⟨1, ![1]⟩ .f32)
    (i : Fin M) :
    shapeCast ⟨1, ![M]⟩ (addf (addf (Host.dotGeneral d1 p1 X W0) (Host.dotGeneral d2 p2 Y W1))
        (broadcastInDim ⟨2, ![M, 1]⟩ ![0, 1] hb (broadcastInDim ⟨2, ![1, 1]⟩ ![1] hb' b))) hc (ix1 i)
      = (∑ k : Fin K, X (ix2 i k) * W0 (ix2 k (0 : Fin 1)) + ∑ k : Fin K', Y (ix2 i k) * W1 (ix2 k (0 : Fin 1)))
          + b (ix1 (0 : Fin 1)) := by
  rw [flattenCol_apply, addf_apply, addf_apply, Cert.LibProduct.dotGeneral_apply d1 a1 a2 a3 a4 a5 a6,
    Cert.LibProduct.dotGeneral_apply d2 b1 b2 b3 b4 b5 b6, biasRow_apply]

end Layers

/-! ## The normalising factor and the edge weight -/

section Weights
variable {wd : ℕ}

/-- THE GUARDED INVERSE SQUARE ROOT AT AN INDEX: where the degree exceeds the splat z, the inverse square root of the
    degree raised to at least the splat o; elsewhere the splat z'. -/
theorem guardedRsqrt_apply {s : Shape} (hz ho hz' : (⟨0, ![]⟩ : Shape).BroadcastsInDim s ![])
    (z o z' : BitVec FTy.f32.bits) (deg : FVec Ideal s .f32) (j : s.Idx) :
    select (cmpf .ogt deg (broadcastInDim s ![] hz (constant (F := Ideal) ⟨0, ![]⟩ .f32 z)))
        (Host.rsqrt (maximumf deg (broadcastInDim s ![] ho (constant (F := Ideal) ⟨0, ![]⟩ .f32 o))))
        (broadcastInDim s ![] hz' (constant (F := Ideal) ⟨0, ![]⟩ .f32 z')) j
      = if Ideal.ofBits .f32 z < deg j then Ideal.rsqrt (max (deg j) (Ideal.ofBits .f32 o)) else Ideal.ofBits .f32 z' := by
  have e1 := splat_apply .f32 hz z j
  have e2 := splat_apply .f32 ho o j
  have e3 := splat_apply .f32 hz' z' j
  show Scalar.select (Ideal.cmp .ogt (deg j) (broadcastInDim s ![] hz (constant (F := Ideal) ⟨0, ![]⟩ .f32 z) j))
      (Ideal.rsqrt (max (deg j) (broadcastInDim s ![] ho (constant (F := Ideal) ⟨0, ![]⟩ .f32 o) j)))
      (broadcastInDim s ![] hz' (constant (F := Ideal) ⟨0, ![]⟩ .f32 z') j) = _
  rw [select_ogt, e2]
  exact if_congr (by rw [e1]) rfl e3

/-- THE EDGE WEIGHT AT AN EDGE: minus the factor at the clamped first word, times the factor at the clamped second
    word, both read through index columns laid down from flat word arrays. -/
theorem edgeWeight_apply (hN : 0 < N) (dg : GatherDims ⟨1, ![N]⟩ ⟨2, ![E, 1]⟩ ⟨1, ![E]⟩)
    (ho : dg.offsetDims = []) (hc : dg.collapsedSliceDims = [0]) (hob : dg.operandBatchingDims = [])
    (hsb : dg.startIndicesBatchingDims = []) (hm : dg.startIndexMap = [0]) (hgv : dg.indexVectorDim = 1)
    (hz : dg.sliceSizes = ![1])
    (ha hb : (⟨1, ![E]⟩ : Shape).BroadcastsInDim ⟨2, ![E, 1]⟩ ![0])
    (x : FVec Ideal ⟨1, ![N]⟩ .f32) (a b : IVec ⟨1, ![E]⟩ wd) (e : Fin E) :
    mulf (Host.negf (Host.gather dg x (broadcastInDim ⟨2, ![E, 1]⟩ ![0] ha a)))
        (Host.gather dg x (broadcastInDim ⟨2, ![E, 1]⟩ ![0] hb b)) (ix1 e)
      = (-(x (ix1 ⟨clampRow N (a (ix1 e)), clampRow_lt hN _⟩))) * x (ix1 ⟨clampRow N (b (ix1 e)), clampRow_lt hN _⟩) := by
  rw [mulf_apply, flatGather_col_apply hN dg ho hc hob hsb hm hgv hz hb]
  show (-(Host.gather dg x (broadcastInDim ⟨2, ![E, 1]⟩ ![0] ha a) (ix1 e))) * _ = _
  rw [flatGather_col_apply hN dg ho hc hob hsb hm hgv hz ha]

/-- A negative row word wrapped around by the row count, at an index: the word plus the splat n where the word is
    below the splat z (signed), the word itself elsewhere. -/
theorem wrap_apply {s : Shape} (hz hn : (⟨0, ![]⟩ : Shape).BroadcastsInDim s ![]) (z n : BitVec 32)
    (r : IVec s 32) (j : s.Idx) :
    select (cmpi .slt r (broadcastInDim s ![] hz (constantI ⟨0, ![]⟩ 32 z)))
        (addi r (broadcastInDim s ![] hn (constantI ⟨0, ![]⟩ 32 n))) r j
      = Scalar.select (IntOp.cmpi .slt (r j) z) (IntOp.addi (r j) n) (r j) := by
  show Scalar.select (IntOp.cmpi .slt (r j) (broadcastInDim s ![] hz (constantI ⟨0, ![]⟩ 32 z) j))
      (IntOp.addi (r j) (broadcastInDim s ![] hn (constantI ⟨0, ![]⟩ 32 n) j)) (r j) = _
  rw [splatI_apply hz z j, splatI_apply hn n j]

end Weights

/-! ## The named stages -/

open Cert.HostFns Cert.ReferenceIdeal

/-- The zero splat reads zero's word everywhere. -/
theorem zeroS_splat {T : Shape} (h : (⟨0, ![]⟩ : Shape).BroadcastsInDim T ![]) (j : T.Idx) :
    broadcastInDim T ![] h zeroS j = Ideal.ofBits .f32 0x00000000#32 := splat_apply .f32 h _ j

/-- The one splat reads one's word everywhere. -/
theorem oneS_splat {T : Shape} (h : (⟨0, ![]⟩ : Shape).BroadcastsInDim T ![]) (j : T.Idx) :
    broadcastInDim T ![] h oneS j = Ideal.ofBits .f32 0x3F800000#32 := splat_apply .f32 h _ j

/-- An index column reads the flat array at the edge. -/
theorem col_apply (r : IArr S262144) (e : Fin 262144) (u : Fin 1) : col r (ix2 e u) = r (ix1 e) := by
  unfold col
  exact colOf_apply _ r e u

/-- The weight column reads the edge weight at the edge. -/
theorem wcol_apply (ei : IArr S2x262144) (e : Fin 262144) (u : Fin 1) : wcol ei (ix2 e u) = w ei (ix1 e) := by
  unfold wcol
  exact colOf_apply _ (w ei) e u

/-! ### The aggregated messages

At (i, k): zero plus, over the edges whose destination word reads as i, the edge weight times the entry of X at the
edge's clamped (wrapped) source row. -/

theorem msg58_entry (X : Arr S100000x58) (ei : IArr S2x262144) (i : Fin 100000) (k : Fin 58) :
    msg58 X ei (ix2 i k)
      = Ideal.ofBits .f32 0x00000000#32 + ∑ e : Fin 262144,
          if (col (row1 ei) (ix2 e (0 : Fin 1))).toInt = (i.val : Int) then
            w ei (ix1 e)
              * X (ix2 ⟨clampRow 100000 (col (wrap (row0 ei)) (ix2 e (0 : Fin 1))), clampRow_lt (by decide) _⟩ k)
          else 0 := by
  unfold msg58
  rw [message_apply (by decide) scatter_S100000x58_S262144x1_S262144x58_1_0_0_1 rfl rfl rfl rfl
      gather_S100000x58_S262144x1_S262144x58_1_0_n_n_0_1_158 rfl rfl rfl rfl rfl rfl rfl, zeroS_splat]
  refine congrArg _ (Finset.sum_congr rfl fun e _ => ?_)
  rw [repeatCols_apply, wcol_apply]

theorem msg300_entry (X : Arr S100000x300) (ei : IArr S2x262144) (i : Fin 100000) (k : Fin 300) :
    msg300 X ei (ix2 i k)
      = Ideal.ofBits .f32 0x00000000#32 + ∑ e : Fin 262144,
          if (col (row1 ei) (ix2 e (0 : Fin 1))).toInt = (i.val : Int) then
            w ei (ix1 e)
              * X (ix2 ⟨clampRow 100000 (col (wrap (row0 ei)) (ix2 e (0 : Fin 1))), clampRow_lt (by decide) _⟩ k)
          else 0 := by
  unfold msg300
  rw [message_apply (by decide) scatter_S100000x300_S262144x1_S262144x300_1_0_0_1 rfl rfl rfl rfl
      gather_S100000x300_S262144x1_S262144x300_1_0_n_n_0_1_1300 rfl rfl rfl rfl rfl rfl rfl, zeroS_splat]
  refine congrArg _ (Finset.sum_congr rfl fun e _ => ?_)
  rw [repeatCols_apply, wcol_apply]

theorem msg100_entry (X : Arr S100000x100) (ei : IArr S2x262144) (i : Fin 100000) (k : Fin 100) :
    msg100 X ei (ix2 i k)
      = Ideal.ofBits .f32 0x00000000#32 + ∑ e : Fin 262144,
          if (col (row1 ei) (ix2 e (0 : Fin 1))).toInt = (i.val : Int) then
            w ei (ix1 e)
              * X (ix2 ⟨clampRow 100000 (col (wrap (row0 ei)) (ix2 e (0 : Fin 1))), clampRow_lt (by decide) _⟩ k)
          else 0 := by
  unfold msg100
  rw [message_apply (by decide) scatter_S100000x100_S262144x1_S262144x100_1_0_0_1 rfl rfl rfl rfl
      gather_S100000x100_S262144x1_S262144x100_1_0_n_n_0_1_1100 rfl rfl rfl rfl rfl rfl rfl, zeroS_splat]
  refine congrArg _ (Finset.sum_congr rfl fun e _ => ?_)
  rw [repeatCols_apply, wcol_apply]

theorem msg1_entry (X : Arr S100000x1) (ei : IArr S2x262144) (i : Fin 100000) (k : Fin 1) :
    msg1 X ei (ix2 i k)
      = Ideal.ofBits .f32 0x00000000#32 + ∑ e : Fin 262144,
          if (col (row1 ei) (ix2 e (0 : Fin 1))).toInt = (i.val : Int) then
            w ei (ix1 e)
              * X (ix2 ⟨clampRow 100000 (col (wrap (row0 ei)) (ix2 e (0 : Fin 1))), clampRow_lt (by decide) _⟩ k)
          else 0 := by
  unfold msg1
  rw [message_apply (by decide) Cert.KernelIdeal.scatter_S100000x1_S262144x1_S262144x1_1_0_0_1 rfl rfl rfl rfl
      Cert.KernelIdeal.gather_S100000x1_S262144x1_S262144x1_1_0_n_n_0_1_11 rfl rfl rfl rfl rfl rfl rfl, zeroS_splat]
  refine congrArg _ (Finset.sum_congr rfl fun e _ => ?_)
  rw [wcol_apply]

/-! ### The layers -/

theorem hR_entry (X : Arr S100000x58) (ei : IArr S2x262144) (W0 W1 : Arr S58x300) (b : Arr S300)
    (i : Fin 100000) (c : Fin 300) :
    hR X ei W0 W1 b (ix2 i c)
      = max ((∑ k : Fin 58, X (ix2 i k) * W0 (ix2 k c) + ∑ k : Fin 58, msg58 X ei (ix2 i k) * W1 (ix2 k c))
              + b (ix1 c)) (Ideal.ofBits .f32 0x00000000#32) := by
  unfold hR
  exact convLayer_apply dot_S100000x58_S58x300_S100000x300_1_0_0_1_n_n rfl rfl rfl rfl rfl rfl
    dot_S100000x58_S58x300_S100000x300_1_0_0_1_n_n rfl rfl rfl rfl rfl rfl none none _ _ _ _
    X W0 (msg58 X ei) W1 b i c

theorem x1R_entry (H : Arr S100000x300) (ei : IArr S2x262144) (W0 W1 : Arr S300x100) (b : Arr S100)
    (i : Fin 100000) (c : Fin 100) :
    x1R H ei W0 W1 b (ix2 i c)
      = max ((∑ k : Fin 300, H (ix2 i k) * W0 (ix2 k c) + ∑ k : Fin 300, msg300 H ei (ix2 i k) * W1 (ix2 k c))
              + b (ix1 c)) (Ideal.ofBits .f32 0x00000000#32) := by
  unfold x1R
  exact convLayer_apply dot_S100000x300_S300x100_S100000x100_1_0_0_1_n_n rfl rfl rfl rfl rfl rfl
    dot_S100000x300_S300x100_S100000x100_1_0_0_1_n_n rfl rfl rfl rfl rfl rfl none none _ _ _ _
    H W0 (msg300 H ei) W1 b i c

theorem linR_entry (X : Arr S100000x58) (W : Arr S58x100) (b : Arr S100) (i : Fin 100000) (c : Fin 100) :
    linR X W b (ix2 i c)
      = max (∑ k : Fin 58, X (ix2 i k) * W (ix2 k c) + b (ix1 c)) (Ideal.ofBits .f32 0x00000000#32) := by
  unfold linR
  exact denseLayer_apply dot_S100000x58_S58x100_S100000x100_1_0_0_1_n_n rfl rfl rfl rfl rfl rfl none _ _ _ _
    X W b i c

theorem outR_entry (Xs : Arr S100000x100) (ei : IArr S2x262144) (W0 W1 : Arr S100x1) (b : Arr S1) (i : Fin 100000) :
    outR Xs ei W0 W1 b (ix1 i)
      = (∑ k : Fin 100, Xs (ix2 i k) * W0 (ix2 k (0 : Fin 1))
          + ∑ k : Fin 100, msg100 Xs ei (ix2 i k) * W1 (ix2 k (0 : Fin 1))) + b (ix1 (0 : Fin 1)) := by
  unfold outR
  exact outLayer_apply dot_S100000x100_S100x1_S100000x1_1_0_0_1_n_n rfl rfl rfl rfl rfl rfl
    dot_S100000x100_S100x1_S100000x1_1_0_0_1_n_n rfl rfl rfl rfl rfl rfl none none _ _ _
    Xs W0 (msg100 Xs ei) W1 b i

/-! ### The edge weight and the degree -/

theorem w_entry (ei : IArr S2x262144) (e : Fin 262144) :
    w ei (ix1 e)
      = (-(dinv ei (ix1 ⟨clampRow 100000 (col (wrap (row0 ei)) (ix2 e (0 : Fin 1))), clampRow_lt (by decide) _⟩)))
        * dinv ei (ix1 ⟨clampRow 100000 (col (wrap (row1 ei)) (ix2 e (0 : Fin 1))), clampRow_lt (by decide) _⟩) := by
  unfold w
  rw [mulf_apply, Cert.LibGraphOps.flat_gather_apply' (by decide) gather_S100000_S262144x1_S262144_n_0_n_n_0_1_1
    rfl rfl rfl rfl rfl rfl rfl]
  show (-(Host.gather gather_S100000_S262144x1_S262144_n_0_n_n_0_1_1 (dinv ei) (col (wrap (row0 ei))) (ix1 e))) * _ = _
  rw [Cert.LibGraphOps.flat_gather_apply' (by decide) gather_S100000_S262144x1_S262144_n_0_n_n_0_1_1
    rfl rfl rfl rfl rfl rfl rfl]

theorem deg_entry (ei : IArr S2x262144) (j : Fin 100000) :
    deg ei (ix1 j)
      = Ideal.ofBits .f32 0x00000000#32 + ∑ e : Fin 262144,
          if (col (row0 ei) (ix2 e (0 : Fin 1))).toInt = (j.val : Int) then Ideal.ofBits .f32 0x3F800000#32 else 0 := by
  unfold deg
  rw [Cert.LibGraphOps.flatScatter_apply' scatter_S100000_S262144x1_S262144_n_0_0_1 rfl rfl rfl rfl, zeroS_splat]
  refine congrArg _ (Finset.sum_congr rfl fun e _ => ?_)
  rw [oneS_splat]

/-! ### The index arrays and the normalising factor -/

theorem row0_apply (ei : IArr S2x262144) (e : Fin 262144) : row0 ei (ix1 e) = ei (ix2 (⟨0, by decide⟩ : Fin 2) e) := by
  unfold row0
  exact flattenRow_apply 0 (by decide) ei _ _ e

theorem row1_apply (ei : IArr S2x262144) (e : Fin 262144) : row1 ei (ix1 e) = ei (ix2 (⟨1, by decide⟩ : Fin 2) e) := by
  unfold row1
  exact flattenRow_apply 1 (by decide) ei _ _ e

theorem wrap_entry (r : IArr S262144) (j : S262144.Idx) :
    wrap r j = Scalar.select (IntOp.cmpi .slt (r j) 0#32) (IntOp.addi (r j) 100000#32) (r j) := by
  unfold wrap
  exact wrap_apply _ _ _ _ r j

theorem dinv_entry (ei : IArr S2x262144) (j : S100000.Idx) :
    dinv ei j
      = if Ideal.ofBits .f32 0x00000000#32 < deg ei j then
          Ideal.rsqrt (max (deg ei j) (Ideal.ofBits .f32 0x3F800000#32))
        else Ideal.ofBits .f32 0x00000000#32 := by
  unfold dinv
  exact guardedRsqrt_apply _ _ _ _ _ _ (deg ei) j

end Cert.HostEntries

end
-- ==== Proof.Bridge.lean ====
/-
  Projecting before aggregating, and the layers of the two programs.

  An aggregated message is, entry by entry, a sum over the edges of the edge's weight times an entry of the source
  node's row.  When the weights and the node array are real numbers, such a sum commutes with a product by a weight
  matrix: the message of the projected array is the projection of the message.  The weights are real because a degree
  is a finite count, its clamped inverse square root is real, and a weight is minus a product of two such factors.
  With this law the layers that aggregate an already projected array agree with the layers that project the
  aggregated array, and the remaining layers agree entry by entry as they stand.
-/
import proofs.«145370_j17231408792162_2_alg».proof.Proof.LibRealValued
import proofs.«145370_j17231408792162_2_alg».proof.Proof.LibRows
import proofs.«145370_j17231408792162_2_alg».proof.Proof.LibMessageLaw
import proofs.«145370_j17231408792162_2_alg».proof.Proof.Net
import proofs.«145370_j17231408792162_2_alg».proof.Proof.NetReal
import proofs.«145370_j17231408792162_2_alg».proof.Proof.LibLayoutReads
import proofs.«145370_j17231408792162_2_alg».proof.Proof.HostFns
import proofs.«145370_j17231408792162_2_alg».proof.Proof.HostEntries
import Idealize.ShloMosaic.PureOps.Ideal
import Idealize.ShloMosaic.Lib.ValueIdx
import Idealize.ShloMosaic.Lib.ValueLayout

noncomputable section

open scoped BigOperators

namespace Cert.Bridge

open Idealize.ShloMosaic Idealize.ShloMosaic.ValueIdx
open Cert.HostFns Cert.HostEntries Cert.LibRows Cert.RealValued Cert.Algebra Cert.NetReal
open Cert.ReferenceIdeal (S2x262144 S262144 S262144x1 S100000 S100000x58 S100000x300 S100000x100 S100000x1 S58x300 S300x100
  S58x100 S100x1 S300 S100 S1 S1x300 S1x100 S1x1)

/-! ## Sums over the edges of real entries -/

section Core
variable {E : ℕ}

/-- A count of edges, `0 + ∑ₑ [p e] 1`, is a real number. -/
theorem isReal_count (p : Fin E → Prop) [DecidablePred p] :
    IsReal (Cert.Net.zero + ∑ e : Fin E, if p e then Ideal.ofBits .f32 0x3F800000#32 else 0) :=
  isReal_masked_sum p _ isReal_zero_lit fun _ => isReal_one_lit

/-- A weighted sum over selected edges, `0 + ∑ₑ [p e] wt e · x e`, of real weights and real entries is real. -/
theorem isReal_edgeSum (p : Fin E → Prop) [DecidablePred p] (wt x : Fin E → EReal)
    (hw : ∀ e, IsReal (wt e)) (hx : ∀ e, IsReal (x e)) :
    IsReal (Cert.Net.zero + ∑ e : Fin E, if p e then wt e * x e else 0) :=
  isReal_masked_sum p _ isReal_zero_lit fun e => (hw e).mul (hx e)

/-- Projection commutes with the weighted sum over selected edges, for real weights, rows and matrix column. -/
theorem edgeSum_proj {K : ℕ} (p : Fin E → Prop) [DecidablePred p] (wt : Fin E → EReal) (Hs : Fin E → Fin K → EReal)
    (Wt : Fin K → EReal) (hw : ∀ e, IsReal (wt e)) (hH : ∀ e k, IsReal (Hs e k)) (hW : ∀ k, IsReal (Wt k)) :
    Cert.Net.zero + ∑ e, (if p e then wt e * (∑ k, Hs e k * Wt k) else 0)
      = ∑ k, (Cert.Net.zero + ∑ e, (if p e then wt e * Hs e k else 0)) * Wt k :=
  message_linear E K Cert.Net.zero Ideal.ofBits_zero_f32 p wt Hs Wt hw hH hW

/-- Every entry of a shape cast is an entry of its operand, so a cast of real entries has real entries. -/
theorem isReal_shapeCast {s t : Shape} (v : s.Idx → EReal) (h : s.ShapeCasts t) (hv : ∀ j, IsReal (v j)) :
    ∀ i, IsReal (shapeCast t v h i) := fun i =>
  hv (Shape.reshapeEquiv h i)

end Core

/-! ## The edge weights are real -/

section Weights
variable (ei : IArr S2x262144)

/-- A degree is a count of edges, hence real. -/
theorem isReal_deg : ∀ j, IsReal (deg ei j) := by
  intro j
  obtain ⟨i, rfl⟩ : ∃ i : Fin 100000, j = ix1 i := ⟨j 0, eq_ix1 j⟩
  rw [deg_entry]
  exact isReal_count _

/-- The normalising factor is real: the inverse square root of a degree clamped below by one where the degree is
    positive, zero elsewhere. -/
theorem isReal_dinv_host : ∀ j, IsReal (dinv ei j) := by
  unfold dinv
  refine isReal_dinv _ _ _ _ (isReal_deg ei) (fun i => oneS_splat _ i) (fun i => ?_)
  have h : broadcastInDim S100000 ![] Cert.ReferenceIdeal.Facts₀.bcast_S_S100000 (id zeroS) i
      = Ideal.ofBits .f32 0x00000000#32 := zeroS_splat _ i
  rw [h]
  exact isReal_zero_lit

/-- THE WEIGHTS ARE REAL: an edge weight is minus the product of two normalising factors. -/
theorem isReal_w : ∀ e : Fin 262144, IsReal (w ei (ix1 e)) := by
  intro e
  rw [w_entry]
  exact (Cert.Algebra.IsReal.neg (isReal_dinv_host ei _)).mul (isReal_dinv_host ei _)

/-- The weights are real, at every index. -/
theorem isReal_w_idx : ∀ j, IsReal (w ei j) := by
  intro j
  obtain ⟨e, rfl⟩ : ∃ e : Fin 262144, j = ix1 e := ⟨j 0, eq_ix1 j⟩
  exact isReal_w ei e

end Weights

/-! ## Messages -/

section Messages
variable (ei : IArr S2x262144)

/-- The aggregation formula's right side at width `C`: onto zero, the sum over the edges whose destination word reads as
    node `i` of the edge's weight times entry `k` of the (clamped) source node's row. -/
abbrev msgSum {C : ℕ} (X : (⟨2, ![100000, C]⟩ : Shape).Idx → EReal) (i : Fin 100000) (k : Fin C) : EReal :=
  Cert.Net.zero + ∑ e : Fin 262144,
    if (col (row1 ei) (ix2 e (0 : Fin 1))).toInt = (i.val : Int) then
      w ei (ix1 e) * X (ix2 ⟨clampRow 100000 (col (wrap (row0 ei)) (ix2 e (0 : Fin 1))), clampRow_lt (by decide) _⟩ k)
    else 0

/-- Messages of real arrays are real, for an aggregation `m` of any width that obeys the aggregation formula. -/
theorem isReal_msg {C : ℕ}
    (m : ((⟨2, ![100000, C]⟩ : Shape).Idx → EReal) → IArr S2x262144 → (⟨2, ![100000, C]⟩ : Shape).Idx → EReal)
    (hm : ∀ X i k, m X ei (ix2 i k) = msgSum ei X i k)
    (X : (⟨2, ![100000, C]⟩ : Shape).Idx → EReal) (hX : ∀ j, IsReal (X j)) : ∀ j, IsReal (m X ei j) := by
  intro j
  obtain ⟨i, k, rfl⟩ : ∃ (i : Fin 100000) (k : Fin C), j = ix2 i k := ⟨j 0, j 1, eq_ix2 j⟩
  rw [hm]
  exact isReal_edgeSum _ _ _ (isReal_w ei) fun e => hX _

/-- The aggregated message of a real array is real, at width 58. -/
theorem isReal_msg58 (X : Arr S100000x58) (hX : ∀ j, IsReal (X j)) : ∀ j, IsReal (msg58 X ei j) :=
  isReal_msg ei msg58 (fun X i k => msg58_entry X ei i k) X hX

/-- The aggregated message of a real array is real, at width 300. -/
theorem isReal_msg300 (X : Arr S100000x300) (hX : ∀ j, IsReal (X j)) : ∀ j, IsReal (msg300 X ei j) :=
  isReal_msg ei msg300 (fun X i k => msg300_entry X ei i k) X hX

/-- The aggregated message of a real array is real, at width 100. -/
theorem isReal_msg100 (X : Arr S100000x100) (hX : ∀ j, IsReal (X j)) : ∀ j, IsReal (msg100 X ei j) :=
  isReal_msg ei msg100 (fun X i k => msg100_entry X ei i k) X hX

/-- The aggregated message of a real array is real, at width 1. -/
theorem isReal_msg1 (X : Arr S100000x1) (hX : ∀ j, IsReal (X j)) : ∀ j, IsReal (msg1 X ei j) :=
  isReal_msg ei msg1 (fun X i k => msg1_entry X ei i k) X hX

/-- THE LAW at any widths: the message of a projected real array is the projection of its message, for aggregations
    `mQ` (width `Q`) and `mK` (width `K`) that obey the aggregation formula. -/
theorem msg_proj {K Q : ℕ}
    (mQ : ((⟨2, ![100000, Q]⟩ : Shape).Idx → EReal) → IArr S2x262144 → (⟨2, ![100000, Q]⟩ : Shape).Idx → EReal)
    (mK : ((⟨2, ![100000, K]⟩ : Shape).Idx → EReal) → IArr S2x262144 → (⟨2, ![100000, K]⟩ : Shape).Idx → EReal)
    (hQ : ∀ X i k, mQ X ei (ix2 i k) = msgSum ei X i k) (hK : ∀ X i k, mK X ei (ix2 i k) = msgSum ei X i k)
    (H : (⟨2, ![100000, K]⟩ : Shape).Idx → EReal) (W : (⟨2, ![K, Q]⟩ : Shape).Idx → EReal)
    (hH : ∀ j, IsReal (H j)) (hW : ∀ j, IsReal (W j)) (i : Fin 100000) (q : Fin Q) :
    mQ (Cert.Net.proj H W) ei (ix2 i q) = ∑ k : Fin K, mK H ei (ix2 i k) * W (ix2 k q) := by
  have e2 : (∑ k : Fin K, mK H ei (ix2 i k) * W (ix2 k q)) = ∑ k : Fin K, msgSum ei H i k * W (ix2 k q) :=
    Finset.sum_congr rfl fun k _ => by rw [hK]
  rw [hQ, e2]
  exact edgeSum_proj (fun e => (col (row1 ei) (ix2 e (0 : Fin 1))).toInt = (i.val : Int)) (fun e => w ei (ix1 e))
    (fun e k => H (ix2 ⟨clampRow 100000 (col (wrap (row0 ei)) (ix2 e (0 : Fin 1))), clampRow_lt (by decide) _⟩ k))
    (fun k => W (ix2 k q)) (isReal_w ei) (fun e k => hH _) (fun k => hW _)

/-- The law between the widths 300 and 100: aggregating `H · W` is aggregating `H` and then multiplying by `W`. -/
theorem msg100_proj (H : Arr S100000x300) (W : Arr S300x100) (hH : ∀ j, IsReal (H j)) (hW : ∀ j, IsReal (W j))
    (i : Fin 100000) (q : Fin 100) :
    msg100 (Cert.Net.proj H W) ei (ix2 i q) = ∑ k : Fin 300, msg300 H ei (ix2 i k) * W (ix2 k q) :=
  msg_proj ei msg100 msg300 (fun X i k => msg100_entry X ei i k) (fun X i k => msg300_entry X ei i k) H W hH hW i q

/-- The law between the widths 100 and 1. -/
theorem msg1_proj (Xs : Arr S100000x100) (W : Arr S100x1) (hX : ∀ j, IsReal (Xs j)) (hW : ∀ j, IsReal (W j))
    (i : Fin 100000) :
    msg1 (Cert.Net.proj Xs W) ei (ix2 i (0 : Fin 1)) = ∑ k : Fin 100, msg100 Xs ei (ix2 i k) * W (ix2 k (0 : Fin 1)) :=
  msg_proj ei msg1 msg100 (fun X i k => msg1_entry X ei i k) (fun X i k => msg100_entry X ei i k) Xs W hX hW i 0

end Messages

/-! ## The layers of the two programs agree -/

section Layers
variable (ei : IArr S2x262144)

/-- The first layer: the stage on the aggregated input is the reference's first layer, entry by entry. -/
theorem conv1_eq_hR (X : Arr S100000x58) (W0 W1 : Arr S58x300) (b : Arr S300) (h : S300.ShapeCasts S1x300) :
    Cert.Net.conv1 X (msg58 X ei) W0 W1 (shapeCast S1x300 b h) = hR X ei W0 W1 b := by
  funext j
  obtain ⟨i, c, rfl⟩ : ∃ (i : Fin 100000) (c : Fin 300), j = ix2 i c := ⟨j 0, j 1, eq_ix2 j⟩
  rw [Cert.Net.conv1_apply, hR_entry, shapeCast_a_1a_apply]

/-- A dense layer: the stage is the reference's dense layer, entry by entry. -/
theorem lin_eq_linR (X : Arr S100000x58) (W : Arr S58x100) (b : Arr S100) (h : S100.ShapeCasts S1x100) :
    Cert.Net.lin X W (shapeCast S1x100 b h) = linR X W b := by
  funext j
  obtain ⟨i, c, rfl⟩ : ∃ (i : Fin 100000) (c : Fin 100), j = ix2 i c := ⟨j 0, j 1, eq_ix2 j⟩
  rw [Cert.Net.lin_apply, linR_entry, shapeCast_a_1a_apply]

/-- The second layer: aggregating the projected array agrees with the reference's layer, which projects the
    aggregated array; the law needs the node array and the second weight matrix real. -/
theorem conv2_eq_x1R (H : Arr S100000x300) (W0 W1 : Arr S300x100) (b : Arr S100) (h : S100.ShapeCasts S1x100)
    (hH : ∀ j, IsReal (H j)) (_hW0 : ∀ j, IsReal (W0 j)) (hW1 : ∀ j, IsReal (W1 j)) (_hb : ∀ j, IsReal (b j)) :
    Cert.Net.conv2 H (msg100 (Cert.Net.proj H W1) ei) W0 (shapeCast S1x100 b h) = x1R H ei W0 W1 b := by
  funext j
  obtain ⟨i, c, rfl⟩ : ∃ (i : Fin 100000) (c : Fin 100), j = ix2 i c := ⟨j 0, j 1, eq_ix2 j⟩
  rw [Cert.Net.conv2_apply, x1R_entry, shapeCast_a_1a_apply, msg100_proj ei H W1 hH hW1]

/-- The last layer: aggregating the projected array and flattening the one column agrees with the reference's output;
    the law needs the node array and the second weight column real. -/
theorem conv3_eq_outR (Xs : Arr S100000x100) (W0 W1 : Arr S100x1) (b : Arr S1) (h' : S1.ShapeCasts S1x1)
    (hflat : S100000x1.ShapeCasts S100000)
    (hX : ∀ j, IsReal (Xs j)) (_hW0 : ∀ j, IsReal (W0 j)) (hW1 : ∀ j, IsReal (W1 j)) (_hb : ∀ j, IsReal (b j)) :
    shapeCast S100000 (Cert.Net.conv3 Xs (msg1 (Cert.Net.proj Xs W1) ei) W0 (shapeCast S1x1 b h')) hflat
      = outR Xs ei W0 W1 b := by
  funext j
  obtain ⟨i, rfl⟩ : ∃ i : Fin 100000, j = ix1 i := ⟨j 0, eq_ix1 j⟩
  rw [Cert.RefEntries.flattenCol_apply, Cert.Net.conv3_apply, outR_entry, shapeCast_a_1a_apply,
    msg1_proj ei Xs W1 hX hW1]

end Layers

/-! ## The reference's layers of real inputs are real -/

section RefReal
variable (ei : IArr S2x262144)

/-- The reference's first layer of real operands has real entries. -/
theorem isReal_hR (X : Arr S100000x58) (W0 W1 : Arr S58x300) (b : Arr S300)
    (hX : ∀ j, IsReal (X j)) (hW0 : ∀ j, IsReal (W0 j)) (hW1 : ∀ j, IsReal (W1 j)) (hb : ∀ j, IsReal (b j)) :
    ∀ j, IsReal (hR X ei W0 W1 b j) := by
  intro j
  obtain ⟨i, c, rfl⟩ : ∃ (i : Fin 100000) (c : Fin 300), j = ix2 i c := ⟨j 0, j 1, eq_ix2 j⟩
  rw [hR_entry]
  exact isReal_relu (((isReal_sum _ _ fun k _ => (hX _).mul (hW0 _)).add
    (isReal_sum _ _ fun k _ => (isReal_msg58 ei X hX _).mul (hW1 _))).add (hb _))

/-- The reference's second layer of real operands has real entries. -/
theorem isReal_x1R (H : Arr S100000x300) (W0 W1 : Arr S300x100) (b : Arr S100)
    (hH : ∀ j, IsReal (H j)) (hW0 : ∀ j, IsReal (W0 j)) (hW1 : ∀ j, IsReal (W1 j)) (hb : ∀ j, IsReal (b j)) :
    ∀ j, IsReal (x1R H ei W0 W1 b j) := by
  intro j
  obtain ⟨i, c, rfl⟩ : ∃ (i : Fin 100000) (c : Fin 100), j = ix2 i c := ⟨j 0, j 1, eq_ix2 j⟩
  rw [x1R_entry]
  exact isReal_relu (((isReal_sum _ _ fun k _ => (hH _).mul (hW0 _)).add
    (isReal_sum _ _ fun k _ => (isReal_msg300 ei H hH _).mul (hW1 _))).add (hb _))

/-- The reference's dense layer of real operands has real entries. -/
theorem isReal_linR (X : Arr S100000x58) (W : Arr S58x100) (b : Arr S100)
    (hX : ∀ j, IsReal (X j)) (hW : ∀ j, IsReal (W j)) (hb : ∀ j, IsReal (b j)) : ∀ j, IsReal (linR X W b j) := by
  intro j
  obtain ⟨i, c, rfl⟩ : ∃ (i : Fin 100000) (c : Fin 100), j = ix2 i c := ⟨j 0, j 1, eq_ix2 j⟩
  rw [linR_entry]
  exact isReal_relu ((isReal_sum _ _ fun k _ => (hX _).mul (hW _)).add (hb _))

/-- The reference's first hidden array of real inputs has real entries. -/
theorem isReal_refH (x0 : Arr S100000x58) (x1 : IArr S2x262144) (x3 x4 : Arr S58x300) (x5 : Arr S300)
    (h0 : ∀ j, IsReal (x0 j)) (h3 : ∀ j, IsReal (x3 j)) (h4 : ∀ j, IsReal (x4 j)) (h5 : ∀ j, IsReal (x5 j)) :
    ∀ j, IsReal (refH x0 x1 x3 x4 x5 j) :=
  isReal_hR x1 x0 x3 x4 x5 h0 h3 h4 h5

/-- The reference's second hidden array of real inputs has real entries. -/
theorem isReal_refX1 (x0 : Arr S100000x58) (x1 : IArr S2x262144) (x3 x4 : Arr S58x300) (x5 : Arr S300)
    (x6 x7 : Arr S300x100) (x8 : Arr S100)
    (h0 : ∀ j, IsReal (x0 j)) (h3 : ∀ j, IsReal (x3 j)) (h4 : ∀ j, IsReal (x4 j)) (h5 : ∀ j, IsReal (x5 j))
    (h6 : ∀ j, IsReal (x6 j)) (h7 : ∀ j, IsReal (x7 j)) (h8 : ∀ j, IsReal (x8 j)) :
    ∀ j, IsReal (refX1 x0 x1 x3 x4 x5 x6 x7 x8 j) :=
  isReal_x1R x1 _ x6 x7 x8 (isReal_refH x0 x1 x3 x4 x5 h0 h3 h4 h5) h6 h7 h8

/-- The reference's skip-connected array of real inputs has real entries. -/
theorem isReal_refXs (x0 : Arr S100000x58) (x1 : IArr S2x262144) (x3 x4 : Arr S58x300) (x5 : Arr S300)
    (x6 x7 : Arr S300x100) (x8 : Arr S100) (x12 : Arr S58x100) (x13 : Arr S100)
    (h0 : ∀ j, IsReal (x0 j)) (h3 : ∀ j, IsReal (x3 j)) (h4 : ∀ j, IsReal (x4 j)) (h5 : ∀ j, IsReal (x5 j))
    (h6 : ∀ j, IsReal (x6 j)) (h7 : ∀ j, IsReal (x7 j)) (h8 : ∀ j, IsReal (x8 j))
    (h12 : ∀ j, IsReal (x12 j)) (h13 : ∀ j, IsReal (x13 j)) :
    ∀ j, IsReal (refXs x0 x1 x3 x4 x5 x6 x7 x8 x12 x13 j) := fun j =>
  (isReal_refX1 x0 x1 x3 x4 x5 x6 x7 x8 h0 h3 h4 h5 h6 h7 h8 j).add (isReal_linR x0 x12 x13 h0 h12 h13 j)

/-- The reference's embedding array of real inputs has real entries. -/
theorem isReal_refZ (x0 : Arr S100000x58) (x1 : IArr S2x262144) (x3 x4 : Arr S58x300) (x5 : Arr S300)
    (x6 x7 : Arr S300x100) (x8 : Arr S100) (x14 : Arr S58x100) (x15 : Arr S100)
    (h0 : ∀ j, IsReal (x0 j)) (h3 : ∀ j, IsReal (x3 j)) (h4 : ∀ j, IsReal (x4 j)) (h5 : ∀ j, IsReal (x5 j))
    (h6 : ∀ j, IsReal (x6 j)) (h7 : ∀ j, IsReal (x7 j)) (h8 : ∀ j, IsReal (x8 j))
    (h14 : ∀ j, IsReal (x14 j)) (h15 : ∀ j, IsReal (x15 j)) :
    ∀ j, IsReal (refZ x0 x1 x3 x4 x5 x6 x7 x8 x14 x15 j) := fun j =>
  (isReal_refX1 x0 x1 x3 x4 x5 x6 x7 x8 h0 h3 h4 h5 h6 h7 h8 j).add (isReal_linR x0 x14 x15 h0 h14 h15 j)

end RefReal

end Cert.Bridge

end
-- ==== Proof.Finite.lean ====
/-
  From the precondition to real-valued inputs.

  The precondition states, for every float argument array x, that the conjunction over all entries of |x| < +∞ is
  true.  A conjunction of bits that is 1 has every conjunct 1; a reduction by "and" over all axes that is 1 has a 1
  at every index; and an extended real whose absolute value max x (-x) lies below +∞ is neither of the two infinities,
  hence the coercion of a real number.
-/
import proofs.«145370_j17231408792162_2_alg».proof.Defs
import proofs.«145370_j17231408792162_2_alg».proof.Proof.Gen.Pre_finite_inputs
import proofs.«145370_j17231408792162_2_alg».proof.Proof.LibRealValued
import Idealize.ShloMosaic.Lib.ReduceAll
import Idealize.ShloMosaic.Lib.ValueIdx
import Idealize.ShloMosaic.Lib.IdealHost

noncomputable section

namespace Cert.Finite

open Idealize.ShloMosaic Idealize.SL.Sem Idealize.ShloMosaic.ValueIdx Cert.RealValued

/-- An extended real whose absolute value lies below +∞ is a real number. -/
theorem isReal_of_abs_lt_top (x : EReal) (h : max x (-x) < ⊤) : IsReal x := by
  induction x using EReal.rec with
  | bot => simp at h
  | coe r => exact ⟨r, rfl⟩
  | top => simp at h

/-- The element fact of the precondition: the comparison |x| < +∞ answering 1 makes x a real number. -/
theorem isReal_of_cmp (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact isReal_of_abs_lt_top x hlt
  · simp [hlt] at h

/-- The rank-0 shape has one index. -/
instance : Subsingleton (⟨0, ![]⟩ : Shape).Idx := ⟨fun a b => funext fun d => d.elim0⟩

/-- The conjunction of two rank-0 bit arrays, read at the index. -/
theorem andi_ix {s : Shape} {w : Nat} (x y : IVec s w) (i : s.Idx) : andi x y i = IntOp.andi (x i) (y i) := rfl

/-- One argument: the all-entries conjunction of |x| < +∞ being 1 makes every entry of x a real number. -/
theorem all_isReal {s : Shape} {axes : List (Fin s.rank)} (x : FVec Ideal s .f32)
    (hb : (⟨0, ![]⟩ : Shape).BroadcastsInDim s ![]) (h : s.ReducesTo axes (⟨0, ![]⟩ : Shape))
    (hu : 0 < (⟨0, ![]⟩ : Shape).numel)
    (e : Host.reduce IntOp.andi
        (cmpf .olt (Host.absf x) (broadcastInDim s ![] hb (constant (⟨0, ![]⟩ : Shape) .f32 0x7F800000#32)))
        (constantI (⟨0, ![]⟩ : Shape) 1 1#1) h hu ix0 = 1#1) :
    ∀ i, IsReal (x i) := by
  intro i
  have hi := Host.reduce_andi_all _ _ h hu ix0 e i
  rw [cmpf_apply, broadcastInDim_scalar_apply] at hi
  exact isReal_of_cmp (x i) hi

/-- Under the precondition, on every device, every entry of each float argument array of the idealized kernel is a
    real number (arguments 0 and 3 to 15, in that order). -/
theorem inputs_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i)) ∧
    (∀ i, IsReal ((m ((c.tc : Thread Cert.KernelIdeal.nD Cert.KernelIdeal.τ).loc Cert.KernelIdeal.main_arg3)) i)) ∧
    (∀ i, IsReal ((m ((c.tc : Thread Cert.KernelIdeal.nD Cert.KernelIdeal.τ).loc Cert.KernelIdeal.main_arg4)) i)) ∧
    (∀ i, IsReal ((m ((c.tc : Thread Cert.KernelIdeal.nD Cert.KernelIdeal.τ).loc Cert.KernelIdeal.main_arg5)) i)) ∧
    (∀ i, IsReal ((m ((c.tc : Thread Cert.KernelIdeal.nD Cert.KernelIdeal.τ).loc Cert.KernelIdeal.main_arg6)) i)) ∧
    (∀ i, IsReal ((m ((c.tc : Thread Cert.KernelIdeal.nD Cert.KernelIdeal.τ).loc Cert.KernelIdeal.main_arg7)) i)) ∧
    (∀ i, IsReal ((m ((c.tc : Thread Cert.KernelIdeal.nD Cert.KernelIdeal.τ).loc Cert.KernelIdeal.main_arg8)) i)) ∧
    (∀ i, IsReal ((m ((c.tc : Thread Cert.KernelIdeal.nD Cert.KernelIdeal.τ).loc Cert.KernelIdeal.main_arg9)) i)) ∧
    (∀ i, IsReal ((m ((c.tc : Thread Cert.KernelIdeal.nD Cert.KernelIdeal.τ).loc Cert.KernelIdeal.main_arg10)) i)) ∧
    (∀ i, IsReal ((m ((c.tc : Thread Cert.KernelIdeal.nD Cert.KernelIdeal.τ).loc Cert.KernelIdeal.main_arg11)) i)) ∧
    (∀ i, IsReal ((m ((c.tc : Thread Cert.KernelIdeal.nD Cert.KernelIdeal.τ).loc Cert.KernelIdeal.main_arg12)) i)) ∧
    (∀ i, IsReal ((m ((c.tc : Thread Cert.KernelIdeal.nD Cert.KernelIdeal.τ).loc Cert.KernelIdeal.main_arg13)) i)) ∧
    (∀ i, IsReal ((m ((c.tc : Thread Cert.KernelIdeal.nD Cert.KernelIdeal.τ).loc Cert.KernelIdeal.main_arg14)) i)) ∧
    (∀ i, IsReal ((m ((c.tc : Thread Cert.KernelIdeal.nD Cert.KernelIdeal.τ).loc Cert.KernelIdeal.main_arg15)) i)) := by
  -- the predicate's result, a rank-0 bit array, read at its one index
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  -- a conjunction of bits that is 1 has every conjunct 1
  simp only [andi_ix, IntOp.andi_eq_one] at h0
  obtain ⟨⟨⟨⟨⟨⟨⟨⟨⟨⟨⟨⟨⟨⟨⟨h_0, h_3⟩, h_4⟩, h_5⟩, h_6⟩, h_7⟩, h_8⟩, h_9⟩, h_10⟩, h_11⟩, h_12⟩, h_13⟩, h_14⟩, h_15⟩, h_16⟩, h_17⟩ := h0
  exact ⟨all_isReal _ _ _ _ h_0,
    all_isReal _ _ _ _ h_3,
    all_isReal _ _ _ _ h_4,
    all_isReal _ _ _ _ h_5,
    all_isReal _ _ _ _ h_6,
    all_isReal _ _ _ _ h_7,
    all_isReal _ _ _ _ h_8,
    all_isReal _ _ _ _ h_9,
    all_isReal _ _ _ _ h_10,
    all_isReal _ _ _ _ h_11,
    all_isReal _ _ _ _ h_12,
    all_isReal _ _ _ _ h_13,
    all_isReal _ _ _ _ h_14,
    all_isReal _ _ _ _ h_15⟩

/-- Every entry of argument 0 is a real number. -/
theorem arg0_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg0)) i) :=
  (inputs_isReal m h c).1

/-- Every entry of argument 3 is a real number. -/
theorem arg3_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg3)) i) :=
  (inputs_isReal m h c).2.1

/-- Every entry of argument 4 is a real number. -/
theorem arg4_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg4)) i) :=
  (inputs_isReal m h c).2.2.1

/-- Every entry of argument 5 is a real number. -/
theorem arg5_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg5)) i) :=
  (inputs_isReal m h c).2.2.2.1

/-- Every entry of argument 6 is a real number. -/
theorem arg6_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg6)) i) :=
  (inputs_isReal m h c).2.2.2.2.1

/-- Every entry of argument 7 is a real number. -/
theorem arg7_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg7)) i) :=
  (inputs_isReal m h c).2.2.2.2.2.1

/-- Every entry of argument 8 is a real number. -/
theorem arg8_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg8)) i) :=
  (inputs_isReal m h c).2.2.2.2.2.2.1

/-- Every entry of argument 9 is a real number. -/
theorem arg9_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg9)) i) :=
  (inputs_isReal m h c).2.2.2.2.2.2.2.1

/-- Every entry of argument 10 is a real number. -/
theorem arg10_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg10)) i) :=
  (inputs_isReal m h c).2.2.2.2.2.2.2.2.1

/-- Every entry of argument 11 is a real number. -/
theorem arg11_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg11)) i) :=
  (inputs_isReal m h c).2.2.2.2.2.2.2.2.2.1

/-- Every entry of argument 12 is a real number. -/
theorem arg12_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg12)) i) :=
  (inputs_isReal m h c).2.2.2.2.2.2.2.2.2.2.1

/-- Every entry of argument 13 is a real number. -/
theorem arg13_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg13)) i) :=
  (inputs_isReal m h c).2.2.2.2.2.2.2.2.2.2.2.1

/-- Every entry of argument 14 is a real number. -/
theorem arg14_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg14)) i) :=
  (inputs_isReal m h c).2.2.2.2.2.2.2.2.2.2.2.2.1

/-- Every entry of argument 15 is a real number. -/
theorem arg15_isReal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, IsReal ((m ((c.tc : Thread Cert.KernelIdeal.nD Cert.KernelIdeal.τ).loc Cert.KernelIdeal.main_arg15)) i) :=
  (inputs_isReal m h c).2.2.2.2.2.2.2.2.2.2.2.2.2

end Cert.Finite

end
-- ==== Proof.KernelValue.lean ====
/-
  What the idealized kernel returns, as stages of its argument arrays.

  The three grid regions leave h and p1 = h · W, then xs, z and p2 = xs · W', then the output column; between them the
  host aggregates p1 and p2 along the edges and computes the link loss of z.  Reading each region's input arrays back to
  the launch memory, region by region: h is the reference's first layer; the aggregation of the projected p1 is the
  reference's aggregated message projected afterwards, because every entry involved is a real number under the
  precondition, so xs and z are the reference's; the same one layer on gives the output, and the loss is the same
  function of the same z.
-/
import proofs.«145370_j17231408792162_2_alg».proof.Proof.HostK
import proofs.«145370_j17231408792162_2_alg».proof.Proof.Conv1Value
import proofs.«145370_j17231408792162_2_alg».proof.Proof.Conv2Value
import proofs.«145370_j17231408792162_2_alg».proof.Proof.Conv3Value
import proofs.«145370_j17231408792162_2_alg».proof.Proof.Bridge
import proofs.«145370_j17231408792162_2_alg».proof.Proof.Finite

set_option maxRecDepth 16384

noncomputable section

namespace Cert.KernelIdeal.KernelValue

open Cert.KernelIdeal Cert.KernelIdeal.Gen Cert.KernelIdeal.HostK
open Idealize.ShloMosaic Idealize.ShloMosaic.TcCoe Idealize.SL.Sem

variable [hPre_finite_inputs : Cert.Pre_finite_inputs.Facts]
variable (m : (ℓ : Loc nD τ sig) → Buf (Elt Ideal) ℓ) (ρ : Dev nD → PrngReg)

/-- After region 0, h is the reference's first layer. -/
theorem h_eq (c : Dev nD) : H0 m ρ c = (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) := by
  have e := Cert.KernelIdeal.Conv1.final6 (V3 m ρ) c
  rw [show V3 m ρ c main_arg0 = (m ((c : Thread nD τ).loc main_arg0)) from W3_arg0 m ρ c,
    show V3 m ρ c main_v46 = Cert.HostFns.msg58 (m ((c : Thread nD τ).loc main_arg0)) (m ((c : Thread nD τ).loc main_arg1)) from W3_v46 m ρ c,
    show V3 m ρ c main_arg3 = (m ((c : Thread nD τ).loc main_arg3)) from W3_arg3 m ρ c,
    show V3 m ρ c main_arg4 = (m ((c : Thread nD τ).loc main_arg4)) from W3_arg4 m ρ c,
    show V3 m ρ c main_v47 = (shapeCast S1x300 (m ((c : Thread nD τ).loc main_arg5)) shapeCasts_S300_S1x300) from W3_v47 m ρ c] at e
  exact e.trans (Cert.Bridge.conv1_eq_hR (m ((c : Thread nD τ).loc main_arg1)) (m ((c : Thread nD τ).loc main_arg0)) (m ((c : Thread nD τ).loc main_arg3)) (m ((c : Thread nD τ).loc main_arg4)) (m ((c : Thread nD τ).loc main_arg5)) shapeCasts_S300_S1x300)

/-- After region 0, p1 is that h projected through the second layer's message weights. -/
theorem p1_eq (c : Dev nD) : P1 m ρ c = Cert.Net.proj (N := 100000) (K := 300) (C := 100) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg7)) := by
  have e := Cert.KernelIdeal.Conv1.final7 (V3 m ρ) c
  rw [show V3 m ρ c main_arg0 = (m ((c : Thread nD τ).loc main_arg0)) from W3_arg0 m ρ c,
    show V3 m ρ c main_v46 = Cert.HostFns.msg58 (m ((c : Thread nD τ).loc main_arg0)) (m ((c : Thread nD τ).loc main_arg1)) from W3_v46 m ρ c,
    show V3 m ρ c main_arg3 = (m ((c : Thread nD τ).loc main_arg3)) from W3_arg3 m ρ c,
    show V3 m ρ c main_arg4 = (m ((c : Thread nD τ).loc main_arg4)) from W3_arg4 m ρ c,
    show V3 m ρ c main_v47 = (shapeCast S1x300 (m ((c : Thread nD τ).loc main_arg5)) shapeCasts_S300_S1x300) from W3_v47 m ρ c,
    show V3 m ρ c main_arg7 = (m ((c : Thread nD τ).loc main_arg7)) from W3_arg7 m ρ c] at e
  rw [Cert.Bridge.conv1_eq_hR (m ((c : Thread nD τ).loc main_arg1)) (m ((c : Thread nD τ).loc main_arg0)) (m ((c : Thread nD τ).loc main_arg3)) (m ((c : Thread nD τ).loc main_arg4)) (m ((c : Thread nD τ).loc main_arg5)) shapeCasts_S300_S1x300] at e
  exact e

/-- After region 1, xs is the reference's. -/
theorem xs_eq (hpre : Cert.Pre_KernelIdeal m) (c : Dev nD) : XS m ρ c = (Cert.HostFns.refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) := by
  have e := Cert.KernelIdeal.Conv2.final10 (V5 m ρ) c
  rw [show V5 m ρ c main_v48_0 = (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) from (W5_v48_0 m ρ c).trans (h_eq m ρ c),
    show V5 m ρ c main_v65 = (Cert.HostFns.msg100 (Cert.Net.proj (N := 100000) (K := 300) (C := 100) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg7))) (m ((c : Thread nD τ).loc main_arg1))) from (W5_v65 m ρ c).trans (by rw [p1_eq m ρ c]),
    show V5 m ρ c main_arg0 = (m ((c : Thread nD τ).loc main_arg0)) from W5_arg0 m ρ c,
    show V5 m ρ c main_arg6 = (m ((c : Thread nD τ).loc main_arg6)) from W5_arg6 m ρ c,
    show V5 m ρ c main_v66 = (shapeCast S1x100 (m ((c : Thread nD τ).loc main_arg8)) shapeCasts_S100_S1x100) from W5_v66 m ρ c,
    show V5 m ρ c main_arg12 = (m ((c : Thread nD τ).loc main_arg12)) from W5_arg12 m ρ c,
    show V5 m ρ c main_v67 = (shapeCast S1x100 (m ((c : Thread nD τ).loc main_arg13)) shapeCasts_S100_S1x100) from W5_v67 m ρ c] at e
  rw [Cert.Bridge.conv2_eq_x1R (m ((c : Thread nD τ).loc main_arg1)) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) shapeCasts_S100_S1x100 (Cert.Bridge.isReal_refH (m ((c : Thread nD τ).loc main_arg0)) (m ((c : Thread nD τ).loc main_arg1)) (m ((c : Thread nD τ).loc main_arg3)) (m ((c : Thread nD τ).loc main_arg4)) (m ((c : Thread nD τ).loc main_arg5)) (Cert.Finite.arg0_isReal m hpre c) (Cert.Finite.arg3_isReal m hpre c) (Cert.Finite.arg4_isReal m hpre c) (Cert.Finite.arg5_isReal m hpre c)) (Cert.Finite.arg6_isReal m hpre c) (Cert.Finite.arg7_isReal m hpre c) (Cert.Finite.arg8_isReal m hpre c),
    Cert.Bridge.lin_eq_linR (m ((c : Thread nD τ).loc main_arg0)) (m ((c : Thread nD τ).loc main_arg12)) (m ((c : Thread nD τ).loc main_arg13)) shapeCasts_S100_S1x100] at e
  exact e

/-- After region 1, z is the reference's. -/
theorem zz_eq (hpre : Cert.Pre_KernelIdeal m) (c : Dev nD) : ZZ m ρ c = (Cert.HostFns.refZ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15))) := by
  have e := Cert.KernelIdeal.Conv2.final11 (V5 m ρ) c
  rw [show V5 m ρ c main_v48_0 = (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) from (W5_v48_0 m ρ c).trans (h_eq m ρ c),
    show V5 m ρ c main_v65 = (Cert.HostFns.msg100 (Cert.Net.proj (N := 100000) (K := 300) (C := 100) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg7))) (m ((c : Thread nD τ).loc main_arg1))) from (W5_v65 m ρ c).trans (by rw [p1_eq m ρ c]),
    show V5 m ρ c main_arg0 = (m ((c : Thread nD τ).loc main_arg0)) from W5_arg0 m ρ c,
    show V5 m ρ c main_arg6 = (m ((c : Thread nD τ).loc main_arg6)) from W5_arg6 m ρ c,
    show V5 m ρ c main_v66 = (shapeCast S1x100 (m ((c : Thread nD τ).loc main_arg8)) shapeCasts_S100_S1x100) from W5_v66 m ρ c,
    show V5 m ρ c main_arg14 = (m ((c : Thread nD τ).loc main_arg14)) from W5_arg14 m ρ c,
    show V5 m ρ c main_v68 = (shapeCast S1x100 (m ((c : Thread nD τ).loc main_arg15)) shapeCasts_S100_S1x100) from W5_v68 m ρ c] at e
  rw [Cert.Bridge.conv2_eq_x1R (m ((c : Thread nD τ).loc main_arg1)) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) shapeCasts_S100_S1x100 (Cert.Bridge.isReal_refH (m ((c : Thread nD τ).loc main_arg0)) (m ((c : Thread nD τ).loc main_arg1)) (m ((c : Thread nD τ).loc main_arg3)) (m ((c : Thread nD τ).loc main_arg4)) (m ((c : Thread nD τ).loc main_arg5)) (Cert.Finite.arg0_isReal m hpre c) (Cert.Finite.arg3_isReal m hpre c) (Cert.Finite.arg4_isReal m hpre c) (Cert.Finite.arg5_isReal m hpre c)) (Cert.Finite.arg6_isReal m hpre c) (Cert.Finite.arg7_isReal m hpre c) (Cert.Finite.arg8_isReal m hpre c),
    Cert.Bridge.lin_eq_linR (m ((c : Thread nD τ).loc main_arg0)) (m ((c : Thread nD τ).loc main_arg14)) (m ((c : Thread nD τ).loc main_arg15)) shapeCasts_S100_S1x100] at e
  exact e

/-- After region 1, p2 is that xs projected through the last layer's message weights. -/
theorem p2_eq (hpre : Cert.Pre_KernelIdeal m) (c : Dev nD) :
    P2 m ρ c = Cert.Net.proj (N := 100000) (K := 100) (C := 1) (Cert.HostFns.refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) (m ((c : Thread nD τ).loc main_arg10)) := by
  have e := Cert.KernelIdeal.Conv2.final12 (V5 m ρ) c
  rw [show V5 m ρ c main_v48_0 = (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) from (W5_v48_0 m ρ c).trans (h_eq m ρ c),
    show V5 m ρ c main_v65 = (Cert.HostFns.msg100 (Cert.Net.proj (N := 100000) (K := 300) (C := 100) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg7))) (m ((c : Thread nD τ).loc main_arg1))) from (W5_v65 m ρ c).trans (by rw [p1_eq m ρ c]),
    show V5 m ρ c main_arg0 = (m ((c : Thread nD τ).loc main_arg0)) from W5_arg0 m ρ c,
    show V5 m ρ c main_arg6 = (m ((c : Thread nD τ).loc main_arg6)) from W5_arg6 m ρ c,
    show V5 m ρ c main_v66 = (shapeCast S1x100 (m ((c : Thread nD τ).loc main_arg8)) shapeCasts_S100_S1x100) from W5_v66 m ρ c,
    show V5 m ρ c main_arg12 = (m ((c : Thread nD τ).loc main_arg12)) from W5_arg12 m ρ c,
    show V5 m ρ c main_v67 = (shapeCast S1x100 (m ((c : Thread nD τ).loc main_arg13)) shapeCasts_S100_S1x100) from W5_v67 m ρ c,
    show V5 m ρ c main_arg10 = (m ((c : Thread nD τ).loc main_arg10)) from W5_arg10 m ρ c] at e
  rw [Cert.Bridge.conv2_eq_x1R (m ((c : Thread nD τ).loc main_arg1)) (Cert.HostFns.refH (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) shapeCasts_S100_S1x100 (Cert.Bridge.isReal_refH (m ((c : Thread nD τ).loc main_arg0)) (m ((c : Thread nD τ).loc main_arg1)) (m ((c : Thread nD τ).loc main_arg3)) (m ((c : Thread nD τ).loc main_arg4)) (m ((c : Thread nD τ).loc main_arg5)) (Cert.Finite.arg0_isReal m hpre c) (Cert.Finite.arg3_isReal m hpre c) (Cert.Finite.arg4_isReal m hpre c) (Cert.Finite.arg5_isReal m hpre c)) (Cert.Finite.arg6_isReal m hpre c) (Cert.Finite.arg7_isReal m hpre c) (Cert.Finite.arg8_isReal m hpre c),
    Cert.Bridge.lin_eq_linR (m ((c : Thread nD τ).loc main_arg0)) (m ((c : Thread nD τ).loc main_arg12)) (m ((c : Thread nD τ).loc main_arg13)) shapeCasts_S100_S1x100] at e
  exact e

/-- The returned node output is the reference's. -/
theorem out_eq (hpre : Cert.Pre_KernelIdeal m) (c : Dev nD) :
    W9 m ρ c (Proc.devRef .tc main_v155) = Cert.HostFns.outR (Cert.HostFns.refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) (m ((c : Thread nD τ).loc main_arg1)) (m ((c : Thread nD τ).loc main_arg9)) (m ((c : Thread nD τ).loc main_arg10)) (m ((c : Thread nD τ).loc main_arg11)) := by
  have e := Cert.KernelIdeal.Conv3.final4 (V7 m ρ) c
  rw [show V7 m ρ c main_v69_0 = (Cert.HostFns.refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) from (W7_v69_0 m ρ c).trans (xs_eq m ρ hpre c),
    show V7 m ρ c main_v152 = Cert.HostFns.msg1 (Cert.Net.proj (N := 100000) (K := 100) (C := 1) (Cert.HostFns.refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) (m ((c : Thread nD τ).loc main_arg10))) (m ((c : Thread nD τ).loc main_arg1))
      from (W7_v152 m ρ c).trans (by rw [p2_eq m ρ hpre c]),
    show V7 m ρ c main_arg9 = (m ((c : Thread nD τ).loc main_arg9)) from W7_arg9 m ρ c,
    show V7 m ρ c main_v153 = (shapeCast S1x1 (m ((c : Thread nD τ).loc main_arg11)) shapeCasts_S1_S1x1) from W7_v153 m ρ c] at e
  refine (W9_v155 m ρ c).trans ?_
  rw [show OUT m ρ c = _ from e]
  exact Cert.Bridge.conv3_eq_outR (m ((c : Thread nD τ).loc main_arg1)) (Cert.HostFns.refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))) (m ((c : Thread nD τ).loc main_arg9)) (m ((c : Thread nD τ).loc main_arg10)) (m ((c : Thread nD τ).loc main_arg11)) shapeCasts_S1_S1x1 shapeCasts_S100000x1_S100000
    (Cert.Bridge.isReal_refXs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (Cert.Finite.arg0_isReal m hpre c) (Cert.Finite.arg3_isReal m hpre c) (Cert.Finite.arg4_isReal m hpre c) (Cert.Finite.arg5_isReal m hpre c) (Cert.Finite.arg6_isReal m hpre c) (Cert.Finite.arg7_isReal m hpre c) (Cert.Finite.arg8_isReal m hpre c) (Cert.Finite.arg12_isReal m hpre c) (Cert.Finite.arg13_isReal m hpre c)) (Cert.Finite.arg9_isReal m hpre c) (Cert.Finite.arg10_isReal m hpre c) (Cert.Finite.arg11_isReal m hpre c)

/-- The returned loss is the reference's. -/
theorem loss_eq (hpre : Cert.Pre_KernelIdeal m) (c : Dev nD) :
    W9 m ρ c (Proc.devRef .tc main_v136) = Cert.HostFns.loss (Cert.HostFns.refZ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg14)) (m ((c : Thread nD τ).loc main_arg15))) (m ((c : Thread nD τ).loc main_arg1)) (m ((c : Thread nD τ).loc main_arg2)) := by
  refine (W9_v136 m ρ c).trans ?_
  rw [zz_eq m ρ hpre c]

end Cert.KernelIdeal.KernelValue

end
-- ==== Proof.lean ====
/-
  The kernel computes a three-layer Chebyshev graph convolution followed by a link loss.  Each layer is
  max (x · W0 + (L x) · W1 + b) 0 (the last one without the rectifier), L x the aggregation of the node rows along the
  edges with the normalised weights -d^(-1/2)[src] · d^(-1/2)[dst]; the loss is the mean over the edges of
  -log (sigmoid ⟨z_src, z_dst⟩ + ε) plus the same over the negative edges with 1 - sigmoid.

  It differs from the reference in two ways.  Its dense layers run in three grid regions that work through the
  100000 node rows in 50 blocks of 2000; every dense stage acts row by row, so what a region leaves in an output array
  is the stage of the whole input arrays.  And from the second layer on it projects a layer's input through the weight
  matrix W1 BEFORE aggregating along the edges, (L (h · W1)) instead of ((L h) · W1).  Aggregation is a finite sum over
  edges of a scalar times a source row, and the matrix product is a finite sum over the shared coordinate; over the
  extended reals the two sums may be exchanged, and the scalar moved through the product, when every entry is a real
  number.  The precondition makes every float argument entry a real number, every stage maps real entries to real
  entries, so the two orders agree entry by entry and both programs end with the same output and the same loss.

  The frames of the kernel and of its idealization are the generated ones; the reference's frame and its values are
  its run, one host operation after another.
-/
import proofs.«145370_j17231408792162_2_alg».proof.Defs
import proofs.«145370_j17231408792162_2_alg».proof.Proof.Gen.Kernel
import proofs.«145370_j17231408792162_2_alg».proof.Proof.Gen.Kernel.Skeleton
import proofs.«145370_j17231408792162_2_alg».proof.Proof.Gen.Kernel.Launch
import proofs.«145370_j17231408792162_2_alg».proof.Proof.Gen.Kernel.Points
import proofs.«145370_j17231408792162_2_alg».proof.Proof.Gen.Kernel.Frame
import proofs.«145370_j17231408792162_2_alg».proof.Proof.Gen.KernelIdeal
import proofs.«145370_j17231408792162_2_alg».proof.Proof.Gen.KernelIdeal.Skeleton
import proofs.«145370_j17231408792162_2_alg».proof.Proof.Gen.KernelIdeal.Launch
import proofs.«145370_j17231408792162_2_alg».proof.Proof.Gen.KernelIdeal.Points
import proofs.«145370_j17231408792162_2_alg».proof.Proof.Gen.KernelIdeal.Frame
import proofs.«145370_j17231408792162_2_alg».proof.Proof.Gen.ReferenceIdeal
import proofs.«145370_j17231408792162_2_alg».proof.Proof.Gen.Pre_finite_inputs
import proofs.«145370_j17231408792162_2_alg».proof.Proof.HostFns
import proofs.«145370_j17231408792162_2_alg».proof.Proof.KRun
import proofs.«145370_j17231408792162_2_alg».proof.Proof.RefRun
import proofs.«145370_j17231408792162_2_alg».proof.Proof.KernelValue
import Idealize.ShloMosaic.Adequacy
import Idealize.ShloMosaic.Init

set_option maxRecDepth 16384

noncomputable section

namespace Cert.Proof

open Idealize.ShloMosaic Idealize.SL.Sem

/-- The kernel as printed runs and leaves its arguments as it found them: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run ends with its arguments unchanged: the last eighteen facts of its run. -/
theorem frame_ri : Cert.frame_ReferenceIdeal := fun m ρ _ =>
  (θ_run Cert.ReferenceIdeal.defs _ _).mono (fun _ h c => (h c).2.2.2.2) (Cert.ReferenceIdeal.RefRun.run m ρ)

/-- The idealization rewrote no operation. -/
theorem preserves : Cert.preserves_Kernel_KernelIdeal := trivial

section Algebraic
open Cert.KernelIdeal Cert.KernelIdeal.Gen

/-- From memories that agree on the arguments both programs run, and both end with the output at the last layer of
    the reference's xs and the loss at the link loss of the reference's z, as functions of the kernel's arguments:
    the kernel by its value theorems, the reference by its run read at the agreeing arguments. -/
theorem algebraic : Cert.algebraic_KernelIdeal_ReferenceIdeal := by
  intro m ρ m' ρ' hpre hagree
  refine ⟨fun c => Cert.HostFns.outR (Cert.HostFns.refXs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.HostFns.loss (Cert.HostFns.refZ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg16),
    fun c => m ((c.tc : Thread Cert.KernelIdeal.nD Cert.KernelIdeal.τ).loc Cert.KernelIdeal.main_arg17), ?_, ?_⟩
  · exact (θ_run Cert.KernelIdeal.defs _ _).mono (fun r h c =>
      ⟨(h c _ (mem_uc main_v155 (by decide))).trans (Cert.KernelIdeal.KernelValue.out_eq m ρ hpre c),
      (h c _ (mem_uc main_v136 (by decide))).trans (Cert.KernelIdeal.KernelValue.loss_eq m ρ hpre c),
      (h c _ (mem_uc main_arg16 (by decide))).trans (W9_main_arg16 m ρ c),
      (h c _ (mem_uc main_arg17 (by decide))).trans (W9_main_arg17 m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c),
      (h c _ (mem_uc main_arg11 (by decide))).trans (W9_main_arg11 m ρ c),
      (h c _ (mem_uc main_arg12 (by decide))).trans (W9_main_arg12 m ρ c),
      (h c _ (mem_uc main_arg13 (by decide))).trans (W9_main_arg13 m ρ c),
      (h c _ (mem_uc main_arg14 (by decide))).trans (W9_main_arg14 m ρ c),
      (h c _ (mem_uc main_arg15 (by decide))).trans (W9_main_arg15 m ρ c),
      (h c _ (mem_uc main_arg16 (by decide))).trans (W9_main_arg16 m ρ c),
      (h c _ (mem_uc main_arg17 (by decide))).trans (W9_main_arg17 m ρ c)⟩)
      (Cert.KernelIdeal.KRun.run_named m ρ)
  · refine (θ_run Cert.ReferenceIdeal.defs _ _).mono (fun r h c => ?_) (Cert.ReferenceIdeal.RefRun.run m' ρ')
    obtain ⟨h0, h1, h2, h3, hrest⟩ := h c
    obtain ⟨a0, a1, a2, a3, a4, a5, a6, a7, a8, a9, a10, a11, a12, a13, a14, a15, a16, a17⟩ := hagree c
    refine ⟨h0.trans ?_, h1.trans ?_, h2.trans a16, h3.trans a17, hrest⟩
    · rw [a0, a1, a3, a4, a5, a6, a7, a8, a12, a13, a9, a10, a11]
    · rw [a0, a1, a3, a4, a5, a6, a7, a8, a14, a15, a2]

end Algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
